-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1x1024x1024 : Shape := ⟨3, ![1, 1024, 1024]⟩
abbrev S3x1024x1024 : Shape := ⟨3, ![3, 1024, 1024]⟩
abbrev S3x8192x1024 : Shape := ⟨3, ![3, 8192, 1024]⟩
abbrev S512x1024 : Shape := ⟨2, ![512, 1024]⟩
abbrev S3x512x1024 : Shape := ⟨3, ![3, 512, 1024]⟩
abbrev S1x512x1024 : Shape := ⟨3, ![1, 512, 1024]⟩
abbrev S3x4x2048x1024 : Shape := ⟨4, ![3, 4, 2048, 1024]⟩
abbrev S1x1x512x1024 : Shape := ⟨4, ![1, 1, 512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S3x1024x1024, .f32⟩
  | .hbm, ⟨9, _⟩ => ⟨S3x1024x1024, .bf16⟩
  | .hbm, ⟨10, _⟩ => ⟨S3x8192x1024, .bf16⟩
  | .hbm, ⟨11, _⟩ => ⟨S3x4x2048x1024, .bf16⟩
  | .hbm, ⟨12, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3x1024x1024, .bf16⟩
  | .local _ .vmem, ⟨3, _⟩ => ⟨S3x512x1024, .bf16⟩
  | .local _ .vmem, ⟨4, _⟩ => ⟨S3x512x1024, .bf16⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  let c0_i32_0 : BitVec 32 := 0#32
  ![c1_i32.toNat, arg0.toNat, v0.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  let c0_i32_0 : BitVec 32 := 0#32
  ![c2_i32.toNat, arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S3x512x1024_S1x512x1024_0_0_0 : (Rect.unit (s := S3x512x1024) ![0, 0, 0] S1x512x1024.size inb_S3x512x1024_S1x512x1024_0_0_0).PackedRows (EltTy.packing .bf16)
  inb_S3x1024x1024_S1x1024x1024_1_0_0 : ∀ a, (![1, 0, 0] : Fin 3 → Nat) a + S1x1024x1024.size a ≤ S3x1024x1024.size a
  inb_S3x512x1024_S1x512x1024_1_0_0 : ∀ a, (![1, 0, 0] : Fin 3 → Nat) a + S1x512x1024.size a ≤ S3x512x1024.size a
  packedbf16_S3x512x1024_S1x512x1024_1_0_0 : (Rect.unit (s := S3x512x1024) ![1, 0, 0] S1x512x1024.size inb_S3x512x1024_S1x512x1024_1_0_0).PackedRows (EltTy.packing .bf16)
  inb_S3x1024x1024_S1x1024x1024_2_0_0 : ∀ a, (![2, 0, 0] : Fin 3 → Nat) a + S1x1024x1024.size a ≤ S3x1024x1024.size a
  inb_S3x512x1024_S1x512x1024_2_0_0 : ∀ a, (![2, 0, 0] : Fin 3 → Nat) a + S1x512x1024.size a ≤ S3x512x1024.size a
  packedbf16_S3x512x1024_S1x512x1024_2_0_0 : (Rect.unit (s := S3x512x1024) ![2, 0, 0] S1x512x1024.size inb_S3x512x1024_S1x512x1024_2_0_0).PackedRows (EltTy.packing .bf16)
  shapeCasts_S3x8192x1024_S3x4x2048x1024 : S3x8192x1024.ShapeCasts S3x4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x512x1024_S1x512x1024_0_0_0 : ∀ a, (![0, 0, 0] : Fin 3 → Nat) a + S1x512x1024.size a ≤ S1x512x1024.size a
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x1024x1024.size a
  hwx0_1 : ∀ i : grid0.Coords, EltTy.bits .bf16 = 32 ∨ (Rect.block (s := S3x1024x1024) S3x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x1024.size a ≤ S3x8192x1024.size a
  hwx0_2 : ∀ i : grid0.Coords, EltTy.bits .bf16 = 32 ∨ (Rect.block (s := S3x8192x1024) S3x512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x1024.size a ≤ S3x4x2048x1024.size a
  hwx1_0 : ∀ i : grid1.Coords, EltTy.bits .bf16 = 32 ∨ (Rect.block (s := S3x4x2048x1024) S1x1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x1024.size a ≤ S3x4x2048x1024.size a
  hwx1_1 : ∀ i : grid1.Coords, EltTy.bits .bf16 = 32 ∨ (Rect.block (s := S3x4x2048x1024) S1x1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x1024.size a ≤ S3x4x2048x1024.size a
  hwx1_2 : ∀ i : grid1.Coords, EltTy.bits .bf16 = 32 ∨ (Rect.block (s := S3x4x2048x1024) S1x1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K_R0.lean ====
/- REGION 0 of @main (the fused q/k/v projection, pipeline 0) at a parameter \`V\`, the TensorCore's buffer
   contents when the region is entered: each window's block at a point, what the body leaves in the output
   window's buffer (three slabs, one per projection), the body's triple, the pipeline's proof data and its body
   obligation. -/
import proofs.«131958_j46909632807066_2_alg».proof.Proof.Gen.Kernel.Launch
import proofs.«131958_j46909632807066_2_alg».proof.Proof.Gen.Kernel.Skeleton
import proofs.«131958_j46909632807066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! ## The windows' blocks -/

/-- Window \`w\`'s block at point \`t\`, read off its array as the region finds it (\`V\`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block of x) holds its block at every point, fetched there or not, for any proof data
    whose array is \`V\`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight stack) is fetched at the first point only; unfetched, its block index has not
    moved, so its buffer holds the block at every point all the same. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of x. -/
abbrev xRect : Rect S512x1024 := Rect.unit (s := S512x1024) ![0, 0] S512x1024.size inb_S512x1024_S512x1024_0_0
/-- The three weight matrices of the stack (q, k, v in this order). -/
abbrev wSlab0 : Rect S3x1024x1024 := Rect.unit (s := S3x1024x1024) ![0, 0, 0] S1x1024x1024.size inb_S3x1024x1024_S1x1024x1024_0_0_0
abbrev wSlab1 : Rect S3x1024x1024 := Rect.unit (s := S3x1024x1024) ![1, 0, 0] S1x1024x1024.size inb_S3x1024x1024_S1x1024x1024_1_0_0
abbrev wSlab2 : Rect S3x1024x1024 := Rect.unit (s := S3x1024x1024) ![2, 0, 0] S1x1024x1024.size inb_S3x1024x1024_S1x1024x1024_2_0_0
/-- The three slabs of the output block, one per projection. -/
abbrev oSlab0 : Rect S3x512x1024 := Rect.unit (s := S3x512x1024) ![0, 0, 0] S1x512x1024.size inb_S3x512x1024_S1x512x1024_0_0_0
abbrev oSlab1 : Rect S3x512x1024 := Rect.unit (s := S3x512x1024) ![1, 0, 0] S1x512x1024.size inb_S3x512x1024_S1x512x1024_1_0_0
abbrev oSlab2 : Rect S3x512x1024 := Rect.unit (s := S3x512x1024) ![2, 0, 0] S1x512x1024.size inb_S3x512x1024_S1x512x1024_2_0_0

/-! ## What the body leaves in the output window's buffer -/

/-- Window 2's staging buffer after the body, from the input windows' blocks: its three stores as pieces, LAST
    FIRST — slab \`p\` is x's block times weight matrix \`p\`. -/
def out0_2 (x0 : Vec F S512x1024 .f32) (x1 : Vec F S3x1024x1024 .bf16) : Vec F S3x512x1024 .bf16 :=
  View.canon [⟨oSlab2, k0_pay4 (View.ld x0 xRect) (View.ld x1 wSlab2)⟩,
    ⟨oSlab1, k0_pay3 (View.ld x0 xRect) (View.ld x1 wSlab1)⟩,
    ⟨oSlab0, k0_pay2 (View.ld x0 xRect) (View.ld x1 wSlab0)⟩]

/-- The three slabs tile the block, so they cover it. -/
theorem cover0_2 (p0 : Vec F S1x512x1024 .bf16) (p1 : Vec F S1x512x1024 .bf16) (p2 : Vec F S1x512x1024 .bf16) (y : S3x512x1024.Idx) :
    ∃ pc ∈ ([⟨oSlab2, p0⟩, ⟨oSlab1, p1⟩, ⟨oSlab0, p2⟩] : List (View.Piece (Elt F) S3x512x1024 .bf16)), y ∈ pc.1.set :=
  View.cover_of_tiled [⟨oSlab2, p0⟩, ⟨oSlab1, p1⟩, ⟨oSlab0, p2⟩] S1x512x1024.size (by rfl) y

/-! ## The body's triple -/

set_option maxHeartbeats 1000000 in
/-- The kernel body on whole staging memrefs, the inputs' at read contents \`x0\`, \`x1\` and the output's at anything,
    runs to the continuation holding the inputs' as they were and the output's at \`out0_2\` of the inputs. -/
theorem sound_kernel0 (c : Dev nD) (E : Set ℕ) (i : grid0.Coords) (arg1 : Memref sig .tc .vmem S512x1024 .f32) (harg1 : arg1.IsWhole)
    (arg2 : Memref sig .tc .vmem S3x1024x1024 .bf16) (harg2 : arg2.IsWhole) (arg3 : Memref sig .tc .vmem S3x512x1024 .bf16) (harg3 : arg3.IsWhole)
    (x0 : Vec F S512x1024 .f32) (x1 : Vec F S3x1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_fused_qkv_kernel i arg1 harg1 arg2 harg2 arg3 harg3) K := by
  simp only [cc0_fused_qkv_kernel_eq_skeleton]; unfold cc0_fused_qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The pipeline's proof data -/

/-- The proof data of pipeline 0 on core \`c\`: the arrays as the region finds them (\`V\`); after the body at point \`t\`
    each input's buffer at its block and the output's at \`out0_2\` of the input blocks; the invariant the scoped rest
    and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point \`t\`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's \`owes\` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K_R1Runs.lean ====
import proofs.«131958_j46909632807066_2_alg».proof.Proof.Gen.Kernel.Launch
import proofs.«131958_j46909632807066_2_alg».proof.Proof.Gen.Kernel.Skeleton
import proofs.«131958_j46909632807066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the causal flash-attention body over the grid 4 × 4 × 4): what its whole-body runs share -/

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). The three input windows
    (query, key, value) read one and the same array, each through its own block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's three tests, over a grid point

  The grid is 4 × 4 × 4 with coordinates (b, qi, ki): the batch, the query block, the key block; the key block is the
  fastest coordinate, so a point `t` has ki = t mod 4 and qi = (t / 4) mod 4. -/

/-- "This is the row's first key block" (ki = 0): the running maximum, denominator and numerator are initialised. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The key block is not past the diagonal" (ki ≤ qi, signed): one online-softmax update is made. -/
abbrev cond1_1 (i : grid1.Coords) : Prop := (Scalar.cmpi .ne (Scalar.extui (Scalar.cmpi .sle (BitVec.ofNat 32 (i 2).val) (BitVec.ofNat 32 (i 1).val))) 0#32) = 1#1
/-- It holds where t mod 4 ≤ (t / 4) mod 4 — decided over the 64 points. -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)

/-- "This is the row's last key block" (ki = 3): the numerator is divided by the denominator and the block stored. -/
abbrev cond1_2 (i : grid1.Coords) : Prop := k1_cond3 i = 1#1
/-- It holds at the points ≡ 3 (mod 4) — decided over the 64 points. -/
theorem hcond1_2 : ∀ t : Fin cfg1.N, cond1_2 (grid1.coords t) ↔ t.val % 4 = 3 :=
  (by decide +kernel : ∀ t : Fin grid1.N, cond1_2 (grid1.coords t) ↔ t.val % 4 = 3)

/-- Of the eight combinations of the three tests only five occur on the grid: A first block (so on or below the
    diagonal, and not last); B a later block on or below the diagonal, not last; C the last block on the diagonal
    (ki = 3 = qi); D past the diagonal, not last; E the last block, past the diagonal. -/
theorem hcases1 : ∀ t : Fin cfg1.N,
    (cond1_0 (grid1.coords t) ∧ cond1_1 (grid1.coords t) ∧ ¬cond1_2 (grid1.coords t))
    ∨ (¬cond1_0 (grid1.coords t) ∧ cond1_1 (grid1.coords t) ∧ ¬cond1_2 (grid1.coords t))
    ∨ (¬cond1_0 (grid1.coords t) ∧ cond1_1 (grid1.coords t) ∧ cond1_2 (grid1.coords t))
    ∨ (¬cond1_0 (grid1.coords t) ∧ ¬cond1_1 (grid1.coords t) ∧ ¬cond1_2 (grid1.coords t))
    ∨ (¬cond1_0 (grid1.coords t) ∧ ¬cond1_1 (grid1.coords t) ∧ cond1_2 (grid1.coords t)) :=
  (by decide +kernel : ∀ t : Fin grid1.N,
    (cond1_0 (grid1.coords t) ∧ cond1_1 (grid1.coords t) ∧ ¬cond1_2 (grid1.coords t))
    ∨ (¬cond1_0 (grid1.coords t) ∧ cond1_1 (grid1.coords t) ∧ ¬cond1_2 (grid1.coords t))
    ∨ (¬cond1_0 (grid1.coords t) ∧ cond1_1 (grid1.coords t) ∧ cond1_2 (grid1.coords t))
    ∨ (¬cond1_0 (grid1.coords t) ∧ ¬cond1_1 (grid1.coords t) ∧ ¬cond1_2 (grid1.coords t))
    ∨ (¬cond1_0 (grid1.coords t) ∧ ¬cond1_1 (grid1.coords t) ∧ cond1_2 (grid1.coords t)))

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key block the output window is idle: nothing is stored into it. -/
theorem idleAt1_3 : ∀ t : Fin cfg1.N, ¬cond1_2 (grid1.coords t) → cfg1.idle 3 (grid1.coords t) = true :=
  (by decide +kernel : ∀ t : Fin grid1.N, ¬cond1_2 (grid1.coords t) → idle1 3 (grid1.coords t) = true)
/-- And there the pipeline does not write its block back. -/
theorem noFlush1_3 : ∀ t : Fin cfg1.N, ¬cond1_2 (grid1.coords t) → (cfg1.win 3).flush t = false :=
  (by decide +kernel : ∀ t : Fin grid1.N, ¬cond1_2 (grid1.coords t) → win1_3.flush t = false)
/-- On the last key block the output window is live: the block is stored. -/
theorem liveAt1_3 : ∀ t : Fin cfg1.N, cond1_2 (grid1.coords t) → cfg1.idle 3 (grid1.coords t) = false :=
  (by decide +kernel : ∀ t : Fin grid1.N, cond1_2 (grid1.coords t) → idle1 3 (grid1.coords t) = false)
/-- The same case by case (A, B, D leave the output idle; C, E store it). -/
theorem idleAt1_3_A : ∀ t : Fin cfg1.N, cond1_0 (grid1.coords t) → cond1_1 (grid1.coords t) → ¬cond1_2 (grid1.coords t) → cfg1.idle 3 (grid1.coords t) = true := fun t _ _ h => idleAt1_3 t h
theorem noFlush1_3_A : ∀ t : Fin cfg1.N, cond1_0 (grid1.coords t) → cond1_1 (grid1.coords t) → ¬cond1_2 (grid1.coords t) → (cfg1.win 3).flush t = false := fun t _ _ h => noFlush1_3 t h
theorem idleAt1_3_B : ∀ t : Fin cfg1.N, ¬cond1_0 (grid1.coords t) → cond1_1 (grid1.coords t) → ¬cond1_2 (grid1.coords t) → cfg1.idle 3 (grid1.coords t) = true := fun t _ _ h => idleAt1_3 t h
theorem noFlush1_3_B : ∀ t : Fin cfg1.N, ¬cond1_0 (grid1.coords t) → cond1_1 (grid1.coords t) → ¬cond1_2 (grid1.coords t) → (cfg1.win 3).flush t = false := fun t _ _ h => noFlush1_3 t h
theorem liveAt1_3_C : ∀ t : Fin cfg1.N, ¬cond1_0 (grid1.coords t) → cond1_1 (grid1.coords t) → cond1_2 (grid1.coords t) → cfg1.idle 3 (grid1.coords t) = false := fun t _ _ h => liveAt1_3 t h
theorem idleAt1_3_D : ∀ t : Fin cfg1.N, ¬cond1_0 (grid1.coords t) → ¬cond1_1 (grid1.coords t) → ¬cond1_2 (grid1.coords t) → cfg1.idle 3 (grid1.coords t) = true := fun t _ _ h => idleAt1_3 t h
theorem noFlush1_3_D : ∀ t : Fin cfg1.N, ¬cond1_0 (grid1.coords t) → ¬cond1_1 (grid1.coords t) → ¬cond1_2 (grid1.coords t) → (cfg1.win 3).flush t = false := fun t _ _ h => noFlush1_3 t h
theorem liveAt1_3_E : ∀ t : Fin cfg1.N, ¬cond1_0 (grid1.coords t) → ¬cond1_1 (grid1.coords t) → cond1_2 (grid1.coords t) → cfg1.idle 3 (grid1.coords t) = false := fun t _ _ h => liveAt1_3 t h

/-! ## The memrefs the body is called with -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, spelled as the pipeline passes it, and its wholeness. -/
abbrev ms1_0 (t : Fin cfg1.N) : Memref sig .tc .vmem S1x1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands, whole scoped buffers carried from point to point: the running row maximum, the running
    denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch operands as views: what they hold is stated through these. -/
abbrev VS1_0 : View sig .tc .vmem S512x1 .f32 := scM1_0.view
abbrev VS1_1 : View sig .tc .vmem S512x1 .f32 := scM1_1.view
abbrev VS1_2 : View sig .tc .vmem S512x1024 .f32 := scM1_2.view

/-- The body at point `t` is the kernel function on these memrefs. -/
theorem bodyAt1_eq (t : Fin cfg1.N) :
    bodyAt1 (F := F) t = cc1_flash_causal_attn_kernel (grid1.coords t) (ms1_0 t) (hs1_0 t) (ms1_1 t) (hs1_1 t) (ms1_2 t) (hs1_2 t) (ms1_3 t) (hs1_3 t)
      scM1_0 (Memref.isWhole_whole _) scM1_1 (Memref.isWhole_whole _) scM1_2 (Memref.isWhole_whole _) := rfl

end Cert.Kernel.Hand

end
-- ==== Proof.K_R1RunA.lean ====
import proofs.«131958_j46909632807066_2_alg».proof.Proof.K_R1Runs

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue walks it past the default budget)
set_option maxHeartbeats 1000000 in
/-- CASE A — the row's first key block (ki = 0, hence on or below the diagonal, and not the last): the running maximum, denominator and numerator are initialised, then one online-softmax update is made. The scratch buffers are taken at anything; the output block is not touched. -/
noncomputable def kernelRun1_A (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, fun xi3 K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%f3, %hf3, H3⟩, ⟨%dfs0, %fs0, -, HS0⟩, ⟨%dfs1, %fs1, -, HS1⟩, ⟨%dfs2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K_R1RunB.lean ====
import proofs.«131958_j46909632807066_2_alg».proof.Proof.K_R1Runs

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue walks it past the default budget)
set_option maxHeartbeats 1000000 in
/-- CASE B — a later key block on or below the diagonal (0 < ki ≤ qi), not the last: one online-softmax update of the running maximum, denominator and numerator, from what the point before left in them. The output block is not touched. -/
noncomputable def kernelRun1_B (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, fun xi3 K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K_R1RunC.lean ====
import proofs.«131958_j46909632807066_2_alg».proof.Proof.K_R1Runs

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue walks it past the default budget)
set_option maxHeartbeats 1000000 in
/-- CASE C — the last key block, on the diagonal (ki = 3 = qi): one online-softmax update, then the numerator is divided by the denominator and the output block stored. -/
noncomputable def kernelRun1_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, ?_, fun K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K_R1RunD.lean ====
import proofs.«131958_j46909632807066_2_alg».proof.Proof.K_R1Runs

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue walks it past the default budget)
set_option maxHeartbeats 1000000 in
/-- CASE D — a key block past the diagonal (ki > qi), not the last: the body touches nothing, and every buffer is handed back as it was. -/
theorem kernelRun1_D (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K := by
  intro xi3 K
  simp only [cc1_flash_causal_attn_kernel_eq_skeleton]; unfold cc1_flash_causal_attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Hand

end
-- ==== Proof.K_R1RunE.lean ====
import proofs.«131958_j46909632807066_2_alg».proof.Proof.K_R1Runs

-- membership in a rectangle of production extents: the elaborator's structural look recurses once per
-- coordinate of the long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue walks it past the default budget)
set_option maxHeartbeats 1000000 in
/-- CASE E — the last key block, past the diagonal (ki = 3 > qi): no update; the numerator is divided by the denominator and the output block stored; the scratch buffers are read only and handed back as they were. -/
noncomputable def kernelRun1_E (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    { L3 : List (View.Piece (Elt F) S1x512x1024 .f32) //
      ∀ (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, fun K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K_Shares.lean ====
/- The shares at which region 1 (the causal attention pipeline) holds its windows' arrays. Its three input windows —
   the query, key and value blocks — all read ONE array, so that array's points-to is dealt among them: the full share
   halves into a left and a right half, and the right half halves again. The output window's array is its own and is
   held whole. -/
import proofs.«131958_j46909632807066_2_alg».proof.Proof.Gen.Kernel.Launch

noncomputable section

namespace Cert.Kernel.Hand

open Cert.Kernel Cert.Kernel.Gen
open Idealize.ShloMosaic Idealize.ShloMosaic.TcCoe
open Idealize.SL Idealize.SL.RA

/-- Window by window: the query window holds the left half of the shared array, the key window the left half of the
    right half, the value window the right half of the right half (the three compose to the full share:
    `PosShare.mem_left_op_right` twice); the output window holds its array at the full share. -/
def q1 : Fin cfg1.W → PosShare TreeShare := fun
  | ⟨0, _⟩ => fullShare.left
  | ⟨1, _⟩ => fullShare.right.left
  | ⟨2, _⟩ => fullShare.right.right
  | ⟨3, _⟩ => fullShare
  | ⟨_ + 4, h⟩ => absurd h (Nat.not_lt.2 (Nat.le_add_left _ _))

@[simp] theorem q1_0 : q1 (0 : Fin 4) = fullShare.left := rfl
@[simp] theorem q1_1 : q1 (1 : Fin 4) = fullShare.right.left := rfl
@[simp] theorem q1_2 : q1 (2 : Fin 4) = fullShare.right.right := rfl
@[simp] theorem q1_3 : q1 (3 : Fin 4) = fullShare := rfl

end Cert.Kernel.Hand

end
-- ==== Proof.K_R1Dat.lean ====
/- REGION 1 of @main (the causal flash-attention call, pipeline 1, over the grid 4 × 4 × 4 of (batch, query block, key
   block)) at a parameter `V`, the TensorCore's buffer contents when the region is entered. The body keeps three
   accumulators from one key block to the next — the running row maximum, the running denominator and the running
   numerator of the online softmax — and stores the output block only at a row's last key block. Here: what each of
   the body's five cases leaves in the output buffer and in the three accumulators; those contents point by point,
   by recursion on the point (`outsAt1`); the region's invariant, which owns each accumulator at what the point before
   left in it (`PhiS1`); the pipeline's proof data (`dat1`), its body obligation, and the invariant's two ends. -/
import proofs.«131958_j46909632807066_2_alg».proof.Proof.K_R1RunA
import proofs.«131958_j46909632807066_2_alg».proof.Proof.K_R1RunB
import proofs.«131958_j46909632807066_2_alg».proof.Proof.K_R1RunC
import proofs.«131958_j46909632807066_2_alg».proof.Proof.K_R1RunD
import proofs.«131958_j46909632807066_2_alg».proof.Proof.K_R1RunE
import proofs.«131958_j46909632807066_2_alg».proof.Proof.K_Shares

-- membership in a rectangle of these extents: the elaborator's structural look recurses once per coordinate of the
-- long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the output buffer and in the three accumulators

  A buffer a case stores into holds that case's pieces read back (they tile it, so neither the buffer they are read
  through nor what it held before matters); a buffer a case does not store into holds what it was given. -/

/-- Case A stores nothing into the output block, and no point before the grid's first has: a placeholder that nothing
    consults, since at these points the window is neither written back nor read at the next point. -/
def out1_A_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S1x512x1024 .f32 :=
  VO1_3.read (Elt F) VO1_3.junk

/-- Case A's pieces for the running maximum tile the buffer (each is one whole-buffer store), so they cover it. -/
theorem scover1_A_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x1.size (by sl_kernel_rfl) y

/-- What case A leaves in the running maximum: its pieces read back. -/
def sout1_A_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's pieces for the running denominator tile the buffer (each is one whole-buffer store), so they cover it. -/
theorem scover1_A_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What case A leaves in the running denominator: its pieces read back. -/
def sout1_A_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's pieces for the running numerator tile the buffer (each is one whole-buffer store), so they cover it. -/
theorem scover1_A_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1024.size (by sl_kernel_rfl) y

/-- What case A leaves in the running numerator: its pieces read back. -/
def sout1_A_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B stores nothing into the output block: its buffer is left as given (nothing consults it: at these points the
    window is neither written back nor read at the next point). -/
def out1_B_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (xo : Vec F S1x512x1024 .f32) : Vec F S1x512x1024 .f32 := xo

/-- Case B's pieces for the running maximum tile the buffer (each is one whole-buffer store), so they cover it. -/
theorem scover1_B_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S512x1.size (by sl_kernel_rfl) y

/-- What case B leaves in the running maximum: its pieces read back. -/
def sout1_B_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's pieces for the running denominator tile the buffer (each is one whole-buffer store), so they cover it. -/
theorem scover1_B_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What case B leaves in the running denominator: its pieces read back. -/
def sout1_B_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's pieces for the running numerator tile the buffer (each is one whole-buffer store), so they cover it. -/
theorem scover1_B_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1024.size (by sl_kernel_rfl) y

/-- What case B leaves in the running numerator: its pieces read back. -/
def sout1_B_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case C's pieces for the output block tile it (one whole-block store), so they cover it. -/
theorem cover1_C_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x1024.size (by sl_kernel_rfl) y

/-- What case C leaves in the output window's staging buffer: its pieces read back. -/
def out1_C_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

/-- Case C's pieces for the running maximum tile the buffer (each is one whole-buffer store), so they cover it. -/
theorem scover1_C_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S512x1.size (by sl_kernel_rfl) y

/-- What case C leaves in the running maximum: its pieces read back. -/
def sout1_C_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

/-- Case C's pieces for the running denominator tile the buffer (each is one whole-buffer store), so they cover it. -/
theorem scover1_C_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S512x1.size (by sl_kernel_rfl) y

/-- What case C leaves in the running denominator: its pieces read back. -/
def sout1_C_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

/-- Case C's pieces for the running numerator tile the buffer (each is one whole-buffer store), so they cover it. -/
theorem scover1_C_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What case C leaves in the running numerator: its pieces read back. -/
def sout1_C_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

/-- Case D stores nothing at all: the output buffer is left as given, -/
def out1_D_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (xo : Vec F S1x512x1024 .f32) : Vec F S1x512x1024 .f32 := xo

/-- Case D does not store into the running maximum: it is left as given. -/
def sout1_D_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs0

/-- Case D does not store into the running denominator: it is left as given. -/
def sout1_D_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs1

/-- Case D does not store into the running numerator: it is left as given. -/
def sout1_D_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 := xs2

/-- Case E's pieces for the output block tile it (one whole-block store), so they cover it. -/
theorem cover1_E_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S1x512x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x1024.size (by sl_kernel_rfl) y

/-- What case E leaves in the output window's staging buffer: its pieces read back. -/
def out1_E_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Case E does not store into the running maximum: it is left as given. -/
def sout1_E_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs0

/-- Case E does not store into the running denominator: it is left as given. -/
def sout1_E_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs1

/-- Case E does not store into the running numerator: it is left as given. -/
def sout1_E_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 := xs2

section Region1
-- the TensorCore's buffer contents when the region is entered
variable (V : (c : Dev nD) → (b : Ref sig .tc) → Buf (Elt F) ((c : Thread nD τ).loc b))

/-! ## Which case a point is in, from the closed forms of the three tests

  With ki = t mod 4 and qi = (t / 4) mod 4: A is ki = 0; B is 0 < ki ≤ qi, ki ≠ 3; C is ki = 3 ≤ qi (so qi = 3);
  D is ki > qi, ki ≠ 3; E is ki = 3 > qi. -/

theorem caseA (t : Fin cfg1.N) (h0 : t.val % 4 = 0) :
    cond1_0 (grid1.coords t) ∧ cond1_1 (grid1.coords t) ∧ ¬cond1_2 (grid1.coords t) :=
  ⟨(hcond1_0 t).mpr h0, (hcond1_1 t).mpr (by omega), fun h => by have := (hcond1_2 t).mp h; omega⟩
theorem caseB (t : Fin cfg1.N) (h0 : ¬t.val % 4 = 0) (h1 : t.val % 4 ≤ t.val / 4 % 4) (h2 : ¬t.val % 4 = 3) :
    ¬cond1_0 (grid1.coords t) ∧ cond1_1 (grid1.coords t) ∧ ¬cond1_2 (grid1.coords t) :=
  ⟨fun h => h0 ((hcond1_0 t).mp h), (hcond1_1 t).mpr h1, fun h => h2 ((hcond1_2 t).mp h)⟩
theorem caseC (t : Fin cfg1.N) (h1 : t.val % 4 ≤ t.val / 4 % 4) (h2 : t.val % 4 = 3) :
    ¬cond1_0 (grid1.coords t) ∧ cond1_1 (grid1.coords t) ∧ cond1_2 (grid1.coords t) :=
  ⟨fun h => by have := (hcond1_0 t).mp h; omega, (hcond1_1 t).mpr h1, (hcond1_2 t).mpr h2⟩
theorem caseD (t : Fin cfg1.N) (h1 : ¬t.val % 4 ≤ t.val / 4 % 4) (h2 : ¬t.val % 4 = 3) :
    ¬cond1_0 (grid1.coords t) ∧ ¬cond1_1 (grid1.coords t) ∧ ¬cond1_2 (grid1.coords t) :=
  ⟨fun h => by have := (hcond1_0 t).mp h; omega, fun h => h1 ((hcond1_1 t).mp h), fun h => h2 ((hcond1_2 t).mp h)⟩
theorem caseE (t : Fin cfg1.N) (h1 : ¬t.val % 4 ≤ t.val / 4 % 4) (h2 : t.val % 4 = 3) :
    ¬cond1_0 (grid1.coords t) ∧ ¬cond1_1 (grid1.coords t) ∧ cond1_2 (grid1.coords t) :=
  ⟨fun h => by have := (hcond1_0 t).mp h; omega, fun h => h1 ((hcond1_1 t).mp h), (hcond1_2 t).mpr h2⟩

/-! ## What the output buffer and the accumulators hold after each point -/

/-- (output buffer, running maximum, running denominator, running numerator). -/
abbrev Outs1 (F : FTy → Type) : Type := Vec F S1x512x1024 .f32 × Vec F S512x1 .f32 × Vec F S512x1 .f32 × Vec F S512x1024 .f32

/-- THE ACCUMULATION. What the output window's staging buffer and the three accumulators hold after the body at
    position `n`: the case the closed forms select at `n`, run at the point's memrefs and input blocks, the accumulators
    (and, where the case leaves it alone, the output buffer) at what this leaves at `n - 1`. The first point is in case A,
    which takes no accumulator from before. -/
def outsAt1 (c : Dev nD) : (n : ℕ) → n < cfg1.N → Outs1 F
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩))
    else if h1 : (n + 1) % 4 ≤ (n + 1) / 4 % 4 then
      if h2 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2 (outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      if h2 : (n + 1) % 4 = 3 then
        (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2 (outsAt1 c n (Nat.lt_of_succ_lt hn)).1, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) (h1 : t.val % 4 ≤ t.val / 4 % 4) (h2 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod 4) h0
  | succ n => exact (dif_neg h0).trans ((dif_pos h1).trans ((dif_neg h2).trans rfl))

/-- `outsAt1` at a point of case C: that case's contents, over what the point before left. -/
theorem outsAt1_C (c : Dev nD) (t : Fin cfg1.N) (h1 : t.val % 4 ≤ t.val / 4 % 4) (h2 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h2); omega
  cases n with
  | zero => exact absurd (Nat.zero_mod 4) h0
  | succ n => exact (dif_neg h0).trans ((dif_pos h1).trans ((dif_pos h2).trans rfl))

/-- `outsAt1` at a point of case D: everything as the point before left it. -/
theorem outsAt1_D (c : Dev nD) (t : Fin cfg1.N) (h1 : ¬t.val % 4 ≤ t.val / 4 % 4) (h2 : ¬t.val % 4 = 3) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (outsAt1 V c (t.val - 1) (Nat.lt_of_le_of_lt (Nat.sub_le _ _) t.isLt)).1, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h1); omega
  cases n with
  | zero => exact absurd (Nat.zero_mod 4) h0
  | succ n => exact (dif_neg h0).trans ((dif_neg h1).trans ((dif_neg h2).trans rfl))

/-- `outsAt1` at a point of case E: the output block stored from the accumulators the point before left, which stay. -/
theorem outsAt1_E (c : Dev nD) (t : Fin cfg1.N) (h1 : ¬t.val % 4 ≤ t.val / 4 % 4) (h2 : t.val % 4 = 3) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h2); omega
  cases n with
  | zero => exact absurd (Nat.zero_mod 4) h0
  | succ n => exact (dif_neg h0).trans ((dif_neg h1).trans ((dif_pos h2).trans rfl))

/-! ## The region's invariant -/

/-- The class invariant with the three accumulators as memrefs owned at some contents: what the body is handed before
    the grid's first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region invariant before position `n`: before the first point the class's (every scoped buffer that is no
    staging buffer of this call at anything, the generator register at some state); afterwards the same with each of
    the three accumulators owned at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; of the one array the three input windows read, each window holds its own part of the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

/-- The proof data's arrays are the region-entry contents. -/
theorem A_eq1 (c : Dev nD) (w : Fin cfg1.W) : (dat1 V c).A w = V c (Pipeline.arrRef spec1 w) := by
  dsimp only [dat1]

/-- Its shares are `q1`'s, and it owes nothing. -/
theorem q_eq1 (c : Dev nD) (w : Fin cfg1.W) : (dat1 V c).q w = q1 w := by dsimp only [dat1]
theorem owed_eq1 (c : Dev nD) (t : Fin (cfg1.N + 1)) : (dat1 V c).owed t = 0 := by dsimp only [dat1]
/-- No bound is put on the pairs its waits have recorded. -/
theorem rec_eq1 (c : Dev nD) : (dat1 V c).recorded 0 = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The inputs' buffers are handed back at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- At a row's last key block the output's buffer is handed back at the stored block. -/
theorem leaves1_3_live (c : Dev nD) (t : Fin cfg1.N) (h : cond1_2 (grid1.coords t)) :
    (dat1 V c).leavesExact 3 t = owns (c : Thread nD τ) (ms1_3 t) fullShare ((outsAt1 V c t.val t.isLt).1) := by
  rw [show (dat1 V c).leavesExact 3 t = owns (c : Thread nD τ) (ms1_3 t) fullShare ((dat1 V c).after 3 t) from by
    unfold Dat.leavesExact; rw [liveAt1_3 t h], after1_3]
/-- Elsewhere it is handed back as found. -/
theorem leaves1_3_idle (c : Dev nD) (t : Fin cfg1.N) (h : ¬cond1_2 (grid1.coords t)) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)

end Region1

end Cert.Kernel.Hand

end
-- ==== Proof.K_R1.lean ====
/- REGION 1 of @main (the causal flash-attention call, pipeline 1) at a parameter `V`, continued: the body obligation of
   the pipeline's proof data `dat1` — at every grid point the body, run in the case the point is in, takes the invariant
   (the three accumulators at what the point before left) and the windows' buffers to the next point's — and the
   invariant's two ends: what the launch hands the region is the invariant before the first point, and after the last
   point the invariant gives that back. -/
import proofs.«131958_j46909632807066_2_alg».proof.Proof.K_R1Dat

-- membership in a rectangle of these extents: the elaborator's structural look recurses once per coordinate of the
-- long axes
set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the five cases the
    point is in, so that case's run applies; the invariant hands the body the three accumulators at what the point
    before left in them (at anything before the first point) and takes them back at this point's contents; where the
    case does not store the output block its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · rw [leaves1_0, leaves1_1, leaves1_2]
    rw [leaves1_3_idle V c t (caseA t h0).2.2]
    rw [outsAt1_A V c t h0]
    unfold sout1_A_0 sout1_A_1 sout1_A_2; (try dsimp only)
    by_cases hz : t.val = 0
    · rw [PhiS1_castSucc V c t, PhiS1_zero V c _ _ hz, PhiA1_eq]
      iintro ⟨⟨⟨HR0, HR1, HR2, HR3, HR4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h0).1 (caseA t h0).2.1 (caseA t h0).2.2 (iblk1 V c 0 t) (iblk1 V c 1 t) (iblk1 V c 2 t)).2.2.2 _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HS0 HS1 HS2 Hg]
      · isplitl [HR0 HR1 HR2 HR3 HR4 HS0 HS1 HS2]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h0).1 (caseA t h0).2.1 (caseA t h0).2.2 (iblk1 V c 0 t) (iblk1 V c 1 t) (iblk1 V c 2 t)).2.2.2 _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HS0 HS1 HS2 Hg]
      · isplitl [HR0 HR1 HR2 HR3 HR4 HS0 HS1 HS2]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · rw [leaves1_0, leaves1_1, leaves1_2]
        rw [leaves1_3_live V c t (caseC t h1 h2).2.2]
        rw [outsAt1_C V c t h1 h2]
        unfold out1_C_3 sout1_C_0 sout1_C_1 sout1_C_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_C c (grid1.coords t) _ _ _ _ _ _ _ _ _ _ _ _ _ _ (caseC t h1 h2).1 (caseC t h1 h2).2.1 (caseC t h1 h2).2.2 (iblk1 V c 0 t) (iblk1 V c 1 t) (iblk1 V c 2 t) _ _ _).2.2.2.2 _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _ _)
      · rw [leaves1_0, leaves1_1, leaves1_2]
        rw [leaves1_3_idle V c t (caseB t h0 h1 h2).2.2]
        rw [outsAt1_B V c t h0 h1 h2]
        unfold sout1_B_0 sout1_B_1 sout1_B_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_B c (grid1.coords t) _ _ _ _ _ _ _ _ _ _ _ _ _ _ (caseB t h0 h1 h2).1 (caseB t h0 h1 h2).2.1 (caseB t h0 h1 h2).2.2 (iblk1 V c 0 t) (iblk1 V c 1 t) (iblk1 V c 2 t) _ _ _).2.2.2 _ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
    · by_cases h2 : t.val % 4 = 3
      · rw [leaves1_0, leaves1_1, leaves1_2]
        rw [leaves1_3_live V c t (caseE t h1 h2).2.2]
        rw [outsAt1_E V c t h1 h2]
        unfold out1_E_3 sout1_E_0 sout1_E_1 sout1_E_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (caseE t h1 h2).1 (caseE t h1 h2).2.1 (caseE t h1 h2).2.2 (iblk1 V c 0 t) (iblk1 V c 1 t) (iblk1 V c 2 t) _ _ _).2 _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _)
      · rw [leaves1_0, leaves1_1, leaves1_2]
        rw [leaves1_3_idle V c t (caseD t h1 h2).2.2]
        rw [outsAt1_D V c t h1 h2]
        unfold sout1_D_0 sout1_D_1 sout1_D_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply (kernelRun1_D c (grid1.coords t) _ _ _ _ _ _ _ _ _ _ _ _ _ _ (caseD t h1 h2).1 (caseD t h1 h2).2.1 (caseD t h1 h2).2.2 (iblk1 V c 0 t) (iblk1 V c 1 t) (iblk1 V c 2 t) _ _ _ _ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0, HS1, HS2⟩, Hg⟩
  isplitl [HR0 HR1 HR2 HR3 HR4 HS0 HS1 HS2]
  · isplitl [HR0]; · iexact HR0
    isplitl [HR1]; · iexact HR1
    isplitl [HR2]; · iexact HR2
    isplitl [HR3]; · iexact HR3
    isplitl [HR4]; · iexact HR4
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.K_Run.lean ====
/- THE RUN of @main: a host stretch, region 0 (the fused projections), a host stretch, region 1 (the causal attention),
   assembled over the several-region launch theorem, for ANY proof data of the two regions that meets the facts listed
   as this module's hypotheses: each region's arrays read off its entry contents, the shares at which it holds them,
   nothing owed, its invariant's two ends, and its body obligation. Concluded: every execution terminates, the argument
   arrays end as launched (`frame`), and the result buffer ends holding what region 1's write-backs leave
   (`run_named`), region 1 being entered at the contents the host stretches and region 0 make of the launch memory. -/
import proofs.«131958_j46909632807066_2_alg».proof.Proof.Gen.Kernel.Launch
import proofs.«131958_j46909632807066_2_alg».proof.Proof.Gen.Kernel.Regions
import proofs.«131958_j46909632807066_2_alg».proof.Proof.K_Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-! # Region 1's shared array

Region 1's query, key and value windows read ONE array; its output window's array is its own. The buffers behind the
arrays are therefore two, and the shared one's points-to is dealt among the three windows by halving its share twice
(`q1`). -/

section SharedArray

/-- The buffers behind region 1's arrays: the shared input array and the output array. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v7) ↦{fullShare} V main_v7) ∗ (((c : Thread nD τ).loc main_v8) ↦{fullShare} V main_v8)) := by
  unfold Pipeline.arrBufs
  rw [show Finset.univ.image (Pipeline.arrRef spec1) = {main_v7, main_v8} from by decide,
    BI.bigSep_insert (by decide), BI.bigSep_singleton]
  rfl

/-- A proof data whose input shares are `q1` holds window `w`'s array at `q1 w` (the output window's at the full
    share, which is `q1`'s value there). -/
theorem share1_eq (c : Dev nD) (dat : Dat τ (Elt F) Unit ℕ (Pipeline.UD sig nD τ) ℕ cfg1 c) (hq : ∀ w, dat.q w = q1 w) :
    ∀ w, dat.share w = q1 w := fun
    | 0 => (if_neg (by decide)).trans (hq 0)
    | 1 => (if_neg (by decide)).trans (hq 1)
    | 2 => (if_neg (by decide)).trans (hq 2)
    | 3 => if_pos (by decide)
    | ⟨_ + 4, h⟩ => absurd h (Nat.not_lt.2 (Nat.le_add_left _ _))

/-- Region 1's arrays, window by window: three shares of the one input array, the output array whole. -/
theorem arrays1_eq (c : Dev nD) (dat : Dat τ (Elt F) Unit ℕ (Pipeline.UD sig nD τ) ℕ cfg1 c) (hq : ∀ w, dat.q w = q1 w)
    (G : (w : Fin cfg1.W) → Buf (Elt F) ((cfg1.win w).arr.view.loc (c : Thread nD τ))) :
    (dat.arrays G : sProp 𝕄)
      = iprop((((c : Thread nD τ).loc main_v7) ↦{fullShare.left} G 0) ∗ (((c : Thread nD τ).loc main_v7) ↦{fullShare.right.left} G 1)
          ∗ (((c : Thread nD τ).loc main_v7) ↦{fullShare.right.right} G 2) ∗ (((c : Thread nD τ).loc main_v8) ↦{fullShare} G 3)) := by
  unfold Dat.arrays
  rw [show (fun w : Fin cfg1.W => ((cfg1.win w).arr.view.loc (c : Thread nD τ) ↦[(cfg1.win w).arr.view.set]{dat.share w} G w : sProp 𝕄))
      = fun w => (((c : Thread nD τ).loc (Pipeline.arrRef spec1 w)) ↦{q1 w} G w) from funext fun w => by rw [(arr_whole1 w).set_eq_univ, share1_eq c dat hq]]
  rw [bigSep_W1]; rfl

/-- ENTRY: the two buffers, each whole at contents `V`, are region 1's arrays at contents read off `V` — the shared
    array's full share halved into the query window's share and a remainder, the remainder halved into the key
    window's and the value window's. -/
theorem arrays1_split (c : Dev nD) (dat : Dat τ (Elt F) Unit ℕ (Pipeline.UD sig nD τ) ℕ cfg1 c) (hq : ∀ w, dat.q w = q1 w)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := Pipeline.UD sig nD τ) (Lvl := ℕ) spec1 c V : sProp 𝕄) ⊢ dat.arrays G := by
  obtain rfl : G = fun w => V (Pipeline.arrRef spec1 w) := funext hG
  rw [arrBufs1_eq, arrays1_eq c dat hq]
  iintro ⟨H7, H8⟩
  ihave H := (pointsTo_share (PosShare.mem_left_op_right fullShare)).1 $$ H7
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H8

/-- EXIT: region 1's arrays at contents read off `V'` — the three windows of the shared array holding the same
    contents — are the two buffers whole at `V'`: the shares joined back in the order they were dealt. -/
theorem arrays1_join (c : Dev nD) (dat : Dat τ (Elt F) Unit ℕ (Pipeline.UD sig nD τ) ℕ cfg1 c) (hq : ∀ w, dat.q w = q1 w)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs (Ix := Unit) (Name := ℕ) (U := Pipeline.UD sig nD τ) (Lvl := ℕ) spec1 c V' := by
  obtain rfl : G = fun w => V' (Pipeline.arrRef spec1 w) := funext hG
  rw [arrBufs1_eq, arrays1_eq c dat hq]
  iintro ⟨Hl, Hrl, Hrr, H8⟩
  isplitr [H8]
  · iapply (pointsTo_share (PosShare.mem_left_op_right fullShare)).2
    isplitl [Hl]; · iexact Hl
    iapply (pointsTo_share (PosShare.mem_left_op_right fullShare.right)).2
    isplitl [Hrl] <;> iassumption
  · iexact H8

end SharedArray

/-! # The run: @main's four segments from the launch to the return

@main is a host stretch (the reshapes, broadcasts, concatenation and rounding that build region 0's operands), region 0
(the fused projections), a host stretch (one reshape) and region 1 (the causal attention). Between two segments every
unscoped buffer of the core is held whole at known contents: the launch contents, then what each host stretch computes
from them, a region replacing its output array by what its write-backs leave. -/

section Run

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (Pipeline.UD sig nD τ) ℕ cfg0 c)
variable (dat1 : ((c : Dev nD) → (b : Ref sig .tc) → Buf (Elt F) ((c : Thread nD τ).loc b)) → (c : Dev nD) → Dat τ (Elt F) Unit ℕ (Pipeline.UD sig nD τ) ℕ cfg1 c)

/-! ## The buffers' contents at the segment boundaries -/

/-- Region 0's entry contents: the launch contents after the first host stretch. -/
abbrev V1' : (c : Dev nD) → (b : Ref sig .tc) → Buf (Elt F) ((c : Thread nD τ).loc b) := fun c b => V1 m c b

/-- What region 0 leaves in its output array: the write-backs of all its points folded into the array as entered. -/
def out0 (c : Dev nD) : Buf (Elt F) ((c : Thread nD τ).loc main_v6) := (dat0 (V1' m) c).arrAt 2 cfg0.N

/-- The regions' results up to region 0's: its output array at `out0` (read at no other reference). -/
def outsA : Outs (F := F) := fun _ r c => Function.update (fun r => m ((c : Thread nD τ).loc r)) main_v6 (out0 m dat0 c) r

/-- Region 1's entry contents: region 0's exit contents after the second host stretch. -/
abbrev V3' : (c : Dev nD) → (b : Ref sig .tc) → Buf (Elt F) ((c : Thread nD τ).loc b) := fun c b => V3 m (outsA m dat0) c b

/-- What region 1 leaves in its output array. -/
def out1 (c : Dev nD) : Buf (Elt F) ((c : Thread nD τ).loc main_v8) := (dat1 (V3' m dat0) c).arrAt 3 cfg1.N

/-- The regions' results: region 0's output array at `out0`, region 1's at `out1`. -/
def outs : Outs (F := F)
  | 4, r, c => Function.update (fun r => m ((c : Thread nD τ).loc r)) main_v8 (out1 m dat0 dat1 c) r
  | J, r, c => outsA m dat0 J r c

theorem outs_2 (c : Dev nD) : outs m dat0 dat1 2 main_v6 c = out0 m dat0 c :=
  (show outs m dat0 dat1 2 main_v6 c = Function.update (fun r => m ((c : Thread nD τ).loc r)) main_v6 (out0 m dat0 c) main_v6 from rfl).trans (Function.update_self ..)
theorem outs_4 (c : Dev nD) : outs m dat0 dat1 4 main_v8 c = out1 m dat0 dat1 c :=
  (show outs m dat0 dat1 4 main_v8 c = Function.update (fun r => m ((c : Thread nD τ).loc r)) main_v8 (out1 m dat0 dat1 c) main_v8 from rfl).trans (Function.update_self ..)

/-- Region 0's exit contents name its output array's contents, -/
theorem V2_main_v6 (c : Dev nD) : V2 m (outs m dat0 dat1) c main_v6 = (dat0 (V1' m) c).arrAt 2 cfg0.N :=
  (Function.update_self ..).trans (outs_2 m dat0 dat1 c)
/-- region 1's entry contents are those after the second host stretch, -/
theorem V3_eq (c : Dev nD) : V3 m (outs m dat0 dat1) c = StableHlo.after hostOps1 (V2 m (outs m dat0 dat1) c) := rfl
theorem V3'_eq (c : Dev nD) (b : Ref sig .tc) : V3' m dat0 c b = V3 m (outs m dat0 dat1) c b := rfl
/-- and region 1's exit contents name its output array's. -/
theorem V4_main_v8 (c : Dev nD) : V4 m (outs m dat0 dat1) c main_v8 = (dat1 (V3' m dat0) c).arrAt 3 cfg1.N :=
  (Function.update_self ..).trans (outs_4 m dat0 dat1 c)

end Run

/-! ## The proof data family and what rides beside the buffers -/

section Records

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (Pipeline.UD sig nD τ) ℕ cfg0 c)
variable (dat1 : ((c : Dev nD) → (b : Ref sig .tc) → Buf (Elt F) ((c : Thread nD τ).loc b)) → (c : Dev nD) → Dat τ (Elt F) Unit ℕ (Pipeline.UD sig nD τ) ℕ cfg1 c)

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1' m) c
  | ⟨1, _⟩ => fun c => dat1 (V3' m dat0) c

/-- No kernel of this program has a variant. -/
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its dues, at
    nothing. -/
abbrev beside (c : Dev nD) : sProp 𝕄 := iprop((∃ r, prngReg c r) ∗ ∃ W, owes (c : Thread nD τ) (0 : CellTallies nD τ sig Unit) W)

variable (hA0 : ∀ V c w, (dat0 V c).A w = V c (Pipeline.arrRef spec0 w)) (hq0 : ∀ V c w, (dat0 V c).q w = fullShare)
  (howed0 : ∀ V c t, (dat0 V c).owed t = 0) (hrec0 : ∀ V c, (dat0 V c).recorded 0 = Set.univ) (hΦ0 : ∀ V c t, (dat0 V c).Φ t = Pipeline.ΦA spec0 c)
  (hbody0 : ∀ V c, BodyObligation (dat0 V c) (defs₀ (F := F)) Variants.none () Set.univ)
variable (hA1 : ∀ V c w, (dat1 V c).A w = V c (Pipeline.arrRef spec1 w)) (hq1 : ∀ V c w, (dat1 V c).q w = q1 w)
  (howed1 : ∀ V c t, (dat1 V c).owed t = 0) (hrec1 : ∀ V c, (dat1 V c).recorded 0 = Set.univ)
  (hin1 : ∀ V c, Pipeline.ΦA spec1 c ⊢ (dat1 V c).Φ 0) (hout1 : ∀ V c, (dat1 V c).Φ (Fin.last cfg1.N) ⊢ Pipeline.ΦA spec1 c)
  (hbody1 : ∀ V c, BodyObligation (dat1 V c) (defs₀ (F := F)) Variants.none () Set.univ)

/-! ## What the regions leave: each array of a region at what its write-backs make of it, every other buffer as entered -/

include hA0 in
theorem hF0 (c : Dev nD) : ∀ w : Fin cfg0.W, (dat0 (V1' m) c).arrAt w cfg0.N = V2 m (outs m dat0 dat1) c (Pipeline.arrRef spec0 w)
  | 0 => ((dat0 (V1' m) c).arrAt_in 0 rfl _).trans ((hA0 _ c 0).trans (V2_of m _ c main_v0 (by decide)).symm)
  | 1 => ((dat0 (V1' m) c).arrAt_in 1 rfl _).trans ((hA0 _ c 1).trans (V2_of m _ c main_v5 (by decide)).symm)
  | 2 => (V2_main_v6 m dat0 dat1 c).symm
  | ⟨_ + 3, h⟩ => absurd h (Nat.not_lt.2 (Nat.le_add_left _ _))

theorem hrest0 (c : Dev nD) (b : Ref sig .tc) (hb : b ∉ Finset.univ.image (Pipeline.arrRef spec0)) :
    V2 m (outs m dat0 dat1) c b = V1 m c b :=
  V2_of m _ c b fun h => hb (List.mem_singleton.mp h ▸ Finset.mem_image.mpr ⟨2, Finset.mem_univ _, rfl⟩)

include hA1 in
theorem hF1 (c : Dev nD) : ∀ w : Fin cfg1.W, (dat1 (V3' m dat0) c).arrAt w cfg1.N = V4 m (outs m dat0 dat1) c (Pipeline.arrRef spec1 w)
  | 0 => ((dat1 (V3' m dat0) c).arrAt_in 0 rfl _).trans ((hA1 _ c 0).trans (V4_of m _ c main_v7 (by decide)).symm)
  | 1 => ((dat1 (V3' m dat0) c).arrAt_in 1 rfl _).trans ((hA1 _ c 1).trans (V4_of m _ c main_v7 (by decide)).symm)
  | 2 => ((dat1 (V3' m dat0) c).arrAt_in 2 rfl _).trans ((hA1 _ c 2).trans (V4_of m _ c main_v7 (by decide)).symm)
  | 3 => (V4_main_v8 m dat0 dat1 c).symm
  | ⟨_ + 4, h⟩ => absurd h (Nat.not_lt.2 (Nat.le_add_left _ _))

theorem hrest1 (c : Dev nD) (b : Ref sig .tc) (hb : b ∉ Finset.univ.image (Pipeline.arrRef spec1)) :
    V4 m (outs m dat0 dat1) c b = V3 m (outs m dat0 dat1) c b :=
  V4_of m _ c b fun h => hb (List.mem_singleton.mp h ▸ Finset.mem_image.mpr ⟨3, Finset.mem_univ _, rfl⟩)

/-! ## The regions as segments -/

set_option backward.isDefEq.respectTransparency.types false in
/-- REGION 0 over the thread state: entered from every unscoped buffer at the contents after the first host stretch,
    left with its output array replaced by what its write-backs leave. Its arrays — distinct buffers, each held whole —
    are split out of the unscoped buffers and put back at the exit contents; the generator register goes into the
    invariant and comes out; nothing is owed; the kernel has no semaphore of its own. -/
def reg0 : RegionSeg (pcfgs (F := F)) adm (pdats m dat0 dat1) () defs₀ noVariants noPairs noLevel 0 where
  win := launch0.win.to₀
  block_pos := launch0.block_pos
  stage_whole := launch0.stage_whole
  K := PEmpty
  osem k := k.elim
  ho := Pipeline.OwnSemFacts.none _
  hbody c := (hbody0 (V1' m) c).loose
  hwaits := Pipeline.hwaits_of_owed_zero _ _ _ _ noPairs noLevel 0 fun c t => howed0 _ c t
  pre c := iprop(StableHlo.held (c : Thread nD τ) (Pipeline.ucRefs τ sig) (V1 m c) ∗ beside c)
  post c := iprop(StableHlo.held (c : Thread nD τ) (Pipeline.ucRefs τ sig) (V2 m (outs m dat0 dat1) c) ∗ beside c)
  X c := iprop(∃ r, prngReg c r)
  Y c := iprop(∃ r, prngReg c r)
  Z c := Pipeline.unscopedRest (Ix := Unit) (Name := ℕ) (U := Pipeline.UD sig nD τ) (Lvl := ℕ) spec0 c (V1' m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => hq0 _ c w) (V1' m c) fun w => hA0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m dat0 dat1 0 c).recorded 0 = Set.univ from hrec0 _ c]; trivial)
      rw [show (pdats m dat0 dat1 0 c).owed 0 = 0 from howed0 _ c 0]; iexact HO
    isplitl [Hp]; · iexact Hp
    iexact Hrest
  hin c := by
    rw [show (pdats m dat0 dat1 0 c).Φ 0 = Pipeline.ΦA spec0 c from hΦ0 _ c 0]; unfold Pipeline.ΦA
    iintro ⟨Hp, -, Hr⟩
    isplitl [Hr]; · iexact Hr
    iexact Hp
  hout c := by
    rw [Pipeline.ownSems0_none, show (pdats m dat0 dat1 0 c).Φ (Fin.last _) = Pipeline.ΦA spec0 c from hΦ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m dat0 dat1) ((pdats m dat0 dat1 0 c).share_full fun w => hq0 _ c w)
      (V1' m c) (fun b => V2 m (outs m dat0 dat1) c b) ((pdats m dat0 dat1 0 c).arrAt · cfg0.N) (hF0 m dat0 dat1 hA0 c) (hrest0 m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m dat0 dat1 0 c).owed (Fin.last _) = 0 from howed0 _ c _]; iexact HO

set_option backward.isDefEq.respectTransparency.types false in
/-- REGION 1 over the thread state: entered from every unscoped buffer at the contents after the second host stretch,
    left with its output array replaced by what its write-backs leave. The query, key and value windows read one array:
    at entry its buffer, held whole, is dealt among them share by share (`arrays1_split`); at exit the three shares,
    each at the contents the array was entered with (an input array is never written), are joined back
    (`arrays1_join`). The invariant carries the kernel's running maximum, denominator and numerator from point to
    point; only its two ends are the plain "scoped buffers at some contents, the generator register at some state". -/
def reg1 : RegionSeg (pcfgs (F := F)) adm (pdats m dat0 dat1) () defs₀ noVariants noPairs noLevel 1 where
  win := winFacts₀1
  block_pos := block_pos1
  stage_whole := stage_whole1
  K := PEmpty
  osem k := k.elim
  ho := Pipeline.OwnSemFacts.none _
  hbody c := (hbody1 (V3' m dat0) c).loose
  hwaits := Pipeline.hwaits_of_owed_zero _ _ _ _ noPairs noLevel 1 fun c t => howed1 _ c t
  pre c := iprop(StableHlo.held (c : Thread nD τ) (Pipeline.ucRefs τ sig) (V3 m (outs m dat0 dat1) c) ∗ beside c)
  post c := iprop(StableHlo.held (c : Thread nD τ) (Pipeline.ucRefs τ sig) (V4 m (outs m dat0 dat1) c) ∗ beside c)
  X c := iprop(∃ r, prngReg c r)
  Y c := iprop(∃ r, prngReg c r)
  Z c := Pipeline.unscopedRest (Ix := Unit) (Name := ℕ) (U := Pipeline.UD sig nD τ) (Lvl := ℕ) spec1 c (V3' m dat0 c)
  hentry c := by
    rw [Pipeline.ownSems0_none, show V3 m (outs m dat0 dat1) c = V3 m (outsA m dat0) c from rfl]
    have hub : (unscopedBufs (Ix := Unit) (Name := ℕ) (U := Pipeline.UD sig nD τ) (Lvl := ℕ) c (V3' m dat0 c) : sProp 𝕄)
        = iprop(Pipeline.arrBufs spec1 c (V3' m dat0 c) ∗ Pipeline.unscopedRest spec1 c (V3' m dat0 c)) :=
      Pipeline.unscopedBufs_split₀ cfgs 1 winFacts₀1.arr_unscoped c (V3' m dat0 c)
    rw [Pipeline.unscopedBufs_held] at hub
    have hsplit := arrays1_split c (pdats m dat0 dat1 1 c) (fun w => hq1 _ c w) (V3' m dat0 c) ((pdats m dat0 dat1 1 c).arrAt · 0) (fun w => hA1 _ c w)
    iintro ⟨⟨Hub, Hp, HO⟩, -, -⟩
    ihave H := (Entails.of_eq hub) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m dat0 dat1 1 c).recorded 0 = Set.univ from hrec1 _ c]; trivial)
      rw [show (pdats m dat0 dat1 1 c).owed 0 = 0 from howed1 _ c 0]; iexact HO
    isplitl [Hp]; · iexact Hp
    iexact Hrest
  hin c := by
    refine BIBase.Entails.trans ?_ (hin1 (V3' m dat0) c); unfold Pipeline.ΦA
    iintro ⟨Hp, -, Hr⟩
    isplitl [Hr]; · iexact Hr
    iexact Hp
  hout c := by
    rw [Pipeline.ownSems0_none]
    refine (hout1 (V3' m dat0) c).trans ?_; unfold Pipeline.ΦA
    iintro ⟨Hr, Hp⟩
    isplitl [Hp]; · iexact Hp
    isplitr; · iempintro
    iexact Hr
  hexit c := by
    have hub : (unscopedBufs (Ix := Unit) (Name := ℕ) (U := Pipeline.UD sig nD τ) (Lvl := ℕ) c (fun b => V4 m (outs m dat0 dat1) c b) : sProp 𝕄)
        = iprop(Pipeline.arrBufs spec1 c (fun b => V4 m (outs m dat0 dat1) c b) ∗ Pipeline.unscopedRest spec1 c (fun b => V4 m (outs m dat0 dat1) c b)) :=
      Pipeline.unscopedBufs_split₀ cfgs 1 winFacts₀1.arr_unscoped c _
    rw [Pipeline.unscopedBufs_held] at hub
    have hjoin := arrays1_join c (pdats m dat0 dat1 1 c) (fun w => hq1 _ c w) (fun b => V4 m (outs m dat0 dat1) c b)
      ((pdats m dat0 dat1 1 c).arrAt · cfg1.N) (hF1 m dat0 dat1 hA1 c)
    have hrest : (Pipeline.unscopedRest (Ix := Unit) (Name := ℕ) (U := Pipeline.UD sig nD τ) (Lvl := ℕ) spec1 c (V3' m dat0 c) : sProp 𝕄)
        = Pipeline.unscopedRest spec1 c (fun b => V4 m (outs m dat0 dat1) c b) := by
      unfold Pipeline.unscopedRest
      exact bigSep_congr fun b hb => congrArg (fun v => (((c : Thread nD τ).loc b) ↦{fullShare} v : sProp 𝕄)) (hrest1 m dat0 dat1 c b (Finset.mem_sdiff.mp hb).2).symm
    iintro ⟨Ha, HO, HY, Hrest⟩
    ihave Hb := hjoin $$ Ha
    ihave Hrest' := (Entails.of_eq hrest) $$ Hrest
    imodintro
    isplitl [Hb Hrest']
    · iapply (Entails.of_eq hub.symm); isplitl [Hb] <;> iassumption
    isplitl [HY]; · iexact HY
    unfold Pipeline.Dat.owesAt Pipeline.owesWithin
    icases HO with ⟨%W, -, HO⟩; iexists W
    rw [show (pdats m dat0 dat1 1 c).owed (Fin.last _) = 0 from howed1 _ c _]; iexact HO

/-! ## @main as segments, and the launch -/

/-- @main's four segments: the host stretches over the unscoped buffers from the boundary's contents, `beside` riding
    along; the regions' records. -/
abbrev runSegs (c : Dev nD) : List (Seg (pcfgs (F := F)) adm (pdats m dat0 dat1) () defs₀ noVariants noPairs noLevel) :=
  segs m (outs m dat0 dat1) noVariants noPairs noLevel (fun _ => beside) () (pdats m dat0 dat1)
    (reg0 m dat0 dat1 hA0 hq0 howed0 hrec0 hΦ0 hbody0) (reg1 m dat0 dat1 hA1 hq1 howed1 hrec1 hin1 hout1 hbody1) c

include hA0 hq0 howed0 hrec0 hΦ0 hbody0 hA1 hq1 howed1 hrec1 hin1 hout1 hbody1 in
set_option backward.isDefEq.respectTransparency.types false in
/-- THE RUN, with the result buffer named: from any memory with zero counters, every weakly fair execution of @main on
    the TensorCores terminates, and every final memory holds, on every core, region 1's output array at what its
    write-backs leave — region 1 entered at the contents the two host stretches and region 0 make of the launch
    memory — and every argument array as launched. -/
theorem run_named : θ_run defs (onTc (τ := τ) (main (F := F))) ⟨m, fun _ => 0, ρ⟩ (fun r => ∀ c : Dev nD,
      r.2.mem ((c.tc : Thread nD τ).loc main_v8) = (dat1 (V3' m dat0) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m dat0 dat1) () cellOf_inj embL defs₀ noVariants noPairs noLevel m ρ main
    (runSegs m dat0 dat1 hA0 hq0 howed0 hrec0 hΦ0 hbody0 hA1 hq1 howed1 hrec1 hin1 hout1 hbody1)
    (fun c Q => by
      rewrite [main_chain c, Seg.run_eq_chain,
        show (runSegs m dat0 dat1 hA0 hq0 howed0 hrec0 hΦ0 hbody0 hA1 hq1 howed1 hrec1 hin1 hout1 hbody1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [runSegs, segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V4 m (outs m dat0 dat1) c))
    (hch := fun c => ⟨.rfl, .rfl, .rfl, .rfl, sep_mono .rfl (by iintro ⟨-, H⟩; iexact H)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v8) = (dat1 (V3' m dat0) c).arrAt 3 cfg1.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  -- the end: the result's buffer and each argument's read off the last contents
  unfold StableHlo.held
  iintro ⟨Hh, HSI⟩
  ihave Hr := (pointsTo_read_all (Pipeline.ucRefs τ sig) (fun b => ((c : Thread nD τ).1, b)) (V4 m (outs m dat0 dat1) c) s') $$ [Hh HSI]
  · isplitl [Hh] <;> iassumption
  icases Hr with ⟨%h, HSI⟩
  imodintro
  isplitr
  · ipureintro
    exact ⟨(h (Proc.devRef .tc main_v8) (Finset.mem_filter.mpr ⟨StableHlo.devRef_mem_tcRefs main_v8, by decide⟩)).trans (V4_main_v8 m dat0 dat1 c),
      (h (Proc.devRef .tc main_arg0) (Finset.mem_filter.mpr ⟨StableHlo.devRef_mem_tcRefs main_arg0, by decide⟩)).trans (V4_main_arg0 m _ c),
      (h (Proc.devRef .tc main_arg1) (Finset.mem_filter.mpr ⟨StableHlo.devRef_mem_tcRefs main_arg1, by decide⟩)).trans (V4_main_arg1 m _ c),
      (h (Proc.devRef .tc main_arg2) (Finset.mem_filter.mpr ⟨StableHlo.devRef_mem_tcRefs main_arg2, by decide⟩)).trans (V4_main_arg2 m _ c),
      (h (Proc.devRef .tc main_arg3) (Finset.mem_filter.mpr ⟨StableHlo.devRef_mem_tcRefs main_arg3, by decide⟩)).trans (V4_main_arg3 m _ c)⟩
  · iexact HSI

include hA0 hq0 howed0 hrec0 hΦ0 hbody0 hA1 hq1 howed1 hrec1 hin1 hout1 hbody1 in
/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2)
    (run_named m ρ dat0 dat1 hA0 hq0 howed0 hrec0 hΦ0 hbody0 hA1 hq1 howed1 hrec1 hin1 hout1 hbody1)

end Records

end Cert.Kernel.Hand

end
-- ==== Proof.KI_R0.lean ====
/- REGION 0 of @main (the fused q/k/v projection, pipeline 0) at a parameter \`V\`, the TensorCore's buffer
   contents when the region is entered: each window's block at a point, what the body leaves in the output
   window's buffer (three slabs, one per projection), the body's triple, the pipeline's proof data and its body
   obligation. -/
import proofs.«131958_j46909632807066_2_alg».proof.Proof.Gen.KernelIdeal.Launch
import proofs.«131958_j46909632807066_2_alg».proof.Proof.Gen.KernelIdeal.Skeleton
import proofs.«131958_j46909632807066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! ## The windows' blocks -/

/-- Window \`w\`'s block at point \`t\`, read off its array as the region finds it (\`V\`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block of x) holds its block at every point, fetched there or not, for any proof data
    whose array is \`V\`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight stack) is fetched at the first point only; unfetched, its block index has not
    moved, so its buffer holds the block at every point all the same. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of x. -/
abbrev xRect : Rect S512x1024 := Rect.unit (s := S512x1024) ![0, 0] S512x1024.size inb_S512x1024_S512x1024_0_0
/-- The three weight matrices of the stack (q, k, v in this order). -/
abbrev wSlab0 : Rect S3x1024x1024 := Rect.unit (s := S3x1024x1024) ![0, 0, 0] S1x1024x1024.size inb_S3x1024x1024_S1x1024x1024_0_0_0
abbrev wSlab1 : Rect S3x1024x1024 := Rect.unit (s := S3x1024x1024) ![1, 0, 0] S1x1024x1024.size inb_S3x1024x1024_S1x1024x1024_1_0_0
abbrev wSlab2 : Rect S3x1024x1024 := Rect.unit (s := S3x1024x1024) ![2, 0, 0] S1x1024x1024.size inb_S3x1024x1024_S1x1024x1024_2_0_0
/-- The three slabs of the output block, one per projection. -/
abbrev oSlab0 : Rect S3x512x1024 := Rect.unit (s := S3x512x1024) ![0, 0, 0] S1x512x1024.size inb_S3x512x1024_S1x512x1024_0_0_0
abbrev oSlab1 : Rect S3x512x1024 := Rect.unit (s := S3x512x1024) ![1, 0, 0] S1x512x1024.size inb_S3x512x1024_S1x512x1024_1_0_0
abbrev oSlab2 : Rect S3x512x1024 := Rect.unit (s := S3x512x1024) ![2, 0, 0] S1x512x1024.size inb_S3x512x1024_S1x512x1024_2_0_0

/-! ## What the body leaves in the output window's buffer -/

/-- Window 2's staging buffer after the body, from the input windows' blocks: its three stores as pieces, LAST
    FIRST — slab \`p\` is x's block times weight matrix \`p\`. -/
def out0_2 (x0 : Vec F S512x1024 .f32) (x1 : Vec F S3x1024x1024 .bf16) : Vec F S3x512x1024 .bf16 :=
  View.canon [⟨oSlab2, k0_pay4 (View.ld x0 xRect) (View.ld x1 wSlab2)⟩,
    ⟨oSlab1, k0_pay3 (View.ld x0 xRect) (View.ld x1 wSlab1)⟩,
    ⟨oSlab0, k0_pay2 (View.ld x0 xRect) (View.ld x1 wSlab0)⟩]

/-- The three slabs tile the block, so they cover it. -/
theorem cover0_2 (p0 : Vec F S1x512x1024 .bf16) (p1 : Vec F S1x512x1024 .bf16) (p2 : Vec F S1x512x1024 .bf16) (y : S3x512x1024.Idx) :
    ∃ pc ∈ ([⟨oSlab2, p0⟩, ⟨oSlab1, p1⟩, ⟨oSlab0, p2⟩] : List (View.Piece (Elt F) S3x512x1024 .bf16)), y ∈ pc.1.set :=
  View.cover_of_tiled [⟨oSlab2, p0⟩, ⟨oSlab1, p1⟩, ⟨oSlab0, p2⟩] S1x512x1024.size (by rfl) y

/-! ## The body's triple -/

set_option maxHeartbeats 1000000 in
/-- The kernel body on whole staging memrefs, the inputs' at read contents \`x0\`, \`x1\` and the output's at anything,
    runs to the continuation holding the inputs' as they were and the output's at \`out0_2\` of the inputs. -/
theorem sound_kernel0 (c : Dev nD) (E : Set ℕ) (i : grid0.Coords) (arg1 : Memref sig .tc .vmem S512x1024 .f32) (harg1 : arg1.IsWhole)
    (arg2 : Memref sig .tc .vmem S3x1024x1024 .bf16) (harg2 : arg2.IsWhole) (arg3 : Memref sig .tc .vmem S3x512x1024 .bf16) (harg3 : arg3.IsWhole)
    (x0 : Vec F S512x1024 .f32) (x1 : Vec F S3x1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_fused_qkv_kernel i arg1 harg1 arg2 harg2 arg3 harg3) K := by
  simp only [cc0_fused_qkv_kernel_eq_skeleton]; unfold cc0_fused_qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The pipeline's proof data -/

/-- The proof data of pipeline 0 on core \`c\`: the arrays as the region finds them (\`V\`); after the body at point \`t\`
    each input's buffer at its block and the output's at \`out0_2\` of the input blocks; the invariant the scoped rest
    and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point \`t\`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's \`owes\` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI_R1Runs.lean ====
import proofs.«131958_j46909632807066_2_alg».proof.Proof.Gen.KernelIdeal.Launch
import proofs.«131958_j46909632807066_2_alg».proof.Proof.Gen.KernelIdeal.Skeleton
import proofs.«131958_j46909632807066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # Region 1 (the causal flash-attention body over the grid 4 × 4 × 4): what its whole-body runs share -/

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). The three input windows
    (query, key, value) read one and the same array, each through its own block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's three tests, over a grid point

  The grid is 4 × 4 × 4 with coordinates (b, qi, ki): the batch, the query block, the key block; the key block is the
  fastest coordinate, so a point `t` has ki = t mod 4 and qi = (t / 4) mod 4. -/

/-- "This is the row's first key block" (ki = 0): the running maximum, denominator and numerator are initialised. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The key block is not past the diagonal" (ki ≤ qi, signed): one online-softmax update is made. -/
abbrev cond1_1 (i : grid1.Coords) : Prop := (Scalar.cmpi .ne (Scalar.extui (Scalar.cmpi .sle (BitVec.ofNat 32 (i 2).val) (BitVec.ofNat 32 (i 1).val))) 0#32) = 1#1
/-- It holds where t mod 4 ≤ (t / 4) mod 4 — decided over the 64 points. -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)

/-- "This is the row's last key block" (ki = 3): the numerator is divided by the denominator and the block stored. -/
abbrev cond1_2 (i : grid1.Coords) : Prop := k1_cond3 i = 1#1
/-- It holds at the points ≡ 3 (mod 4) — decided over the 64 points. -/
theorem hcond1_2 : ∀ t : Fin cfg1.N, cond1_2 (grid1.coords t) ↔ t.val % 4 = 3 :=
  (by decide +kernel : ∀ t : Fin grid1.N, cond1_2 (grid1.coords t) ↔ t.val % 4 = 3)

/-- Of the eight combinations of the three tests only five occur on the grid: A first block (so on or below the
    diagonal, and not last); B a later block on or below the diagonal, not last; C the last block on the diagonal
    (ki = 3 = qi); D past the diagonal, not last; E the last block, past the diagonal. -/
theorem hcases1 : ∀ t : Fin cfg1.N,
    (cond1_0 (grid1.coords t) ∧ cond1_1 (grid1.coords t) ∧ ¬cond1_2 (grid1.coords t))
    ∨ (¬cond1_0 (grid1.coords t) ∧ cond1_1 (grid1.coords t) ∧ ¬cond1_2 (grid1.coords t))
    ∨ (¬cond1_0 (grid1.coords t) ∧ cond1_1 (grid1.coords t) ∧ cond1_2 (grid1.coords t))
    ∨ (¬cond1_0 (grid1.coords t) ∧ ¬cond1_1 (grid1.coords t) ∧ ¬cond1_2 (grid1.coords t))
    ∨ (¬cond1_0 (grid1.coords t) ∧ ¬cond1_1 (grid1.coords t) ∧ cond1_2 (grid1.coords t)) :=
  (by decide +kernel : ∀ t : Fin grid1.N,
    (cond1_0 (grid1.coords t) ∧ cond1_1 (grid1.coords t) ∧ ¬cond1_2 (grid1.coords t))
    ∨ (¬cond1_0 (grid1.coords t) ∧ cond1_1 (grid1.coords t) ∧ ¬cond1_2 (grid1.coords t))
    ∨ (¬cond1_0 (grid1.coords t) ∧ cond1_1 (grid1.coords t) ∧ cond1_2 (grid1.coords t))
    ∨ (¬cond1_0 (grid1.coords t) ∧ ¬cond1_1 (grid1.coords t) ∧ ¬cond1_2 (grid1.coords t))
    ∨ (¬cond1_0 (grid1.coords t) ∧ ¬cond1_1 (grid1.coords t) ∧ cond1_2 (grid1.coords t)))

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key block the output window is idle: nothing is stored into it. -/
theorem idleAt1_3 : ∀ t : Fin cfg1.N, ¬cond1_2 (grid1.coords t) → cfg1.idle 3 (grid1.coords t) = true :=
  (by decide +kernel : ∀ t : Fin grid1.N, ¬cond1_2 (grid1.coords t) → idle1 3 (grid1.coords t) = true)
/-- And there the pipeline does not write its block back. -/
theorem noFlush1_3 : ∀ t : Fin cfg1.N, ¬cond1_2 (grid1.coords t) → (cfg1.win 3).flush t = false :=
  (by decide +kernel : ∀ t : Fin grid1.N, ¬cond1_2 (grid1.coords t) → win1_3.flush t = false)
/-- On the last key block the output window is live: the block is stored. -/
theorem liveAt1_3 : ∀ t : Fin cfg1.N, cond1_2 (grid1.coords t) → cfg1.idle 3 (grid1.coords t) = false :=
  (by decide +kernel : ∀ t : Fin grid1.N, cond1_2 (grid1.coords t) → idle1 3 (grid1.coords t) = false)
/-- The same case by case (A, B, D leave the output idle; C, E store it). -/
theorem idleAt1_3_A : ∀ t : Fin cfg1.N, cond1_0 (grid1.coords t) → cond1_1 (grid1.coords t) → ¬cond1_2 (grid1.coords t) → cfg1.idle 3 (grid1.coords t) = true := fun t _ _ h => idleAt1_3 t h
theorem noFlush1_3_A : ∀ t : Fin cfg1.N, cond1_0 (grid1.coords t) → cond1_1 (grid1.coords t) → ¬cond1_2 (grid1.coords t) → (cfg1.win 3).flush t = false := fun t _ _ h => noFlush1_3 t h
theorem idleAt1_3_B : ∀ t : Fin cfg1.N, ¬cond1_0 (grid1.coords t) → cond1_1 (grid1.coords t) → ¬cond1_2 (grid1.coords t) → cfg1.idle 3 (grid1.coords t) = true := fun t _ _ h => idleAt1_3 t h
theorem noFlush1_3_B : ∀ t : Fin cfg1.N, ¬cond1_0 (grid1.coords t) → cond1_1 (grid1.coords t) → ¬cond1_2 (grid1.coords t) → (cfg1.win 3).flush t = false := fun t _ _ h => noFlush1_3 t h
theorem liveAt1_3_C : ∀ t : Fin cfg1.N, ¬cond1_0 (grid1.coords t) → cond1_1 (grid1.coords t) → cond1_2 (grid1.coords t) → cfg1.idle 3 (grid1.coords t) = false := fun t _ _ h => liveAt1_3 t h
theorem idleAt1_3_D : ∀ t : Fin cfg1.N, ¬cond1_0 (grid1.coords t) → ¬cond1_1 (grid1.coords t) → ¬cond1_2 (grid1.coords t) → cfg1.idle 3 (grid1.coords t) = true := fun t _ _ h => idleAt1_3 t h
theorem noFlush1_3_D : ∀ t : Fin cfg1.N, ¬cond1_0 (grid1.coords t) → ¬cond1_1 (grid1.coords t) → ¬cond1_2 (grid1.coords t) → (cfg1.win 3).flush t = false := fun t _ _ h => noFlush1_3 t h
theorem liveAt1_3_E : ∀ t : Fin cfg1.N, ¬cond1_0 (grid1.coords t) → ¬cond1_1 (grid1.coords t) → cond1_2 (grid1.coords t) → cfg1.idle 3 (grid1.coords t) = false := fun t _ _ h => liveAt1_3 t h

/-! ## The memrefs the body is called with -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, spelled as the pipeline passes it, and its wholeness. -/
abbrev ms1_0 (t : Fin cfg1.N) : Memref sig .tc .vmem S1x1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands, whole scoped buffers carried from point to point: the running row maximum, the running
    denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch operands as views: what they hold is stated through these. -/
abbrev VS1_0 : View sig .tc .vmem S512x1 .f32 := scM1_0.view
abbrev VS1_1 : View sig .tc .vmem S512x1 .f32 := scM1_1.view
abbrev VS1_2 : View sig .tc .vmem S512x1024 .f32 := scM1_2.view

/-- The body at point `t` is the kernel function on these memrefs. -/
theorem bodyAt1_eq (t : Fin cfg1.N) :
    bodyAt1 (F := F) t = cc1_flash_causal_attn_kernel (grid1.coords t) (ms1_0 t) (hs1_0 t) (ms1_1 t) (hs1_1 t) (ms1_2 t) (hs1_2 t) (ms1_3 t) (hs1_3 t)
      scM1_0 (Memref.isWhole_whole _) scM1_1 (Memref.isWhole_whole _) scM1_2 (Memref.isWhole_whole _) := rfl

end Cert.KernelIdeal.Hand

end
-- ==== Proof.KI_R1RunA.lean ====
import proofs.«131958_j46909632807066_2_alg».proof.Proof.KI_R1Runs

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- (the run's proof term is large: the definition's epilogue walks it past the default budget)
set_option maxHeartbeats 1000000 in
/-- CASE A — the row's first key block (ki = 0, hence on or below the diagonal, and not the last): the running maximum, denominator and numerator are initialised, then one online-softmax update is made. The scratch buffers are taken at anything; the output block is not touched. -/
noncomputable def kernelRun1_A (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, fun xi3 K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%f3, %hf3, H3⟩, ⟨%dfs0, %fs0, -, HS0⟩, ⟨%dfs1, %fs1, -, HS1⟩, ⟨%dfs2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI_R1RunB.lean ====
import proofs.«131958_j46909632807066_2_alg».proof.Proof.KI_R1Runs

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- (the run's proof term is large: the definition's epilogue walks it past the default budget)
set_option maxHeartbeats 1000000 in
/-- CASE B — a later key block on or below the diagonal (0 < ki ≤ qi), not the last: one online-softmax update of the running maximum, denominator and numerator, from what the point before left in them. The output block is not touched. -/
noncomputable def kernelRun1_B (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, fun xi3 K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI_R1RunC.lean ====
import proofs.«131958_j46909632807066_2_alg».proof.Proof.KI_R1Runs

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- (the run's proof term is large: the definition's epilogue walks it past the default budget)
set_option maxHeartbeats 1000000 in
/-- CASE C — the last key block, on the diagonal (ki = 3 = qi): one online-softmax update, then the numerator is divided by the denominator and the output block stored. -/
noncomputable def kernelRun1_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, ?_, ?_, ?_, fun K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI_R1RunD.lean ====
import proofs.«131958_j46909632807066_2_alg».proof.Proof.KI_R1Runs

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- (the run's proof term is large: the definition's epilogue walks it past the default budget)
set_option maxHeartbeats 1000000 in
/-- CASE D — a key block past the diagonal (ki > qi), not the last: the body touches nothing, and every buffer is handed back as it was. -/
theorem kernelRun1_D (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
      ∀ (xi3 : Vec F S1x512x1024 .f32) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K := by
  intro xi3 K
  simp only [cc1_flash_causal_attn_kernel_eq_skeleton]; unfold cc1_flash_causal_attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.KI_R1RunE.lean ====
import proofs.«131958_j46909632807066_2_alg».proof.Proof.KI_R1Runs

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- (the run's proof term is large: the definition's epilogue walks it past the default budget)
set_option maxHeartbeats 1000000 in
/-- CASE E — the last key block, past the diagonal (ki = 3 > qi): no update; the numerator is divided by the denominator and the output block stored; the scratch buffers are read only and handed back as they were. -/
noncomputable def kernelRun1_E (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    { L3 : List (View.Piece (Elt F) S1x512x1024 .f32) //
      ∀ (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) Set.univ (cc1_flash_causal_attn_kernel i arg3 harg3 arg4 harg4 arg5 harg5 arg6 harg6 arg7 harg7 arg8 harg8 arg9 harg9) K } := by
  refine ⟨?_, fun K => ?run⟩
  case run =>
    simp only [cc1_flash_causal_attn_kernel_eq_skeleton]; unfold cc1_flash_causal_attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI_Shares.lean ====
/- The shares at which region 1 (the causal attention pipeline) holds its windows' arrays. Its three input windows —
   the query, key and value blocks — all read ONE array, so that array's points-to is dealt among them: the full share
   halves into a left and a right half, and the right half halves again. The output window's array is its own and is
   held whole. -/
import proofs.«131958_j46909632807066_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.RA

/-- Window by window: the query window holds the left half of the shared array, the key window the left half of the
    right half, the value window the right half of the right half (the three compose to the full share:
    `PosShare.mem_left_op_right` twice); the output window holds its array at the full share. -/
def q1 : Fin cfg1.W → PosShare TreeShare := fun
  | ⟨0, _⟩ => fullShare.left
  | ⟨1, _⟩ => fullShare.right.left
  | ⟨2, _⟩ => fullShare.right.right
  | ⟨3, _⟩ => fullShare
  | ⟨_ + 4, h⟩ => absurd h (Nat.not_lt.2 (Nat.le_add_left _ _))

@[simp] theorem q1_0 : q1 (0 : Fin 4) = fullShare.left := rfl
@[simp] theorem q1_1 : q1 (1 : Fin 4) = fullShare.right.left := rfl
@[simp] theorem q1_2 : q1 (2 : Fin 4) = fullShare.right.right := rfl
@[simp] theorem q1_3 : q1 (3 : Fin 4) = fullShare := rfl

end Cert.KernelIdeal.Hand

end
-- ==== Proof.KI_R1Dat.lean ====
/- REGION 1 of @main (the causal flash-attention call, pipeline 1, over the grid 4 × 4 × 4 of (batch, query block, key
   block)) at a parameter `V`, the TensorCore's buffer contents when the region is entered. The body keeps three
   accumulators from one key block to the next — the running row maximum, the running denominator and the running
   numerator of the online softmax — and stores the output block only at a row's last key block. Here: what each of
   the body's five cases leaves in the output buffer and in the three accumulators; those contents point by point,
   by recursion on the point (`outsAt1`); the region's invariant, which owns each accumulator at what the point before
   left in it (`PhiS1`); the pipeline's proof data (`dat1`), its body obligation, and the invariant's two ends. -/
import proofs.«131958_j46909632807066_2_alg».proof.Proof.KI_R1RunA
import proofs.«131958_j46909632807066_2_alg».proof.Proof.KI_R1RunB
import proofs.«131958_j46909632807066_2_alg».proof.Proof.KI_R1RunC
import proofs.«131958_j46909632807066_2_alg».proof.Proof.KI_R1RunD
import proofs.«131958_j46909632807066_2_alg».proof.Proof.KI_R1RunE
import proofs.«131958_j46909632807066_2_alg».proof.Proof.KI_Shares

-- membership in a rectangle of these extents: the elaborator's structural look recurses once per coordinate of the
-- long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What each case leaves in the output buffer and in the three accumulators

  A buffer a case stores into holds that case's pieces read back (they tile it, so neither the buffer they are read
  through nor what it held before matters); a buffer a case does not store into holds what it was given. -/

/-- Case A stores nothing into the output block, and no point before the grid's first has: a placeholder that nothing
    consults, since at these points the window is neither written back nor read at the next point. -/
def out1_A_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S1x512x1024 .f32 :=
  VO1_3.read (Elt F) VO1_3.junk

/-- Case A's pieces for the running maximum tile the buffer (each is one whole-buffer store), so they cover it. -/
theorem scover1_A_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x1.size (by sl_kernel_rfl) y

/-- What case A leaves in the running maximum: its pieces read back. -/
def sout1_A_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's pieces for the running denominator tile the buffer (each is one whole-buffer store), so they cover it. -/
theorem scover1_A_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What case A leaves in the running denominator: its pieces read back. -/
def sout1_A_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's pieces for the running numerator tile the buffer (each is one whole-buffer store), so they cover it. -/
theorem scover1_A_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1024.size (by sl_kernel_rfl) y

/-- What case A leaves in the running numerator: its pieces read back. -/
def sout1_A_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B stores nothing into the output block: its buffer is left as given (nothing consults it: at these points the
    window is neither written back nor read at the next point). -/
def out1_B_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (xo : Vec F S1x512x1024 .f32) : Vec F S1x512x1024 .f32 := xo

/-- Case B's pieces for the running maximum tile the buffer (each is one whole-buffer store), so they cover it. -/
theorem scover1_B_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S512x1.size (by sl_kernel_rfl) y

/-- What case B leaves in the running maximum: its pieces read back. -/
def sout1_B_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's pieces for the running denominator tile the buffer (each is one whole-buffer store), so they cover it. -/
theorem scover1_B_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What case B leaves in the running denominator: its pieces read back. -/
def sout1_B_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's pieces for the running numerator tile the buffer (each is one whole-buffer store), so they cover it. -/
theorem scover1_B_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1024.size (by sl_kernel_rfl) y

/-- What case B leaves in the running numerator: its pieces read back. -/
def sout1_B_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case C's pieces for the output block tile it (one whole-block store), so they cover it. -/
theorem cover1_C_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x1024.size (by sl_kernel_rfl) y

/-- What case C leaves in the output window's staging buffer: its pieces read back. -/
def out1_C_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

/-- Case C's pieces for the running maximum tile the buffer (each is one whole-buffer store), so they cover it. -/
theorem scover1_C_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S512x1.size (by sl_kernel_rfl) y

/-- What case C leaves in the running maximum: its pieces read back. -/
def sout1_C_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

/-- Case C's pieces for the running denominator tile the buffer (each is one whole-buffer store), so they cover it. -/
theorem scover1_C_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S512x1.size (by sl_kernel_rfl) y

/-- What case C leaves in the running denominator: its pieces read back. -/
def sout1_C_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

/-- Case C's pieces for the running numerator tile the buffer (each is one whole-buffer store), so they cover it. -/
theorem scover1_C_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What case C leaves in the running numerator: its pieces read back. -/
def sout1_C_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

/-- Case D stores nothing at all: the output buffer is left as given, -/
def out1_D_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (xo : Vec F S1x512x1024 .f32) : Vec F S1x512x1024 .f32 := xo

/-- Case D does not store into the running maximum: it is left as given. -/
def sout1_D_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs0

/-- Case D does not store into the running denominator: it is left as given. -/
def sout1_D_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs1

/-- Case D does not store into the running numerator: it is left as given. -/
def sout1_D_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 := xs2

/-- Case E's pieces for the output block tile it (one whole-block store), so they cover it. -/
theorem cover1_E_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) (y : S1x512x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x1024.size (by sl_kernel_rfl) y

/-- What case E leaves in the output window's staging buffer: its pieces read back. -/
def out1_E_3 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Case E does not store into the running maximum: it is left as given. -/
def sout1_E_0 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs0

/-- Case E does not store into the running denominator: it is left as given. -/
def sout1_E_1 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1 .f32 := xs1

/-- Case E does not store into the running numerator: it is left as given. -/
def sout1_E_2 (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) : Vec F S512x1024 .f32 := xs2

section Region1
-- the TensorCore's buffer contents when the region is entered
variable (V : (c : Dev nD) → (b : Ref sig .tc) → Buf (Elt F) ((c : Thread nD τ).loc b))

/-! ## Which case a point is in, from the closed forms of the three tests

  With ki = t mod 4 and qi = (t / 4) mod 4: A is ki = 0; B is 0 < ki ≤ qi, ki ≠ 3; C is ki = 3 ≤ qi (so qi = 3);
  D is ki > qi, ki ≠ 3; E is ki = 3 > qi. -/

theorem caseA (t : Fin cfg1.N) (h0 : t.val % 4 = 0) :
    cond1_0 (grid1.coords t) ∧ cond1_1 (grid1.coords t) ∧ ¬cond1_2 (grid1.coords t) :=
  ⟨(hcond1_0 t).mpr h0, (hcond1_1 t).mpr (by omega), fun h => by have := (hcond1_2 t).mp h; omega⟩
theorem caseB (t : Fin cfg1.N) (h0 : ¬t.val % 4 = 0) (h1 : t.val % 4 ≤ t.val / 4 % 4) (h2 : ¬t.val % 4 = 3) :
    ¬cond1_0 (grid1.coords t) ∧ cond1_1 (grid1.coords t) ∧ ¬cond1_2 (grid1.coords t) :=
  ⟨fun h => h0 ((hcond1_0 t).mp h), (hcond1_1 t).mpr h1, fun h => h2 ((hcond1_2 t).mp h)⟩
theorem caseC (t : Fin cfg1.N) (h1 : t.val % 4 ≤ t.val / 4 % 4) (h2 : t.val % 4 = 3) :
    ¬cond1_0 (grid1.coords t) ∧ cond1_1 (grid1.coords t) ∧ cond1_2 (grid1.coords t) :=
  ⟨fun h => by have := (hcond1_0 t).mp h; omega, (hcond1_1 t).mpr h1, (hcond1_2 t).mpr h2⟩
theorem caseD (t : Fin cfg1.N) (h1 : ¬t.val % 4 ≤ t.val / 4 % 4) (h2 : ¬t.val % 4 = 3) :
    ¬cond1_0 (grid1.coords t) ∧ ¬cond1_1 (grid1.coords t) ∧ ¬cond1_2 (grid1.coords t) :=
  ⟨fun h => by have := (hcond1_0 t).mp h; omega, fun h => h1 ((hcond1_1 t).mp h), fun h => h2 ((hcond1_2 t).mp h)⟩
theorem caseE (t : Fin cfg1.N) (h1 : ¬t.val % 4 ≤ t.val / 4 % 4) (h2 : t.val % 4 = 3) :
    ¬cond1_0 (grid1.coords t) ∧ ¬cond1_1 (grid1.coords t) ∧ cond1_2 (grid1.coords t) :=
  ⟨fun h => by have := (hcond1_0 t).mp h; omega, fun h => h1 ((hcond1_1 t).mp h), (hcond1_2 t).mpr h2⟩

/-! ## What the output buffer and the accumulators hold after each point -/

/-- (output buffer, running maximum, running denominator, running numerator). -/
abbrev Outs1 (F : FTy → Type) : Type := Vec F S1x512x1024 .f32 × Vec F S512x1 .f32 × Vec F S512x1 .f32 × Vec F S512x1024 .f32

/-- THE ACCUMULATION. What the output window's staging buffer and the three accumulators hold after the body at
    position `n`: the case the closed forms select at `n`, run at the point's memrefs and input blocks, the accumulators
    (and, where the case leaves it alone, the output buffer) at what this leaves at `n - 1`. The first point is in case A,
    which takes no accumulator from before. -/
def outsAt1 (c : Dev nD) : (n : ℕ) → n < cfg1.N → Outs1 F
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (caseA ⟨0, hn⟩ (Nat.zero_mod 4)).1 (caseA ⟨0, hn⟩ (Nat.zero_mod 4)).2.1 (caseA ⟨0, hn⟩ (Nat.zero_mod 4)).2.2 (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseA ⟨n + 1, hn⟩ h0).1 (caseA ⟨n + 1, hn⟩ h0).2.1 (caseA ⟨n + 1, hn⟩ h0).2.2 (iblk1 V c 0 ⟨n + 1, hn⟩) (iblk1 V c 1 ⟨n + 1, hn⟩) (iblk1 V c 2 ⟨n + 1, hn⟩))
    else if h1 : (n + 1) % 4 ≤ (n + 1) / 4 % 4 then
      if h2 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseC ⟨n + 1, hn⟩ h1 h2).1 (caseC ⟨n + 1, hn⟩ h1 h2).2.1 (caseC ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2 (outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseB ⟨n + 1, hn⟩ h0 h1 h2).1 (caseB ⟨n + 1, hn⟩ h0 h1 h2).2.1 (caseB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      if h2 : (n + 1) % 4 = 3 then
        (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_E_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseE ⟨n + 1, hn⟩ h1 h2).1 (caseE ⟨n + 1, hn⟩ h1 h2).2.1 (caseE ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2 (outsAt1 c n (Nat.lt_of_succ_lt hn)).1, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (caseD ⟨n + 1, hn⟩ h1 h2).1 (caseD ⟨n + 1, hn⟩ h1 h2).2.1 (caseD ⟨n + 1, hn⟩ h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseA t h0).1 (caseA t h0).2.1 (caseA t h0).2.2 (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) (h1 : t.val % 4 ≤ t.val / 4 % 4) (h2 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseB t h0 h1 h2).1 (caseB t h0 h1 h2).2.1 (caseB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod 4) h0
  | succ n => exact (dif_neg h0).trans ((dif_pos h1).trans ((dif_neg h2).trans rfl))

/-- `outsAt1` at a point of case C: that case's contents, over what the point before left. -/
theorem outsAt1_C (c : Dev nD) (t : Fin cfg1.N) (h1 : t.val % 4 ≤ t.val / 4 % 4) (h2 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseC t h1 h2).1 (caseC t h1 h2).2.1 (caseC t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h2); omega
  cases n with
  | zero => exact absurd (Nat.zero_mod 4) h0
  | succ n => exact (dif_neg h0).trans ((dif_pos h1).trans ((dif_pos h2).trans rfl))

/-- `outsAt1` at a point of case D: everything as the point before left it. -/
theorem outsAt1_D (c : Dev nD) (t : Fin cfg1.N) (h1 : ¬t.val % 4 ≤ t.val / 4 % 4) (h2 : ¬t.val % 4 = 3) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (outsAt1 V c (t.val - 1) (Nat.lt_of_le_of_lt (Nat.sub_le _ _) t.isLt)).1, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseD t h1 h2).1 (caseD t h1 h2).2.1 (caseD t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h1); omega
  cases n with
  | zero => exact absurd (Nat.zero_mod 4) h0
  | succ n => exact (dif_neg h0).trans ((dif_neg h1).trans ((dif_neg h2).trans rfl))

/-- `outsAt1` at a point of case E: the output block stored from the accumulators the point before left, which stay. -/
theorem outsAt1_E (c : Dev nD) (t : Fin cfg1.N) (h1 : ¬t.val % 4 ≤ t.val / 4 % 4) (h2 : t.val % 4 = 3) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (caseE t h1 h2).1 (caseE t h1 h2).2.1 (caseE t h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  have h0 : ¬(n % 4 = 0) := by (try dsimp only at h2); omega
  cases n with
  | zero => exact absurd (Nat.zero_mod 4) h0
  | succ n => exact (dif_neg h0).trans ((dif_neg h1).trans ((dif_pos h2).trans rfl))

/-! ## The region's invariant -/

/-- The class invariant with the three accumulators as memrefs owned at some contents: what the body is handed before
    the grid's first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region invariant before position `n`: before the first point the class's (every scoped buffer that is no
    staging buffer of this call at anything, the generator register at some state); afterwards the same with each of
    the three accumulators owned at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; of the one array the three input windows read, each window holds its own part of the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

/-- The proof data's arrays are the region-entry contents. -/
theorem A_eq1 (c : Dev nD) (w : Fin cfg1.W) : (dat1 V c).A w = V c (Pipeline.arrRef spec1 w) := by
  dsimp only [dat1]

/-- Its shares are `q1`'s, and it owes nothing. -/
theorem q_eq1 (c : Dev nD) (w : Fin cfg1.W) : (dat1 V c).q w = q1 w := by dsimp only [dat1]
theorem owed_eq1 (c : Dev nD) (t : Fin (cfg1.N + 1)) : (dat1 V c).owed t = 0 := by dsimp only [dat1]
/-- No bound is put on the pairs its waits have recorded. -/
theorem rec_eq1 (c : Dev nD) : (dat1 V c).recorded 0 = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The inputs' buffers are handed back at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- At a row's last key block the output's buffer is handed back at the stored block. -/
theorem leaves1_3_live (c : Dev nD) (t : Fin cfg1.N) (h : cond1_2 (grid1.coords t)) :
    (dat1 V c).leavesExact 3 t = owns (c : Thread nD τ) (ms1_3 t) fullShare ((outsAt1 V c t.val t.isLt).1) := by
  rw [show (dat1 V c).leavesExact 3 t = owns (c : Thread nD τ) (ms1_3 t) fullShare ((dat1 V c).after 3 t) from by
    unfold Dat.leavesExact; rw [liveAt1_3 t h], after1_3]
/-- Elsewhere it is handed back as found. -/
theorem leaves1_3_idle (c : Dev nD) (t : Fin cfg1.N) (h : ¬cond1_2 (grid1.coords t)) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)

end Region1

end Cert.KernelIdeal.Hand

end
-- ==== Proof.KI_R1.lean ====
/- REGION 1 of @main (the causal flash-attention call, pipeline 1) at a parameter `V`, continued: the body obligation of
   the pipeline's proof data `dat1` — at every grid point the body, run in the case the point is in, takes the invariant
   (the three accumulators at what the point before left) and the windows' buffers to the next point's — and the
   invariant's two ends: what the launch hands the region is the invariant before the first point, and after the last
   point the invariant gives that back. -/
import proofs.«131958_j46909632807066_2_alg».proof.Proof.KI_R1Dat

-- membership in a rectangle of these extents: the elaborator's structural look recurses once per coordinate of the
-- long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the five cases the
    point is in, so that case's run applies; the invariant hands the body the three accumulators at what the point
    before left in them (at anything before the first point) and takes them back at this point's contents; where the
    case does not store the output block its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · rw [leaves1_0, leaves1_1, leaves1_2]
    rw [leaves1_3_idle V c t (caseA t h0).2.2]
    rw [outsAt1_A V c t h0]
    unfold sout1_A_0 sout1_A_1 sout1_A_2; (try dsimp only)
    by_cases hz : t.val = 0
    · rw [PhiS1_castSucc V c t, PhiS1_zero V c _ _ hz, PhiA1_eq]
      iintro ⟨⟨⟨HR0, HR1, HR2, HR3, HR4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h0).1 (caseA t h0).2.1 (caseA t h0).2.2 (iblk1 V c 0 t) (iblk1 V c 1 t) (iblk1 V c 2 t)).2.2.2 _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HS0 HS1 HS2 Hg]
      · isplitl [HR0 HR1 HR2 HR3 HR4 HS0 HS1 HS2]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h0).1 (caseA t h0).2.1 (caseA t h0).2.2 (iblk1 V c 0 t) (iblk1 V c 1 t) (iblk1 V c 2 t)).2.2.2 _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HS0 HS1 HS2 Hg]
      · isplitl [HR0 HR1 HR2 HR3 HR4 HS0 HS1 HS2]
        · isplitl [HR0]; · iexact HR0
          isplitl [HR1]; · iexact HR1
          isplitl [HR2]; · iexact HR2
          isplitl [HR3]; · iexact HR3
          isplitl [HR4]; · iexact HR4
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · rw [leaves1_0, leaves1_1, leaves1_2]
        rw [leaves1_3_live V c t (caseC t h1 h2).2.2]
        rw [outsAt1_C V c t h1 h2]
        unfold out1_C_3 sout1_C_0 sout1_C_1 sout1_C_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_C c (grid1.coords t) _ _ _ _ _ _ _ _ _ _ _ _ _ _ (caseC t h1 h2).1 (caseC t h1 h2).2.1 (caseC t h1 h2).2.2 (iblk1 V c 0 t) (iblk1 V c 1 t) (iblk1 V c 2 t) _ _ _).2.2.2.2 _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _ _)
      · rw [leaves1_0, leaves1_1, leaves1_2]
        rw [leaves1_3_idle V c t (caseB t h0 h1 h2).2.2]
        rw [outsAt1_B V c t h0 h1 h2]
        unfold sout1_B_0 sout1_B_1 sout1_B_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_B c (grid1.coords t) _ _ _ _ _ _ _ _ _ _ _ _ _ _ (caseB t h0 h1 h2).1 (caseB t h0 h1 h2).2.1 (caseB t h0 h1 h2).2.2 (iblk1 V c 0 t) (iblk1 V c 1 t) (iblk1 V c 2 t) _ _ _).2.2.2 _ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
    · by_cases h2 : t.val % 4 = 3
      · rw [leaves1_0, leaves1_1, leaves1_2]
        rw [leaves1_3_live V c t (caseE t h1 h2).2.2]
        rw [outsAt1_E V c t h1 h2]
        unfold out1_E_3 sout1_E_0 sout1_E_1 sout1_E_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (caseE t h1 h2).1 (caseE t h1 h2).2.1 (caseE t h1 h2).2.2 (iblk1 V c 0 t) (iblk1 V c 1 t) (iblk1 V c 2 t) _ _ _).2 _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _)
      · rw [leaves1_0, leaves1_1, leaves1_2]
        rw [leaves1_3_idle V c t (caseD t h1 h2).2.2]
        rw [outsAt1_D V c t h1 h2]
        unfold sout1_D_0 sout1_D_1 sout1_D_2; (try dsimp only)
        by_cases hz : t.val = 0
        · exfalso; omega
        · rw [PhiS1_castSucc V c t, PhiS1_pos V c _ _ hz]
          iintro ⟨⟨⟨HR0, HR1, HR2, HR3, HR4, HS0, HS1, HS2⟩, Hg⟩, Ho, ⟨%d0, H0⟩, ⟨%d1, H1⟩, ⟨%d2, H2⟩, ⟨%d3, H3⟩⟩
          iapply (kernelRun1_D c (grid1.coords t) _ _ _ _ _ _ _ _ _ _ _ _ _ _ (caseD t h1 h2).1 (caseD t h1 h2).2.1 (caseD t h1 h2).2.2 (iblk1 V c 0 t) (iblk1 V c 1 t) (iblk1 V c 2 t) _ _ _ _ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [HR0 HR1 HR2 HR3 HR4 HS0 HS1 HS2 Hg]
          · isplitl [HR0 HR1 HR2 HR3 HR4 HS0 HS1 HS2]
            · isplitl [HR0]; · iexact HR0
              isplitl [HR1]; · iexact HR1
              isplitl [HR2]; · iexact HR2
              isplitl [HR3]; · iexact HR3
              isplitl [HR4]; · iexact HR4
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0, HS1, HS2⟩, Hg⟩
  isplitl [HR0 HR1 HR2 HR3 HR4 HS0 HS1 HS2]
  · isplitl [HR0]; · iexact HR0
    isplitl [HR1]; · iexact HR1
    isplitl [HR2]; · iexact HR2
    isplitl [HR3]; · iexact HR3
    isplitl [HR4]; · iexact HR4
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KI_Run.lean ====
/- THE RUN of @main: a host stretch, region 0 (the fused projections), a host stretch, region 1 (the causal attention),
   assembled over the several-region launch theorem, for ANY proof data of the two regions that meets the facts listed
   as this module's hypotheses: each region's arrays read off its entry contents, the shares at which it holds them,
   nothing owed, its invariant's two ends, and its body obligation. Concluded: every execution terminates, the argument
   arrays end as launched (`frame`), and the result buffer ends holding what region 1's write-backs leave
   (`run_named`), region 1 being entered at the contents the host stretches and region 0 make of the launch memory. -/
import proofs.«131958_j46909632807066_2_alg».proof.Proof.Gen.KernelIdeal.Launch
import proofs.«131958_j46909632807066_2_alg».proof.Proof.Gen.KernelIdeal.Regions
import proofs.«131958_j46909632807066_2_alg».proof.Proof.KI_Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (Pipeline.UD sig nD τ) ℕ

/-! # Region 1's shared array

Region 1's query, key and value windows read ONE array; its output window's array is its own. The buffers behind the
arrays are therefore two, and the shared one's points-to is dealt among the three windows by halving its share twice
(`q1`). -/

section SharedArray

/-- The buffers behind region 1's arrays: the shared input array and the output array. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v7) ↦{fullShare} V main_v7) ∗ (((c : Thread nD τ).loc main_v8) ↦{fullShare} V main_v8)) := by
  unfold Pipeline.arrBufs
  rw [show Finset.univ.image (Pipeline.arrRef spec1) = {main_v7, main_v8} from by decide,
    BI.bigSep_insert (by decide), BI.bigSep_singleton]
  rfl

/-- A proof data whose input shares are `q1` holds window `w`'s array at `q1 w` (the output window's at the full
    share, which is `q1`'s value there). -/
theorem share1_eq (c : Dev nD) (dat : Dat τ (Elt F) Unit ℕ (Pipeline.UD sig nD τ) ℕ cfg1 c) (hq : ∀ w, dat.q w = q1 w) :
    ∀ w, dat.share w = q1 w := fun
    | 0 => (if_neg (by decide)).trans (hq 0)
    | 1 => (if_neg (by decide)).trans (hq 1)
    | 2 => (if_neg (by decide)).trans (hq 2)
    | 3 => if_pos (by decide)
    | ⟨_ + 4, h⟩ => absurd h (Nat.not_lt.2 (Nat.le_add_left _ _))

/-- Region 1's arrays, window by window: three shares of the one input array, the output array whole. -/
theorem arrays1_eq (c : Dev nD) (dat : Dat τ (Elt F) Unit ℕ (Pipeline.UD sig nD τ) ℕ cfg1 c) (hq : ∀ w, dat.q w = q1 w)
    (G : (w : Fin cfg1.W) → Buf (Elt F) ((cfg1.win w).arr.view.loc (c : Thread nD τ))) :
    (dat.arrays G : sProp 𝕄)
      = iprop((((c : Thread nD τ).loc main_v7) ↦{fullShare.left} G 0) ∗ (((c : Thread nD τ).loc main_v7) ↦{fullShare.right.left} G 1)
          ∗ (((c : Thread nD τ).loc main_v7) ↦{fullShare.right.right} G 2) ∗ (((c : Thread nD τ).loc main_v8) ↦{fullShare} G 3)) := by
  unfold Dat.arrays
  rw [show (fun w : Fin cfg1.W => ((cfg1.win w).arr.view.loc (c : Thread nD τ) ↦[(cfg1.win w).arr.view.set]{dat.share w} G w : sProp 𝕄))
      = fun w => (((c : Thread nD τ).loc (Pipeline.arrRef spec1 w)) ↦{q1 w} G w) from funext fun w => by rw [(arr_whole1 w).set_eq_univ, share1_eq c dat hq]]
  rw [bigSep_W1]; rfl

/-- ENTRY: the two buffers, each whole at contents `V`, are region 1's arrays at contents read off `V` — the shared
    array's full share halved into the query window's share and a remainder, the remainder halved into the key
    window's and the value window's. -/
theorem arrays1_split (c : Dev nD) (dat : Dat τ (Elt F) Unit ℕ (Pipeline.UD sig nD τ) ℕ cfg1 c) (hq : ∀ w, dat.q w = q1 w)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := Pipeline.UD sig nD τ) (Lvl := ℕ) spec1 c V : sProp 𝕄) ⊢ dat.arrays G := by
  obtain rfl : G = fun w => V (Pipeline.arrRef spec1 w) := funext hG
  rw [arrBufs1_eq, arrays1_eq c dat hq]
  iintro ⟨H7, H8⟩
  ihave H := (pointsTo_share (PosShare.mem_left_op_right fullShare)).1 $$ H7
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H8

/-- EXIT: region 1's arrays at contents read off `V'` — the three windows of the shared array holding the same
    contents — are the two buffers whole at `V'`: the shares joined back in the order they were dealt. -/
theorem arrays1_join (c : Dev nD) (dat : Dat τ (Elt F) Unit ℕ (Pipeline.UD sig nD τ) ℕ cfg1 c) (hq : ∀ w, dat.q w = q1 w)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs (Ix := Unit) (Name := ℕ) (U := Pipeline.UD sig nD τ) (Lvl := ℕ) spec1 c V' := by
  obtain rfl : G = fun w => V' (Pipeline.arrRef spec1 w) := funext hG
  rw [arrBufs1_eq, arrays1_eq c dat hq]
  iintro ⟨Hl, Hrl, Hrr, H8⟩
  isplitr [H8]
  · iapply (pointsTo_share (PosShare.mem_left_op_right fullShare)).2
    isplitl [Hl]; · iexact Hl
    iapply (pointsTo_share (PosShare.mem_left_op_right fullShare.right)).2
    isplitl [Hrl] <;> iassumption
  · iexact H8

end SharedArray

/-! # The run: @main's four segments from the launch to the return

@main is a host stretch (the reshapes, broadcasts, concatenation and rounding that build region 0's operands), region 0
(the fused projections), a host stretch (one reshape) and region 1 (the causal attention). Between two segments every
unscoped buffer of the core is held whole at known contents: the launch contents, then what each host stretch computes
from them, a region replacing its output array by what its write-backs leave. -/

section Run

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (Pipeline.UD sig nD τ) ℕ cfg0 c)
variable (dat1 : ((c : Dev nD) → (b : Ref sig .tc) → Buf (Elt F) ((c : Thread nD τ).loc b)) → (c : Dev nD) → Dat τ (Elt F) Unit ℕ (Pipeline.UD sig nD τ) ℕ cfg1 c)

/-! ## The buffers' contents at the segment boundaries -/

/-- Region 0's entry contents: the launch contents after the first host stretch. -/
abbrev V1' : (c : Dev nD) → (b : Ref sig .tc) → Buf (Elt F) ((c : Thread nD τ).loc b) := fun c b => V1 m c b

/-- What region 0 leaves in its output array: the write-backs of all its points folded into the array as entered. -/
def out0 (c : Dev nD) : Buf (Elt F) ((c : Thread nD τ).loc main_v6) := (dat0 (V1' m) c).arrAt 2 cfg0.N

/-- The regions' results up to region 0's: its output array at `out0` (read at no other reference). -/
def outsA : Outs (F := F) := fun _ r c => Function.update (fun r => m ((c : Thread nD τ).loc r)) main_v6 (out0 m dat0 c) r

/-- Region 1's entry contents: region 0's exit contents after the second host stretch. -/
abbrev V3' : (c : Dev nD) → (b : Ref sig .tc) → Buf (Elt F) ((c : Thread nD τ).loc b) := fun c b => V3 m (outsA m dat0) c b

/-- What region 1 leaves in its output array. -/
def out1 (c : Dev nD) : Buf (Elt F) ((c : Thread nD τ).loc main_v8) := (dat1 (V3' m dat0) c).arrAt 3 cfg1.N

/-- The regions' results: region 0's output array at `out0`, region 1's at `out1`. -/
def outs : Outs (F := F)
  | 4, r, c => Function.update (fun r => m ((c : Thread nD τ).loc r)) main_v8 (out1 m dat0 dat1 c) r
  | J, r, c => outsA m dat0 J r c

theorem outs_2 (c : Dev nD) : outs m dat0 dat1 2 main_v6 c = out0 m dat0 c :=
  (show outs m dat0 dat1 2 main_v6 c = Function.update (fun r => m ((c : Thread nD τ).loc r)) main_v6 (out0 m dat0 c) main_v6 from rfl).trans (Function.update_self ..)
theorem outs_4 (c : Dev nD) : outs m dat0 dat1 4 main_v8 c = out1 m dat0 dat1 c :=
  (show outs m dat0 dat1 4 main_v8 c = Function.update (fun r => m ((c : Thread nD τ).loc r)) main_v8 (out1 m dat0 dat1 c) main_v8 from rfl).trans (Function.update_self ..)

/-- Region 0's exit contents name its output array's contents, -/
theorem V2_main_v6 (c : Dev nD) : V2 m (outs m dat0 dat1) c main_v6 = (dat0 (V1' m) c).arrAt 2 cfg0.N :=
  (Function.update_self ..).trans (outs_2 m dat0 dat1 c)
/-- region 1's entry contents are those after the second host stretch, -/
theorem V3_eq (c : Dev nD) : V3 m (outs m dat0 dat1) c = StableHlo.after hostOps1 (V2 m (outs m dat0 dat1) c) := rfl
theorem V3'_eq (c : Dev nD) (b : Ref sig .tc) : V3' m dat0 c b = V3 m (outs m dat0 dat1) c b := rfl
/-- and region 1's exit contents name its output array's. -/
theorem V4_main_v8 (c : Dev nD) : V4 m (outs m dat0 dat1) c main_v8 = (dat1 (V3' m dat0) c).arrAt 3 cfg1.N :=
  (Function.update_self ..).trans (outs_4 m dat0 dat1 c)

end Run

/-! ## The proof data family and what rides beside the buffers -/

section Records

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (Pipeline.UD sig nD τ) ℕ cfg0 c)
variable (dat1 : ((c : Dev nD) → (b : Ref sig .tc) → Buf (Elt F) ((c : Thread nD τ).loc b)) → (c : Dev nD) → Dat τ (Elt F) Unit ℕ (Pipeline.UD sig nD τ) ℕ cfg1 c)

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1' m) c
  | ⟨1, _⟩ => fun c => dat1 (V3' m dat0) c

/-- No kernel of this program has a variant. -/
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its dues, at
    nothing. -/
abbrev beside (c : Dev nD) : sProp 𝕄 := iprop((∃ r, prngReg c r) ∗ ∃ W, owes (c : Thread nD τ) (0 : CellTallies nD τ sig Unit) W)

variable (hA0 : ∀ V c w, (dat0 V c).A w = V c (Pipeline.arrRef spec0 w)) (hq0 : ∀ V c w, (dat0 V c).q w = fullShare)
  (howed0 : ∀ V c t, (dat0 V c).owed t = 0) (hrec0 : ∀ V c, (dat0 V c).recorded 0 = Set.univ) (hΦ0 : ∀ V c t, (dat0 V c).Φ t = Pipeline.ΦA spec0 c)
  (hbody0 : ∀ V c, BodyObligation (dat0 V c) (defs₀ (F := F)) Variants.none () Set.univ)
variable (hA1 : ∀ V c w, (dat1 V c).A w = V c (Pipeline.arrRef spec1 w)) (hq1 : ∀ V c w, (dat1 V c).q w = q1 w)
  (howed1 : ∀ V c t, (dat1 V c).owed t = 0) (hrec1 : ∀ V c, (dat1 V c).recorded 0 = Set.univ)
  (hin1 : ∀ V c, Pipeline.ΦA spec1 c ⊢ (dat1 V c).Φ 0) (hout1 : ∀ V c, (dat1 V c).Φ (Fin.last cfg1.N) ⊢ Pipeline.ΦA spec1 c)
  (hbody1 : ∀ V c, BodyObligation (dat1 V c) (defs₀ (F := F)) Variants.none () Set.univ)

/-! ## What the regions leave: each array of a region at what its write-backs make of it, every other buffer as entered -/

include hA0 in
theorem hF0 (c : Dev nD) : ∀ w : Fin cfg0.W, (dat0 (V1' m) c).arrAt w cfg0.N = V2 m (outs m dat0 dat1) c (Pipeline.arrRef spec0 w)
  | 0 => ((dat0 (V1' m) c).arrAt_in 0 rfl _).trans ((hA0 _ c 0).trans (V2_of m _ c main_v0 (by decide)).symm)
  | 1 => ((dat0 (V1' m) c).arrAt_in 1 rfl _).trans ((hA0 _ c 1).trans (V2_of m _ c main_v5 (by decide)).symm)
  | 2 => (V2_main_v6 m dat0 dat1 c).symm
  | ⟨_ + 3, h⟩ => absurd h (Nat.not_lt.2 (Nat.le_add_left _ _))

theorem hrest0 (c : Dev nD) (b : Ref sig .tc) (hb : b ∉ Finset.univ.image (Pipeline.arrRef spec0)) :
    V2 m (outs m dat0 dat1) c b = V1 m c b :=
  V2_of m _ c b fun h => hb (List.mem_singleton.mp h ▸ Finset.mem_image.mpr ⟨2, Finset.mem_univ _, rfl⟩)

include hA1 in
theorem hF1 (c : Dev nD) : ∀ w : Fin cfg1.W, (dat1 (V3' m dat0) c).arrAt w cfg1.N = V4 m (outs m dat0 dat1) c (Pipeline.arrRef spec1 w)
  | 0 => ((dat1 (V3' m dat0) c).arrAt_in 0 rfl _).trans ((hA1 _ c 0).trans (V4_of m _ c main_v7 (by decide)).symm)
  | 1 => ((dat1 (V3' m dat0) c).arrAt_in 1 rfl _).trans ((hA1 _ c 1).trans (V4_of m _ c main_v7 (by decide)).symm)
  | 2 => ((dat1 (V3' m dat0) c).arrAt_in 2 rfl _).trans ((hA1 _ c 2).trans (V4_of m _ c main_v7 (by decide)).symm)
  | 3 => (V4_main_v8 m dat0 dat1 c).symm
  | ⟨_ + 4, h⟩ => absurd h (Nat.not_lt.2 (Nat.le_add_left _ _))

theorem hrest1 (c : Dev nD) (b : Ref sig .tc) (hb : b ∉ Finset.univ.image (Pipeline.arrRef spec1)) :
    V4 m (outs m dat0 dat1) c b = V3 m (outs m dat0 dat1) c b :=
  V4_of m _ c b fun h => hb (List.mem_singleton.mp h ▸ Finset.mem_image.mpr ⟨3, Finset.mem_univ _, rfl⟩)

/-! ## The regions as segments -/

set_option backward.isDefEq.respectTransparency.types false in
/-- REGION 0 over the thread state: entered from every unscoped buffer at the contents after the first host stretch,
    left with its output array replaced by what its write-backs leave. Its arrays — distinct buffers, each held whole —
    are split out of the unscoped buffers and put back at the exit contents; the generator register goes into the
    invariant and comes out; nothing is owed; the kernel has no semaphore of its own. -/
def reg0 : RegionSeg (pcfgs (F := F)) adm (pdats m dat0 dat1) () defs₀ noVariants noPairs noLevel 0 where
  win := launch0.win.to₀
  block_pos := launch0.block_pos
  stage_whole := launch0.stage_whole
  K := PEmpty
  osem k := k.elim
  ho := Pipeline.OwnSemFacts.none _
  hbody c := (hbody0 (V1' m) c).loose
  hwaits := Pipeline.hwaits_of_owed_zero _ _ _ _ noPairs noLevel 0 fun c t => howed0 _ c t
  pre c := iprop(StableHlo.held (c : Thread nD τ) (Pipeline.ucRefs τ sig) (V1 m c) ∗ beside c)
  post c := iprop(StableHlo.held (c : Thread nD τ) (Pipeline.ucRefs τ sig) (V2 m (outs m dat0 dat1) c) ∗ beside c)
  X c := iprop(∃ r, prngReg c r)
  Y c := iprop(∃ r, prngReg c r)
  Z c := Pipeline.unscopedRest (Ix := Unit) (Name := ℕ) (U := Pipeline.UD sig nD τ) (Lvl := ℕ) spec0 c (V1' m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => hq0 _ c w) (V1' m c) fun w => hA0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m dat0 dat1 0 c).recorded 0 = Set.univ from hrec0 _ c]; trivial)
      rw [show (pdats m dat0 dat1 0 c).owed 0 = 0 from howed0 _ c 0]; iexact HO
    isplitl [Hp]; · iexact Hp
    iexact Hrest
  hin c := by
    rw [show (pdats m dat0 dat1 0 c).Φ 0 = Pipeline.ΦA spec0 c from hΦ0 _ c 0]; unfold Pipeline.ΦA
    iintro ⟨Hp, -, Hr⟩
    isplitl [Hr]; · iexact Hr
    iexact Hp
  hout c := by
    rw [Pipeline.ownSems0_none, show (pdats m dat0 dat1 0 c).Φ (Fin.last _) = Pipeline.ΦA spec0 c from hΦ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m dat0 dat1) ((pdats m dat0 dat1 0 c).share_full fun w => hq0 _ c w)
      (V1' m c) (fun b => V2 m (outs m dat0 dat1) c b) ((pdats m dat0 dat1 0 c).arrAt · cfg0.N) (hF0 m dat0 dat1 hA0 c) (hrest0 m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m dat0 dat1 0 c).owed (Fin.last _) = 0 from howed0 _ c _]; iexact HO

set_option backward.isDefEq.respectTransparency.types false in
/-- REGION 1 over the thread state: entered from every unscoped buffer at the contents after the second host stretch,
    left with its output array replaced by what its write-backs leave. The query, key and value windows read one array:
    at entry its buffer, held whole, is dealt among them share by share (`arrays1_split`); at exit the three shares,
    each at the contents the array was entered with (an input array is never written), are joined back
    (`arrays1_join`). The invariant carries the kernel's running maximum, denominator and numerator from point to
    point; only its two ends are the plain "scoped buffers at some contents, the generator register at some state". -/
def reg1 : RegionSeg (pcfgs (F := F)) adm (pdats m dat0 dat1) () defs₀ noVariants noPairs noLevel 1 where
  win := winFacts₀1
  block_pos := block_pos1
  stage_whole := stage_whole1
  K := PEmpty
  osem k := k.elim
  ho := Pipeline.OwnSemFacts.none _
  hbody c := (hbody1 (V3' m dat0) c).loose
  hwaits := Pipeline.hwaits_of_owed_zero _ _ _ _ noPairs noLevel 1 fun c t => howed1 _ c t
  pre c := iprop(StableHlo.held (c : Thread nD τ) (Pipeline.ucRefs τ sig) (V3 m (outs m dat0 dat1) c) ∗ beside c)
  post c := iprop(StableHlo.held (c : Thread nD τ) (Pipeline.ucRefs τ sig) (V4 m (outs m dat0 dat1) c) ∗ beside c)
  X c := iprop(∃ r, prngReg c r)
  Y c := iprop(∃ r, prngReg c r)
  Z c := Pipeline.unscopedRest (Ix := Unit) (Name := ℕ) (U := Pipeline.UD sig nD τ) (Lvl := ℕ) spec1 c (V3' m dat0 c)
  hentry c := by
    rw [Pipeline.ownSems0_none, show V3 m (outs m dat0 dat1) c = V3 m (outsA m dat0) c from rfl]
    have hub : (unscopedBufs (Ix := Unit) (Name := ℕ) (U := Pipeline.UD sig nD τ) (Lvl := ℕ) c (V3' m dat0 c) : sProp 𝕄)
        = iprop(Pipeline.arrBufs spec1 c (V3' m dat0 c) ∗ Pipeline.unscopedRest spec1 c (V3' m dat0 c)) :=
      Pipeline.unscopedBufs_split₀ cfgs 1 winFacts₀1.arr_unscoped c (V3' m dat0 c)
    rw [Pipeline.unscopedBufs_held] at hub
    have hsplit := arrays1_split c (pdats m dat0 dat1 1 c) (fun w => hq1 _ c w) (V3' m dat0 c) ((pdats m dat0 dat1 1 c).arrAt · 0) (fun w => hA1 _ c w)
    iintro ⟨⟨Hub, Hp, HO⟩, -, -⟩
    ihave H := (Entails.of_eq hub) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m dat0 dat1 1 c).recorded 0 = Set.univ from hrec1 _ c]; trivial)
      rw [show (pdats m dat0 dat1 1 c).owed 0 = 0 from howed1 _ c 0]; iexact HO
    isplitl [Hp]; · iexact Hp
    iexact Hrest
  hin c := by
    refine BIBase.Entails.trans ?_ (hin1 (V3' m dat0) c); unfold Pipeline.ΦA
    iintro ⟨Hp, -, Hr⟩
    isplitl [Hr]; · iexact Hr
    iexact Hp
  hout c := by
    rw [Pipeline.ownSems0_none]
    refine (hout1 (V3' m dat0) c).trans ?_; unfold Pipeline.ΦA
    iintro ⟨Hr, Hp⟩
    isplitl [Hp]; · iexact Hp
    isplitr; · iempintro
    iexact Hr
  hexit c := by
    have hub : (unscopedBufs (Ix := Unit) (Name := ℕ) (U := Pipeline.UD sig nD τ) (Lvl := ℕ) c (fun b => V4 m (outs m dat0 dat1) c b) : sProp 𝕄)
        = iprop(Pipeline.arrBufs spec1 c (fun b => V4 m (outs m dat0 dat1) c b) ∗ Pipeline.unscopedRest spec1 c (fun b => V4 m (outs m dat0 dat1) c b)) :=
      Pipeline.unscopedBufs_split₀ cfgs 1 winFacts₀1.arr_unscoped c _
    rw [Pipeline.unscopedBufs_held] at hub
    have hjoin := arrays1_join c (pdats m dat0 dat1 1 c) (fun w => hq1 _ c w) (fun b => V4 m (outs m dat0 dat1) c b)
      ((pdats m dat0 dat1 1 c).arrAt · cfg1.N) (hF1 m dat0 dat1 hA1 c)
    have hrest : (Pipeline.unscopedRest (Ix := Unit) (Name := ℕ) (U := Pipeline.UD sig nD τ) (Lvl := ℕ) spec1 c (V3' m dat0 c) : sProp 𝕄)
        = Pipeline.unscopedRest spec1 c (fun b => V4 m (outs m dat0 dat1) c b) := by
      unfold Pipeline.unscopedRest
      exact bigSep_congr fun b hb => congrArg (fun v => (((c : Thread nD τ).loc b) ↦{fullShare} v : sProp 𝕄)) (hrest1 m dat0 dat1 c b (Finset.mem_sdiff.mp hb).2).symm
    iintro ⟨Ha, HO, HY, Hrest⟩
    ihave Hb := hjoin $$ Ha
    ihave Hrest' := (Entails.of_eq hrest) $$ Hrest
    imodintro
    isplitl [Hb Hrest']
    · iapply (Entails.of_eq hub.symm); isplitl [Hb] <;> iassumption
    isplitl [HY]; · iexact HY
    unfold Pipeline.Dat.owesAt Pipeline.owesWithin
    icases HO with ⟨%W, -, HO⟩; iexists W
    rw [show (pdats m dat0 dat1 1 c).owed (Fin.last _) = 0 from howed1 _ c _]; iexact HO

/-! ## @main as segments, and the launch -/

/-- @main's four segments: the host stretches over the unscoped buffers from the boundary's contents, `beside` riding
    along; the regions' records. -/
abbrev runSegs (c : Dev nD) : List (Seg (pcfgs (F := F)) adm (pdats m dat0 dat1) () defs₀ noVariants noPairs noLevel) :=
  segs m (outs m dat0 dat1) noVariants noPairs noLevel (fun _ => beside) () (pdats m dat0 dat1)
    (reg0 m dat0 dat1 hA0 hq0 howed0 hrec0 hΦ0 hbody0) (reg1 m dat0 dat1 hA1 hq1 howed1 hrec1 hin1 hout1 hbody1) c

include hA0 hq0 howed0 hrec0 hΦ0 hbody0 hA1 hq1 howed1 hrec1 hin1 hout1 hbody1 in
set_option backward.isDefEq.respectTransparency.types false in
/-- THE RUN, with the result buffer named: from any memory with zero counters, every weakly fair execution of @main on
    the TensorCores terminates, and every final memory holds, on every core, region 1's output array at what its
    write-backs leave — region 1 entered at the contents the two host stretches and region 0 make of the launch
    memory — and every argument array as launched. -/
theorem run_named : θ_run defs (onTc (τ := τ) (main (F := F))) ⟨m, fun _ => 0, ρ⟩ (fun r => ∀ c : Dev nD,
      r.2.mem ((c.tc : Thread nD τ).loc main_v8) = (dat1 (V3' m dat0) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m dat0 dat1) () cellOf_inj embL defs₀ noVariants noPairs noLevel m ρ main
    (runSegs m dat0 dat1 hA0 hq0 howed0 hrec0 hΦ0 hbody0 hA1 hq1 howed1 hrec1 hin1 hout1 hbody1)
    (fun c Q => by
      rewrite [main_chain c, Seg.run_eq_chain,
        show (runSegs m dat0 dat1 hA0 hq0 howed0 hrec0 hΦ0 hbody0 hA1 hq1 howed1 hrec1 hin1 hout1 hbody1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [runSegs, segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V4 m (outs m dat0 dat1) c))
    (hch := fun c => ⟨.rfl, .rfl, .rfl, .rfl, sep_mono .rfl (by iintro ⟨-, H⟩; iexact H)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v8) = (dat1 (V3' m dat0) c).arrAt 3 cfg1.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  -- the end: the result's buffer and each argument's read off the last contents
  unfold StableHlo.held
  iintro ⟨Hh, HSI⟩
  ihave Hr := (pointsTo_read_all (Pipeline.ucRefs τ sig) (fun b => ((c : Thread nD τ).1, b)) (V4 m (outs m dat0 dat1) c) s') $$ [Hh HSI]
  · isplitl [Hh] <;> iassumption
  icases Hr with ⟨%h, HSI⟩
  imodintro
  isplitr
  · ipureintro
    exact ⟨(h (Proc.devRef .tc main_v8) (Finset.mem_filter.mpr ⟨StableHlo.devRef_mem_tcRefs main_v8, by decide⟩)).trans (V4_main_v8 m dat0 dat1 c),
      (h (Proc.devRef .tc main_arg0) (Finset.mem_filter.mpr ⟨StableHlo.devRef_mem_tcRefs main_arg0, by decide⟩)).trans (V4_main_arg0 m _ c),
      (h (Proc.devRef .tc main_arg1) (Finset.mem_filter.mpr ⟨StableHlo.devRef_mem_tcRefs main_arg1, by decide⟩)).trans (V4_main_arg1 m _ c),
      (h (Proc.devRef .tc main_arg2) (Finset.mem_filter.mpr ⟨StableHlo.devRef_mem_tcRefs main_arg2, by decide⟩)).trans (V4_main_arg2 m _ c),
      (h (Proc.devRef .tc main_arg3) (Finset.mem_filter.mpr ⟨StableHlo.devRef_mem_tcRefs main_arg3, by decide⟩)).trans (V4_main_arg3 m _ c)⟩
  · iexact HSI

include hA0 hq0 howed0 hrec0 hΦ0 hbody0 hA1 hq1 howed1 hrec1 hin1 hout1 hbody1 in
/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2)
    (run_named m ρ dat0 dat1 hA0 hq0 howed0 hrec0 hΦ0 hbody0 hA1 hq1 howed1 hrec1 hin1 hout1 hbody1)

end Records

end Cert.KernelIdeal.Hand

end
-- ==== Proof.KI_R1Pieces.lean ====
import proofs.«131958_j46909632807066_2_alg».proof.Proof.KI_R1RunA
import proofs.«131958_j46909632807066_2_alg».proof.Proof.KI_R1RunB
import proofs.«131958_j46909632807066_2_alg».proof.Proof.KI_R1RunC
import proofs.«131958_j46909632807066_2_alg».proof.Proof.KI_R1RunD
import proofs.«131958_j46909632807066_2_alg».proof.Proof.KI_R1RunE
import Idealize.ShloMosaic.Lib.Pipeline.Value

-- membership in a rectangle of production extents: the elaborator's structural look recurses once per
-- coordinate of the long axes
set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # What the body's runs leave in the scratch buffers and in the output block, as values

  Each case's run found, for every buffer it stores into, the list of stored pieces. Every store of this body is a
  whole-buffer store, so a buffer read back after the case holds the LAST piece's payload; and a load of a buffer
  owned whole at `x` reads `x`. Read back this way, with q, k, v the three input blocks, (m, l, acc) the running
  row maximum, denominator and numerator a point finds, qi and ki the point's query- and key-block coordinates:

    one online-softmax update leaves   m' = max m (rowmax s),  l' = e^(m − m') · l + rowsum e^(s − m'),
                                       acc' = e^(m − m') · acc + e^(s − m') · v      (s the masked scaled scores of q, k)
    the finalisation stores            acc / l

  — spelled by the program's own payload functions, so that nothing of the arithmetic is restated here. -/

/-- The zero offsets of a whole-buffer access, of rank 2, 3 and 4. -/
theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## Case B: one update, from what the point before left -/

/-- CASE B: the running maximum after one update from (m, l, acc) = (xs0, xs1, xs2). -/
theorem rowMax_B (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)
      = k1_pay6 (k1_pay10 (BitVec.ofNat 32 (i 1).val) (BitVec.ofNat 32 (i 2).val) x0 x1 xs0) := by
  rw [View.read_writes_eq_canon _ _ _ (View.cover_of_tiledL _ S512x1.size (by sl_kernel_rfl))]
  unfold kernelRun1_B
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE B: the running denominator after one update. -/
theorem denom_B (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)
      = k1_pay4 (k1_pay13 (BitVec.ofNat 32 (i 1).val) (BitVec.ofNat 32 (i 2).val) x0 x1 xs0 xs1) := by
  rw [View.read_writes_eq_canon _ _ _ (View.cover_of_tiledL _ S512x1.size (by sl_kernel_rfl))]
  unfold kernelRun1_B
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE B: the running numerator after one update. -/
theorem numer_B (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)
      = k1_pay5 (k1_pay8 x2) (k1_pay11 (BitVec.ofNat 32 (i 1).val) (BitVec.ofNat 32 (i 2).val) x0 x1 xs0) (k1_pay12 (BitVec.ofNat 32 (i 1).val) (BitVec.ofNat 32 (i 2).val) x0 x1 xs0) xs2 := by
  rw [View.read_writes_eq_canon _ _ _ (View.cover_of_tiledL _ S512x1024.size (by sl_kernel_rfl))]
  unfold kernelRun1_B
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-! ## Case A: initialise, then one update — the update reads the initial values back

  The initial maximum, denominator and numerator are the program's constants `k1_pay1` (the large negative number in
  every row), `k1_pay2` and `k1_pay3` (zeros); each buffer is stored twice, and read back it holds the later store. -/

/-- CASE A: the running maximum after the row's first update. -/
theorem rowMax_A (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) :
    VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)
      = k1_pay6 (k1_pay10 (BitVec.ofNat 32 (i 1).val) (BitVec.ofNat 32 (i 2).val) x0 x1 k1_pay1) := by
  rw [View.read_writes_eq_canon _ _ _ (View.cover_of_tiledL _ S512x1.size (by sl_kernel_rfl))]
  unfold kernelRun1_A
  dsimp only
  sl_unfold_words
  rw [View.canon_cons_unit_zero (S := S512x1) zero2, View.readCov_unit_zero (S := S512x1) arg7.view zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE A: the running denominator after the row's first update. -/
theorem denom_A (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) :
    VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)
      = k1_pay4 (k1_pay13 (BitVec.ofNat 32 (i 1).val) (BitVec.ofNat 32 (i 2).val) x0 x1 k1_pay1 k1_pay2) := by
  rw [View.read_writes_eq_canon _ _ _ (View.cover_of_tiledL _ S512x1.size (by sl_kernel_rfl))]
  unfold kernelRun1_A
  dsimp only
  sl_unfold_words
  rw [View.canon_cons_unit_zero (S := S512x1) zero2, View.readCov_unit_zero (S := S512x1) arg7.view zero2, View.readCov_unit_zero (S := S512x1) arg8.view zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE A: the running numerator after the row's first update. -/
theorem numer_A (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x1x512x1024 .bf16) (x1 : Vec F S1x1x512x1024 .bf16) (x2 : Vec F S1x1x512x1024 .bf16) :
    VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)
      = k1_pay5 (k1_pay8 x2) (k1_pay11 (BitVec.ofNat 32 (i 1).val) (BitVec.ofNat 32 (i 2).val) x0 x1 k1_pay1) (k1_pay12 (BitVec.ofNat 32 (i 1).val) (BitVec.ofNat 32 (i 2).val) x0 x1 k1_pay1) k1_pay3 := by
  rw [View.read_writes_eq_canon _ _ _ (View.cover_of_tiledL _ S512x1024.size (by sl_kernel_rfl))]
  unfold kernelRun1_A
  dsimp only
  sl_unfold_words
  rw [View.canon_cons_unit_zero (S := S512x1024) zero2, View.readCov_unit_zero (S := S512x1) arg7.view zero2, View.readCov_unit_zero (S := S512x1024) arg9.view zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-! ## Case C: one update, then the finalisation reads the updated numerator and denominator back -/

/-- CASE C: the running maximum after the update (as in case B). -/
theorem rowMax_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)
      = k1_pay6 (k1_pay10 (BitVec.ofNat 32 (i 1).val) (BitVec.ofNat 32 (i 2).val) x0 x1 xs0) := by
  rw [View.read_writes_eq_canon _ _ _ (View.cover_of_tiledL _ S512x1.size (by sl_kernel_rfl))]
  unfold kernelRun1_C
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE C: the running denominator after the update (as in case B). -/
theorem denom_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)
      = k1_pay4 (k1_pay13 (BitVec.ofNat 32 (i 1).val) (BitVec.ofNat 32 (i 2).val) x0 x1 xs0 xs1) := by
  rw [View.read_writes_eq_canon _ _ _ (View.cover_of_tiledL _ S512x1.size (by sl_kernel_rfl))]
  unfold kernelRun1_C
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE C: the running numerator after the update (as in case B). -/
theorem numer_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)
      = k1_pay5 (k1_pay8 x2) (k1_pay11 (BitVec.ofNat 32 (i 1).val) (BitVec.ofNat 32 (i 2).val) x0 x1 xs0) (k1_pay12 (BitVec.ofNat 32 (i 1).val) (BitVec.ofNat 32 (i 2).val) x0 x1 xs0) xs2 := by
  rw [View.read_writes_eq_canon _ _ _ (View.cover_of_tiledL _ S512x1024.size (by sl_kernel_rfl))]
  unfold kernelRun1_C
  dsimp only
  sl_unfold_words
  rw [View.canon_unit_zero zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-- CASE C: the stored output block is the UPDATED numerator divided by the UPDATED denominator. -/
theorem block_C (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)
      = k1_pay7 (k1_pay5 (k1_pay8 x2) (k1_pay11 (BitVec.ofNat 32 (i 1).val) (BitVec.ofNat 32 (i 2).val) x0 x1 xs0) (k1_pay12 (BitVec.ofNat 32 (i 1).val) (BitVec.ofNat 32 (i 2).val) x0 x1 xs0) xs2) (k1_pay4 (k1_pay13 (BitVec.ofNat 32 (i 1).val) (BitVec.ofNat 32 (i 2).val) x0 x1 xs0 xs1)) := by
  rw [View.read_writes_eq_canon _ _ _ (View.cover_of_tiledL _ S1x512x1024.size (by sl_kernel_rfl))]
  unfold kernelRun1_C
  dsimp only
  sl_unfold_words
  rw [View.canon_unit_zero zero3, View.readCov_unit_zero (S := S512x1024) arg9.view zero2, View.readCov_unit_zero (S := S512x1) arg8.view zero2]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

/-! ## Case E: the finalisation alone -/

/-- CASE E: the stored output block is the numerator divided by the denominator, as the point found them. -/
theorem block_E (c : Dev nD) (i : grid1.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 : Vec F S1x1x512x1024 .bf16) (x1 : Vec F S1x1x512x1024 .bf16) (x2 : Vec F S1x1x512x1024 .bf16) (xs0 : Vec F S512x1 .f32) (xs1 : Vec F S512x1 .f32) (xs2 : Vec F S512x1024 .f32) :
    VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)
      = k1_pay7 xs2 xs1 := by
  rw [View.read_writes_eq_canon _ _ _ (View.cover_of_tiledL _ S1x512x1024.size (by sl_kernel_rfl))]
  unfold kernelRun1_E
  dsimp only
  sl_unfold_words
  rw [View.canon_unit_zero zero3]
  simp only [View.readAt_eq_ld, harg3.read_unread, harg4.read_unread, harg5.read_unread, harg7.read_unread, harg8.read_unread, harg9.read_unread, View.ld_unit_zero (S := S1x1x512x1024) zero4, View.ld_unit_zero (S := S512x1) zero2, View.ld_unit_zero (S := S512x1024) zero2]

end Cert.KernelIdeal.Hand

end
-- ==== Proof.KI_R1Blocks.lean ====
/- Region 1 (the causal attention call) on the extended reals, its windows read at an index: the printed index maps in
   closed form over the 4 × 4 × 4 grid (point t is batch member t / 16, query block (t / 4) % 4, key block t % 4), the
   query, key and value blocks as rows of the one stacked array, and the output's blocks of rows tiling its array. -/
import proofs.«131958_j46909632807066_2_alg».proof.Proof.KI_R1Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The grid's points by coordinates -/

theorem t1_lt (t : Fin cfg1.N) : t.val < 64 := (show cfg1.N = 64 from N_1) ▸ t.isLt

/-- Point \`t\`'s batch member, query block, key block, and the key/value block it fetches (the causal clamp: never past
    the query block). -/
abbrev bOf (t : Fin cfg1.N) : Fin 4 := ⟨t.val / 16, by have := t1_lt t; omega⟩
abbrev qiOf (t : Fin cfg1.N) : Fin 4 := ⟨(t.val / 4) % 4, by omega⟩
abbrev kiOf (t : Fin cfg1.N) : Fin 4 := ⟨t.val % 4, by omega⟩
abbrev kvOf (t : Fin cfg1.N) : Fin 4 := ⟨min (t.val % 4) ((t.val / 4) % 4), by omega⟩
/-- Row \`r\` of block \`blk\` of 512 rows. -/
abbrev rowIn (blk : Fin 4) (r : Fin 512) : Fin 2048 := ⟨blk.val * 512 + r.val, by omega⟩

/-! ## The printed index maps, decided over the grid -/

theorem idx1_0 : ∀ t : Fin cfg1.N, win1_0.index t (0 : Fin 4) = 0 ∧ win1_0.index t (1 : Fin 4) = t.val / 16
    ∧ win1_0.index t (2 : Fin 4) = (t.val / 4) % 4 ∧ win1_0.index t (3 : Fin 4) = 0 :=
  (by decide +kernel : ∀ t : Fin grid1.N, _)
theorem idx1_1 : ∀ t : Fin cfg1.N, win1_1.index t (0 : Fin 4) = 1 ∧ win1_1.index t (1 : Fin 4) = t.val / 16
    ∧ win1_1.index t (2 : Fin 4) = min (t.val % 4) ((t.val / 4) % 4) ∧ win1_1.index t (3 : Fin 4) = 0 :=
  (by decide +kernel : ∀ t : Fin grid1.N, _)
theorem idx1_2 : ∀ t : Fin cfg1.N, win1_2.index t (0 : Fin 4) = 2 ∧ win1_2.index t (1 : Fin 4) = t.val / 16
    ∧ win1_2.index t (2 : Fin 4) = min (t.val % 4) ((t.val / 4) % 4) ∧ win1_2.index t (3 : Fin 4) = 0 :=
  (by decide +kernel : ∀ t : Fin grid1.N, _)
theorem idx1_3 : ∀ t : Fin cfg1.N, win1_3.index t (0 : Fin 3) = t.val / 16 ∧ win1_3.index t (1 : Fin 3) = (t.val / 4) % 4
    ∧ win1_3.index t (2 : Fin 3) = 0 :=
  (by decide +kernel : ∀ t : Fin grid1.N, _)
/-- The four windows' index maps together. -/
theorem idx_facts1 (t : Fin cfg1.N) :
    (win1_0.index t (0 : Fin 4) = 0 ∧ win1_0.index t (1 : Fin 4) = t.val / 16 ∧ win1_0.index t (2 : Fin 4) = (t.val / 4) % 4 ∧ win1_0.index t (3 : Fin 4) = 0)
    ∧ (win1_1.index t (0 : Fin 4) = 1 ∧ win1_1.index t (1 : Fin 4) = t.val / 16 ∧ win1_1.index t (2 : Fin 4) = min (t.val % 4) ((t.val / 4) % 4) ∧ win1_1.index t (3 : Fin 4) = 0)
    ∧ (win1_2.index t (0 : Fin 4) = 2 ∧ win1_2.index t (1 : Fin 4) = t.val / 16 ∧ win1_2.index t (2 : Fin 4) = min (t.val % 4) ((t.val / 4) % 4) ∧ win1_2.index t (3 : Fin 4) = 0)
    ∧ (win1_3.index t (0 : Fin 3) = t.val / 16 ∧ win1_3.index t (1 : Fin 3) = (t.val / 4) % 4 ∧ win1_3.index t (2 : Fin 3) = 0) :=
  ⟨idx1_0 t, idx1_1 t, idx1_2 t, idx1_3 t⟩

section Blocks
-- the TensorCore's buffer contents when the region is entered
variable (V : (c : Dev nD) → (b : Ref sig .tc) → Buf (Elt Ideal) ((c : Thread nD τ).loc b))

/-- The stacked q/k/v array as the region finds it, as a function of an index. -/
abbrev qkvIn (c : Dev nD) : S3x4x2048x1024.Idx → EReal := V c main_v7

/-! ## The query, key and value blocks as rows of the stacked array -/

/-- The query block at point \`t\`: plane 0, batch member \`t / 16\`, rows of query block \`(t / 4) % 4\`. -/
theorem iblk1_0_apply (c : Dev nD) (t : Fin cfg1.N) (x : S1x1x512x1024.Idx) (k : S3x4x2048x1024.Idx)
    (hk0 : (k 0).val = 0) (hk1 : (k 1).val = t.val / 16) (hk2 : (k 2).val = (t.val / 4) % 4 * 512 + (x 2).val) (hk3 : (k 3).val = (x 3).val) :
    (iblk1 V c 0 t : Vec Ideal S1x1x512x1024 .bf16) x = qkvIn V c k := by
  obtain ⟨e0, e1, e2, e3⟩ := idx1_0 t
  have h0 : (x 0).val < 1 := (x 0).isLt
  have h1 : (x 1).val < 1 := (x 1).isLt
  unfold iblk1
  rw [View.read_apply]
  show V c main_v7 _ = V c main_v7 _
  refine congrArg (V c main_v7) ?_
  funext a
  apply Fin.ext
  match a with
  | ⟨0, _⟩ => show win1_0.index t 0 * 1 + 1 * (x 0).val = (k 0).val; rw [e0, hk0]; omega
  | ⟨1, _⟩ => show win1_0.index t 1 * 1 + 1 * (x 1).val = (k 1).val; rw [e1, hk1]; omega
  | ⟨2, _⟩ => show win1_0.index t 2 * 512 + 1 * (x 2).val = (k 2).val; rw [e2, hk2]; omega
  | ⟨3, _⟩ => show win1_0.index t 3 * 1024 + 1 * (x 3).val = (k 3).val; rw [e3, hk3]; omega

/-- The key block at point \`t\`: plane 1, batch member \`t / 16\`, rows of block \`min (t % 4) ((t / 4) % 4)\`. -/
theorem iblk1_1_apply (c : Dev nD) (t : Fin cfg1.N) (x : S1x1x512x1024.Idx) (k : S3x4x2048x1024.Idx)
    (hk0 : (k 0).val = 1) (hk1 : (k 1).val = t.val / 16) (hk2 : (k 2).val = min (t.val % 4) ((t.val / 4) % 4) * 512 + (x 2).val) (hk3 : (k 3).val = (x 3).val) :
    (iblk1 V c 1 t : Vec Ideal S1x1x512x1024 .bf16) x = qkvIn V c k := by
  obtain ⟨e0, e1, e2, e3⟩ := idx1_1 t
  have h0 : (x 0).val < 1 := (x 0).isLt
  have h1 : (x 1).val < 1 := (x 1).isLt
  unfold iblk1
  rw [View.read_apply]
  show V c main_v7 _ = V c main_v7 _
  refine congrArg (V c main_v7) ?_
  funext a
  apply Fin.ext
  match a with
  | ⟨0, _⟩ => show win1_1.index t 0 * 1 + 1 * (x 0).val = (k 0).val; rw [e0, hk0]; omega
  | ⟨1, _⟩ => show win1_1.index t 1 * 1 + 1 * (x 1).val = (k 1).val; rw [e1, hk1]; omega
  | ⟨2, _⟩ => show win1_1.index t 2 * 512 + 1 * (x 2).val = (k 2).val; rw [e2, hk2]; omega
  | ⟨3, _⟩ => show win1_1.index t 3 * 1024 + 1 * (x 3).val = (k 3).val; rw [e3, hk3]; omega

/-- The value block at point \`t\`: plane 2, batch member \`t / 16\`, rows of block \`min (t % 4) ((t / 4) % 4)\`. -/
theorem iblk1_2_apply (c : Dev nD) (t : Fin cfg1.N) (x : S1x1x512x1024.Idx) (k : S3x4x2048x1024.Idx)
    (hk0 : (k 0).val = 2) (hk1 : (k 1).val = t.val / 16) (hk2 : (k 2).val = min (t.val % 4) ((t.val / 4) % 4) * 512 + (x 2).val) (hk3 : (k 3).val = (x 3).val) :
    (iblk1 V c 2 t : Vec Ideal S1x1x512x1024 .bf16) x = qkvIn V c k := by
  obtain ⟨e0, e1, e2, e3⟩ := idx1_2 t
  have h0 : (x 0).val < 1 := (x 0).isLt
  have h1 : (x 1).val < 1 := (x 1).isLt
  unfold iblk1
  rw [View.read_apply]
  show V c main_v7 _ = V c main_v7 _
  refine congrArg (V c main_v7) ?_
  funext a
  apply Fin.ext
  match a with
  | ⟨0, _⟩ => show win1_2.index t 0 * 1 + 1 * (x 0).val = (k 0).val; rw [e0, hk0]; omega
  | ⟨1, _⟩ => show win1_2.index t 1 * 1 + 1 * (x 1).val = (k 1).val; rw [e1, hk1]; omega
  | ⟨2, _⟩ => show win1_2.index t 2 * 512 + 1 * (x 2).val = (k 2).val; rw [e2, hk2]; omega
  | ⟨3, _⟩ => show win1_2.index t 3 * 1024 + 1 * (x 3).val = (k 3).val; rw [e3, hk3]; omega

/-- The same three with explicit coordinates. -/
theorem iblk1_0_ix (c : Dev nD) (t : Fin cfg1.N) (r : Fin 512) (d : Fin 1024) :
    (iblk1 V c 0 t : Vec Ideal S1x1x512x1024 .bf16) (ix4 (0 : Fin 1) (0 : Fin 1) r d)
      = qkvIn V c (ix4 (0 : Fin 3) (bOf t) (rowIn (qiOf t) r) d) :=
  iblk1_0_apply V c t _ _ rfl rfl rfl rfl
theorem iblk1_1_ix (c : Dev nD) (t : Fin cfg1.N) (r : Fin 512) (d : Fin 1024) :
    (iblk1 V c 1 t : Vec Ideal S1x1x512x1024 .bf16) (ix4 (0 : Fin 1) (0 : Fin 1) r d)
      = qkvIn V c (ix4 (1 : Fin 3) (bOf t) (rowIn (kvOf t) r) d) :=
  iblk1_1_apply V c t _ _ rfl rfl rfl rfl
theorem iblk1_2_ix (c : Dev nD) (t : Fin cfg1.N) (r : Fin 512) (e : Fin 1024) :
    (iblk1 V c 2 t : Vec Ideal S1x1x512x1024 .bf16) (ix4 (0 : Fin 1) (0 : Fin 1) r e)
      = qkvIn V c (ix4 (2 : Fin 3) (bOf t) (rowIn (kvOf t) r) e) :=
  iblk1_2_apply V c t _ _ rfl rfl rfl rfl

/-! ## The output's blocks tile its array -/

/-- An index of the output array is in point \`t\`'s block iff each coordinate is in the block's range on its axis. -/
theorem mem_blk1_3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v8).slice (win1_3.rect t)).set ↔ _
  rw [View.set_slice_whole, Rect.mem_set_unit]
  exact Iff.rfl

/-- The point that writes back the block holding row \`q\` of batch member \`b\`: the last key block's point of that
    member's query block \`q / 512\`. -/
abbrev flushPt (b : Fin 4) (q : Fin 2048) : Fin cfg1.N := ⟨b.val * 16 + q.val / 512 * 4 + 3, by rw [show cfg1.N = 64 from N_1]; omega⟩

/-- Every index of the output array lies in the block of a point that writes back. -/
theorem cover1_3 (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  refine ⟨flushPt ⟨(i 0).val, h0⟩ ⟨(i 1).val, h1⟩, (flush1_3 _).mpr (by show ((i 0).val * 16 + (i 1).val / 512 * 4 + 3) % 4 = 3; omega), ?_⟩
  obtain ⟨e0, e1, e2⟩ := idx1_3 (flushPt ⟨(i 0).val, h0⟩ ⟨(i 1).val, h1⟩)
  rw [mem_blk1_3]
  intro a
  match a with
  | ⟨0, _⟩ =>
    show win1_3.index _ 0 * 1 ≤ (i 0).val ∧ (i 0).val < win1_3.index _ 0 * 1 + 1
    rw [e0]; show ((i 0).val * 16 + (i 1).val / 512 * 4 + 3) / 16 * 1 ≤ (i 0).val ∧ (i 0).val < ((i 0).val * 16 + (i 1).val / 512 * 4 + 3) / 16 * 1 + 1; omega
  | ⟨1, _⟩ =>
    show win1_3.index _ 1 * 512 ≤ (i 1).val ∧ (i 1).val < win1_3.index _ 1 * 512 + 512
    rw [e1]; show ((i 0).val * 16 + (i 1).val / 512 * 4 + 3) / 4 % 4 * 512 ≤ (i 1).val ∧ (i 1).val < ((i 0).val * 16 + (i 1).val / 512 * 4 + 3) / 4 % 4 * 512 + 512; omega
  | ⟨2, _⟩ =>
    show win1_3.index _ 2 * 1024 ≤ (i 2).val ∧ (i 2).val < win1_3.index _ 2 * 1024 + 1024
    rw [e2]; omega

end Blocks

end Cert.KernelIdeal.Hand

end
-- ==== Proof.KI_R1Array.lean ====
/- From the attention call's output blocks to its output array: if at every point that writes back (key block 3) the
   body leaves the output's buffer at the block of one function \`Gout\` of the array's index, the output array ends
   holding \`Gout\` — the blocks written back tile the array, and at the other points nothing is written back. Stated for
   any proof data of the pipeline, then for the region's own. -/
import proofs.«131958_j46909632807066_2_alg».proof.Proof.KI_R1Blocks
import proofs.«131958_j46909632807066_2_alg».proof.Proof.KI_R1Dat

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## From the output's blocks to its array -/

/-- The output block of point \`t\` read at \`(0, r, e)\`: batch member \`t / 16\`, row \`r\` of query block \`(t / 4) % 4\`. -/
theorem blk1_3_read_ix (t : Fin cfg1.N) (Gout : S4x2048x1024.Idx → EReal) (r : Fin 512) (e : Fin 1024) :
    (((cfg1.win 3).blk t).view.read (Elt Ideal) Gout : Vec Ideal S1x512x1024 .f32) (ix3 (0 : Fin 1) r e)
      = Gout (ix3 (bOf t) (rowIn (qiOf t) r) e) := by
  obtain ⟨e0, e1, e2⟩ := idx1_3 t
  rw [View.read_apply]
  show Gout _ = Gout _
  refine congrArg Gout ?_
  funext a
  apply Fin.ext
  match a with
  | ⟨0, _⟩ => show win1_3.index t 0 * 1 + 1 * 0 = t.val / 16; rw [e0]; omega
  | ⟨1, _⟩ => show win1_3.index t 1 * 512 + 1 * r.val = (t.val / 4) % 4 * 512 + r.val; rw [e1]; omega
  | ⟨2, _⟩ => show win1_3.index t 2 * 1024 + 1 * e.val = e.val; rw [e2]; omega

/-- For ANY proof data of the attention pipeline: if at every point that writes back the body leaves the output's buffer
    at the block of \`Gout\`, the output array ends holding \`Gout\` (the blocks written back tile it; at the other points
    nothing is written back). -/
theorem arrAt1_3_of_blocks {c : Dev nD} (dat : Dat τ (Elt Ideal) Unit ℕ (Pipeline.UD sig nD τ) ℕ cfg1 c) (Gout : S4x2048x1024.Idx → EReal)
    (h : ∀ t : Fin cfg1.N, (cfg1.win 3).flush t = true → dat.after 3 t = ((cfg1.win 3).blk t).view.read (Elt Ideal) Gout) :
    dat.arrAt 3 cfg1.N = Gout :=
  dat.arrAt_eq_of_cover 3 Gout (fun t hf => by
    show (cfg1.win 3).cut (grid1.coords t) (dat.after 3 t) = _
    rw [h t hf]) cover1_3

/-- The same with the per-point fact read at explicit coordinates: at every point with key block 3, entry \`(0, r, e)\` of
    the output's buffer after the body is \`Gout\` at batch member \`t / 16\`, row \`r\` of query block \`(t / 4) % 4\`. -/
theorem arrAt1_3_of_points {c : Dev nD} (dat : Dat τ (Elt Ideal) Unit ℕ (Pipeline.UD sig nD τ) ℕ cfg1 c) (Gout : S4x2048x1024.Idx → EReal)
    (h : ∀ t : Fin cfg1.N, t.val % 4 = 3 → ∀ (r : Fin 512) (e : Fin 1024),
      (dat.after 3 t : Vec Ideal S1x512x1024 .f32) (ix3 (0 : Fin 1) r e) = Gout (ix3 (bOf t) (rowIn (qiOf t) r) e)) :
    dat.arrAt 3 cfg1.N = Gout :=
  arrAt1_3_of_blocks dat Gout fun t hf => by
    funext j
    obtain ⟨u, r, e, rfl⟩ : ∃ (u : Fin 1) (r : Fin 512) (e : Fin 1024), j = ix3 u r e := ⟨j 0, j 1, j 2, eq_ix3 j⟩
    obtain rfl : u = 0 := Fin.ext (by omega)
    exact (h t ((flush1_3 t).mp hf) r e).trans (blk1_3_read_ix t Gout r e).symm

/-! ## The region's own proof data -/

section Region1
-- the TensorCore's buffer contents when the region is entered
variable (V : (c : Dev nD) → (b : Ref sig .tc) → Buf (Elt Ideal) ((c : Thread nD τ).loc b))

/-- THE OUTPUT ARRAY of region 1: if at every point with key block 3 the output's buffer after the body — the first
    component of what the point leaves — is \`Gout\` at batch member \`t / 16\`, row \`r\` of query block \`(t / 4) % 4\`, the array
    ends holding \`Gout\`. -/
theorem region1_array (c : Dev nD) (Gout : S4x2048x1024.Idx → EReal)
    (hpt : ∀ t : Fin cfg1.N, t.val % 4 = 3 → ∀ (r : Fin 512) (e : Fin 1024),
      ((outsAt1 (F := Ideal) V c t.val t.isLt).1 : S1x512x1024.Idx → EReal) (ix3 (0 : Fin 1) r e)
        = Gout (ix3 (bOf t) (rowIn (qiOf t) r) e)) :
    (dat1 (F := Ideal) V c).arrAt 3 cfg1.N = Gout :=
  arrAt1_3_of_points (dat1 V c) Gout fun t ht r e => by
    rw [after1_3]
    exact hpt t ht r e

end Region1

end Cert.KernelIdeal.Hand

end
-- ==== Proof.KI_PayValue.lean ====
/-
  The attention kernel's stored values, each read at ONE index, over the extended reals (every float an
  extended real, every operation exact, a change of float format the identity): the initial running maximum is -∞
  and the initial sums are 0; a block of scores is the scaled product of a query row with a key row, or -∞ where
  the key comes after the query; the running maximum, the rescaling factor, the weights, the running denominator and
  the running numerator are the online-softmax step's; the result is the numerator divided by the denominator.
  Only pure terms are read here: no memory, no program.
-/
import proofs.«131958_j46909632807066_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## Layout operations of a column (a `[a, 1]` array) read at an index -/

section Column
variable {α : Type}

/-- A column `[a, 1]` broadcast along the lanes to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Column

/-! ## The constants -/

/-- The mask value is the name the certificate's table gives -∞. -/
theorem neg_big_eq : Named.named (F := Ideal) Cert.KernelIdeal.κ "neg_big" (φ := .f32) 0xF149F2CA#32 = (⊥ : EReal) :=
  IdealRules.named_const.ideal_named_scalar _ _ _ _ rfl

/-- The score scale: the float word of 1/32, kept as its word. -/
def sc : EReal := Ideal.ofBits .f32 0x3D000000#32

/-! ## The initial values and the pass-through stores -/

/-- The running maximum starts at -∞. -/
theorem pay1_apply (r : Fin 512) : k1_pay1 (F := Ideal) (ix2 r (0 : Fin 1)) = (⊥ : EReal) := by
  unfold k1_pay1
  simp only [shapeCast_self, broadcast_apply]
  exact neg_big_eq

/-- The running denominator starts at 0. -/
theorem pay2_apply (r : Fin 512) : k1_pay2 (F := Ideal) (ix2 r (0 : Fin 1)) = (0 : EReal) := by
  unfold k1_pay2
  simp only [shapeCast_self, broadcast_apply]
  exact Ideal.ofBits_zero_f32

/-- The running numerator starts at 0. -/
theorem pay3_apply (r : Fin 512) (e : Fin 1024) : k1_pay3 (F := Ideal) (ix2 r e) = (0 : EReal) := by
  unfold k1_pay3
  simp only [shapeCast_self, broadcast_apply]
  exact Ideal.ofBits_zero_f32

/-- The new denominator is stored as it is. -/
theorem pay4_apply (x : FVec Ideal S512x1 .f32) (r : Fin 512) :
    k1_pay4 (F := Ideal) x (ix2 r (0 : Fin 1)) = x (ix2 r (0 : Fin 1)) := by
  unfold k1_pay4
  simp only [shapeCast_self]

/-- The new maximum is stored as it is. -/
theorem pay6_apply (x : FVec Ideal S512x1 .f32) (r : Fin 512) :
    k1_pay6 (F := Ideal) x (ix2 r (0 : Fin 1)) = x (ix2 r (0 : Fin 1)) := by
  unfold k1_pay6
  simp only [shapeCast_self]

/-- The value block as a matrix. -/
theorem pay8_apply (v13 : Vec Ideal S1x1x512x1024 .bf16) (c : Fin 512) (e : Fin 1024) :
    k1_pay8 (F := Ideal) v13 (ix2 c e) = v13 (ix4 (0 : Fin 1) (0 : Fin 1) c e) := by
  unfold k1_pay8
  exact shapeCast_11ab_ab_apply _ _ c e

/-- The result: the numerator divided by the row's denominator. -/
theorem pay7_apply (v9 : Vec Ideal S512x1024 .f32) (v10 : Vec Ideal S512x1 .f32) (r : Fin 512) (e : Fin 1024) :
    k1_pay7 (F := Ideal) v9 v10 (ix3 (0 : Fin 1) r e) = Ideal.div (v9 (ix2 r e)) (v10 (ix2 r (0 : Fin 1))) := by
  unfold k1_pay7
  refine (shapeCast_ab_1ab_apply _ _ (0 : Fin 1) r e).trans ?_
  refine (divf_apply _ _ _).trans ?_
  exact congrArg (Ideal.div (v9 (ix2 r e))) (broadcastTo_a1_ab_apply _ _ r e)

/-! ## The two matrix products read at an index

Each is the sum, over the one contracted axis, of the left operand's row entry times the right operand's column entry:
the contraction index is its one coordinate, and the operands' indices at an output index `(r, c)` and a contraction
coordinate `k` are `(r, k)` and `(k, c)`. -/

section Matmul
variable {φ₁ φ₂ : FTy}

/-- The score product's left index at `(i, q)` keeps the output row. -/
theorem qk_lhs0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- The score product's right index at `(i, q)` keeps the output column. -/
theorem qk_rhs1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The `[512, 1024] × [1024, 512]` product into a zero accumulator, at `(r, c)`. -/
theorem matmul_qk_apply (lhs : FVec Ideal S512x1024 φ₁) (rhs : FVec Ideal S1024x512 φ₂) (r c : Fin 512) :
    matmul dot_S512x1024_S1024x512_S512x512_1_0_0_1_n_n none lhs rhs (constant (F := Ideal) S512x512 .f32 0x00000000#32) (ix2 r c)
      = ∑ d : Fin 1024, lhs (ix2 r d) * rhs (ix2 d c) := by
  simp only [matmul]
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c)
      ((contrEquiv1 dot_S512x1024_S1024x512_S512x512_1_0_0_1_n_n 1024 rfl rfl).symm k) = ix2 r k :=
    funext fun a => Fin.ext (by
      match a with
      | ⟨0, _⟩ => exact qk_lhs0 _ _
      | ⟨1, _⟩ => exact (dot_S512x1024_S1024x512_S512x512_1_0_0_1_n_n.lhsIdx_val_of_single rfl _ _).trans hk)
  have er : dot_S512x1024_S1024x512_S512x512_1_0_0_1_n_n.rhsIdx (ix2 r c)
      ((contrEquiv1 dot_S512x1024_S1024x512_S512x512_1_0_0_1_n_n 1024 rfl rfl).symm k) = ix2 k c :=
    funext fun a => Fin.ext (by
      match a with
      | ⟨0, _⟩ => exact (dot_S512x1024_S1024x512_S512x512_1_0_0_1_n_n.rhsIdx_val_of_single rfl _ _).trans hk
      | ⟨1, _⟩ => exact qk_rhs1 _ _)
  rw [el, er]

/-- The weighted-value product's left index at `(i, q)` keeps the output row. -/
theorem pv_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
/-- The weighted-value product's right index at `(i, q)` keeps the output column. -/
theorem pv_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The `[512, 512] × [512, 1024]` product into a zero accumulator, at `(r, e)`. -/
theorem matmul_pv_apply (lhs : FVec Ideal S512x512 φ₁) (rhs : FVec Ideal S512x1024 φ₂) (r : Fin 512) (e : Fin 1024) :
    matmul dot_S512x512_S512x1024_S512x1024_1_0_0_1_n_n none lhs rhs (constant (F := Ideal) S512x1024 .f32 0x00000000#32) (ix2 r e)
      = ∑ c : Fin 512, lhs (ix2 r c) * rhs (ix2 c e) := by
  simp only [matmul]
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r e)
      ((contrEquiv1 dot_S512x512_S512x1024_S512x1024_1_0_0_1_n_n 512 rfl rfl).symm k) = ix2 r k :=
    funext fun a => Fin.ext (by
      match a with
      | ⟨0, _⟩ => exact pv_lhs0 _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 r e)
      ((contrEquiv1 dot_S512x512_S512x1024_S512x1024_1_0_0_1_n_n 512 rfl rfl).symm k) = ix2 k e :=
    funext fun a => Fin.ext (by
      match a with
      | ⟨0, _⟩ => exact (dot_S512x512_S512x1024_S512x1024_1_0_0_1_n_n.rhsIdx_val_of_single rfl _ _).trans hk
      | ⟨1, _⟩ => exact pv_rhs1 _ _)
  rw [el, er]

end Matmul

/-- The new numerator: the old one rescaled by the row's factor, plus the weights times the value block. -/
theorem pay5_apply (v14 : FVec Ideal S512x1024 .bf16) (v35 : FVec Ideal S512x1 .f32) (v38 : FVec Ideal S512x512 .f32)
    (v47 : Vec Ideal S512x1024 .f32) (r : Fin 512) (e : Fin 1024) :
    k1_pay5 (F := Ideal) v14 v35 v38 v47 (ix2 r e)
      = v35 (ix2 r (0 : Fin 1)) * v47 (ix2 r e) + ∑ c : Fin 512, v38 (ix2 r c) * v14 (ix2 c e) := by
  unfold k1_pay5
  simp only [shapeCast_self]
  refine (addf_apply _ _ _).trans ?_
  refine congrArg₂ (· + ·) ?_ ?_
  · refine (mulf_apply _ _ _).trans ?_
    exact congrArg (· * v47 (ix2 r e)) (broadcastTo_a1_ab_apply _ _ r e)
  · exact matmul_pv_apply _ _ r e

/-! ## The causal mask as a condition on naturals -/

/-- A natural below `2^31`, as a 32-bit word, reads back as itself when the word is read signed. -/
theorem toInt_ofNat_small (n : ℕ) (h : n < 2147483648) : (BitVec.ofNat 32 n).toInt = (n : ℤ) := by
  have hm : n % 2 ^ 32 = n := Nat.mod_eq_of_lt (by omega)
  rw [BitVec.toInt_eq_toNat_of_lt (by rw [BitVec.toNat_ofNat, hm]; omega), BitVec.toNat_ofNat, hm]

/-- The mask's comparison: block `qi`'s row `r` (global position `qi·512 + r`) against block `ki`'s column `c`
    (global position `ki·512 + c`), as signed 32-bit words, is the comparison of the positions — they are far below
    `2^31`, so no product or sum wraps. -/
theorem mask_word (qi ki : ℕ) (hqi : qi < 4) (hki : ki < 4) (r c : Fin 512) :
    IntOp.cmpi .sge (IntOp.addi (Scalar.muli (BitVec.ofNat 32 qi) 512#32) (BitVec.ofNat 32 r.val))
        (IntOp.addi (Scalar.muli (BitVec.ofNat 32 ki) 512#32) (BitVec.ofNat 32 c.val))
      = if ki * 512 + c.val ≤ qi * 512 + r.val then 1#1 else 0#1 := by
  have hr := r.isLt
  have hc := c.isLt
  have hq : IntOp.addi (Scalar.muli (BitVec.ofNat 32 qi) 512#32) (BitVec.ofNat 32 r.val)
      = BitVec.ofNat 32 (qi * 512 + r.val) := by
    show BitVec.ofNat 32 qi * BitVec.ofNat 32 512 + BitVec.ofNat 32 r.val = _
    rw [BitVec.ofNat_add, BitVec.ofNat_mul]
  have hk : IntOp.addi (Scalar.muli (BitVec.ofNat 32 ki) 512#32) (BitVec.ofNat 32 c.val)
      = BitVec.ofNat 32 (ki * 512 + c.val) := by
    show BitVec.ofNat 32 ki * BitVec.ofNat 32 512 + BitVec.ofNat 32 c.val = _
    rw [BitVec.ofNat_add, BitVec.ofNat_mul]
  rw [hq, hk]
  show BitVec.ofBool ((BitVec.ofNat 32 (ki * 512 + c.val)).sle (BitVec.ofNat 32 (qi * 512 + r.val))) = _
  rw [BitVec.sle_eq_decide, toInt_ofNat_small _ (by omega), toInt_ofNat_small _ (by omega)]
  by_cases h : ki * 512 + c.val ≤ qi * 512 + r.val
  · rw [if_pos h, decide_eq_true (by exact_mod_cast h)]; rfl
  · rw [if_neg h, decide_eq_false (by exact_mod_cast h)]; rfl

/-! ## A block of scores -/

/-- The score of query row `r` of block `qi` against key row `c` of block `ki`: the two rows' product, scaled, where
    the key's position is not after the query's; -∞ where it is. -/
theorem pay9_apply (qi ki : ℕ) (hqi : qi < 4) (hki : ki < 4) (v9 v11 : Vec Ideal S1x1x512x1024 .bf16) (r c : Fin 512) :
    k1_pay9 (F := Ideal) (BitVec.ofNat 32 qi) (BitVec.ofNat 32 ki) v9 v11 (ix2 r c)
      = if ki * 512 + c.val ≤ qi * 512 + r.val then
          (∑ d : Fin 1024, v9 (ix4 (0 : Fin 1) (0 : Fin 1) r d) * v11 (ix4 (0 : Fin 1) (0 : Fin 1) c d)) * sc
        else (⊥ : EReal) := by
  unfold k1_pay9
  refine (select_apply _ _ _ _).trans ?_
  have hbit : cmpi .sge
      (addi (broadcast S512x512 (Scalar.muli (BitVec.ofNat 32 qi) 512#32)) (iota .tc S512x512 32 [0] iota_S512x512_d0_w32))
      (addi (broadcast S512x512 (Scalar.muli (BitVec.ofNat 32 ki) 512#32)) (iota .tc S512x512 32 [1] iota_S512x512_d1_w32))
      (ix2 r c) = if ki * 512 + c.val ≤ qi * 512 + r.val then 1#1 else 0#1 := by
    show IntOp.cmpi .sge
      (IntOp.addi (Scalar.muli (BitVec.ofNat 32 qi) 512#32) (iota .tc S512x512 32 [0] iota_S512x512_d0_w32 (ix2 r c)))
      (IntOp.addi (Scalar.muli (BitVec.ofNat 32 ki) 512#32) (iota .tc S512x512 32 [1] iota_S512x512_d1_w32 (ix2 r c))) = _
    rw [iota_single_apply, iota_single_apply]
    exact mask_word qi ki hqi hki r c
  rw [hbit]
  by_cases h : ki * 512 + c.val ≤ qi * 512 + r.val
  · rw [if_pos h, if_pos h, select_one]
    refine (mulf_apply _ _ _).trans ?_
    refine congrArg₂ (· * ·) ?_ rfl
    refine (matmul_qk_apply _ _ r c).trans ?_
    refine Finset.sum_congr rfl fun d _ => ?_
    refine congrArg₂ (· * ·) (shapeCast_11ab_ab_apply _ _ r d) ?_
    refine (transpose_ix2_apply _ _ d c).trans ?_
    exact shapeCast_11ab_ab_apply _ _ c d
  · rw [if_neg h, if_neg h, select_zero]
    exact neg_big_eq

/-! ## The online-softmax step, row by row -/

/-- The lane reduction's inserted index: row `r` with lane `c` put back is `(r, c)`. -/
theorem lift_row (h : S512x512.Reduces [1] S512) (r c : Fin 512) : h.lift (ix1 r) c = ix2 r c := by
  funext a
  match a with
  | ⟨0, _⟩ => exact Fin.ext rfl
  | ⟨1, _⟩ => exact Fin.ext rfl

/-- The float word the lane maximum starts from is -∞. -/
theorem ofBits_neg_inf_f32 : Ideal.ofBits .f32 0xFF800000#32 = (⊥ : EReal) := by simp [Ideal.ofBits, Ideal.ieee]

/-- The new running maximum of row `r`: the old one against the largest score of the row in this block (a fold of
    `max` from -∞ is the supremum). -/
theorem pay10_apply (a1 a2 : BitVec 32) (v9 v11 : Vec Ideal S1x1x512x1024 .bf16) (v30 : Vec Ideal S512x1 .f32) (r : Fin 512) :
    k1_pay10 (F := Ideal) a1 a2 v9 v11 v30 (ix2 r (0 : Fin 1))
      = max (v30 (ix2 r (0 : Fin 1))) (Finset.univ.sup fun c : Fin 512 => k1_pay9 (F := Ideal) a1 a2 v9 v11 (ix2 r c)) := by
  unfold k1_pay10
  refine (maximumf_apply _ _ _).trans ?_
  refine congrArg (max (v30 (ix2 r (0 : Fin 1)))) ?_
  refine (shapeCast_a_a1_apply _ _ r (0 : Fin 1)).trans ?_
  refine (Ideal.multiReduction_maximumf_single (k1_pay9 (F := Ideal) a1 a2 v9 v11) 0xFF800000#32 reduces_S512x512_S512
    (.inl rfl) rfl (ix1 r)).trans ?_
  show (Finset.univ : Finset (Fin 512)).fold max (Ideal.ofBits .f32 0xFF800000#32)
      (k1_pay9 (F := Ideal) a1 a2 v9 v11 ∘ reduces_S512x512_S512.lift (ix1 r)) = _
  rw [ofBits_neg_inf_f32]
  have hf : (k1_pay9 (F := Ideal) a1 a2 v9 v11 ∘ reduces_S512x512_S512.lift (ix1 r))
      = fun c : Fin 512 => k1_pay9 (F := Ideal) a1 a2 v9 v11 (ix2 r c) :=
    funext fun c => congrArg (k1_pay9 (F := Ideal) a1 a2 v9 v11) (lift_row _ r c)
  rw [hf]
  rfl

/-- The rescaling factor of row `r`: the exponential of the old maximum less the new one. -/
theorem pay11_apply (a1 a2 : BitVec 32) (v9 v11 : Vec Ideal S1x1x512x1024 .bf16) (v30 : Vec Ideal S512x1 .f32) (r : Fin 512) :
    k1_pay11 (F := Ideal) a1 a2 v9 v11 v30 (ix2 r (0 : Fin 1))
      = Ideal.exp (v30 (ix2 r (0 : Fin 1)) - k1_pay10 (F := Ideal) a1 a2 v9 v11 v30 (ix2 r (0 : Fin 1))) := by
  unfold k1_pay11
  rfl

/-- The weight of key `c` for row `r`: the exponential of its score less the row's new maximum. -/
theorem pay12_apply (a1 a2 : BitVec 32) (v9 v11 : Vec Ideal S1x1x512x1024 .bf16) (v30 : Vec Ideal S512x1 .f32) (r c : Fin 512) :
    k1_pay12 (F := Ideal) a1 a2 v9 v11 v30 (ix2 r c)
      = Ideal.exp (k1_pay9 (F := Ideal) a1 a2 v9 v11 (ix2 r c) - k1_pay10 (F := Ideal) a1 a2 v9 v11 v30 (ix2 r (0 : Fin 1))) := by
  unfold k1_pay12
  show Ideal.exp (k1_pay9 (F := Ideal) a1 a2 v9 v11 (ix2 r c)
      - broadcastTo S512x512 (k1_pay10 (F := Ideal) a1 a2 v9 v11 v30) broadcasts_S512x1_S512x512 (ix2 r c)) = _
  rw [broadcastTo_a1_ab_apply]

/-- The new running denominator of row `r`: the old one rescaled, plus the row's weights in this block. -/
theorem pay13_apply (a1 a2 : BitVec 32) (v9 v11 : Vec Ideal S1x1x512x1024 .bf16) (v30 v39 : Vec Ideal S512x1 .f32) (r : Fin 512) :
    k1_pay13 (F := Ideal) a1 a2 v9 v11 v30 v39 (ix2 r (0 : Fin 1))
      = k1_pay11 (F := Ideal) a1 a2 v9 v11 v30 (ix2 r (0 : Fin 1)) * v39 (ix2 r (0 : Fin 1))
        + ∑ c : Fin 512, k1_pay12 (F := Ideal) a1 a2 v9 v11 v30 (ix2 r c) := by
  unfold k1_pay13
  refine (addf_apply _ _ _).trans ?_
  refine congrArg₂ (· + ·) (mulf_apply _ _ _) ?_
  refine (shapeCast_a_a1_apply _ _ r (0 : Fin 1)).trans ?_
  refine (Ideal.multiReduction_add_single (k1_pay12 (F := Ideal) a1 a2 v9 v11 v30) 0x00000000#32 reduces_S512x512_S512
    (.inl rfl) rfl (ix1 r)).trans ?_
  show ∑ c : Fin 512, k1_pay12 (F := Ideal) a1 a2 v9 v11 v30 (reduces_S512x512_S512.lift (ix1 r) c) = _
  exact Finset.sum_congr rfl fun c _ => congrArg (k1_pay12 (F := Ideal) a1 a2 v9 v11 v30) (lift_row _ r c)

end Cert.KernelIdeal.Hand

end
-- ==== Proof.OnlineSoftmax.lean ====
import Mathlib
import Idealize.ShloMosaic.PureOps.Ideal

/-!
# Online (blockwise, rescaled) softmax on the extended reals

A row of scores is split into blocks of 512.  The blockwise algorithm walks the blocks carrying a
running maximum, a running denominator and a running numerator, and multiplies the two sums by
the exponential of (previous maximum − new maximum) whenever the maximum grows.  Masked scores are
`⊥`, whose exponential is `0`.  We show that numerator / denominator after the last unmasked block
is the ordinary softmax-weighted sum over all four blocks.

The proof works in `ℝ`: once the first score is real the running maximum is real for ever after,
every weight `exp (s − m)` is a real (zero for a masked score), and the rescaling identity is
`exp (m − m') * exp (s − m) = exp (s − m')`.
-/

open Idealize.ShloMosaic
open scoped BigOperators

namespace Cert.OnlineSoftmax

/-- one block step of the online softmax, for one query row and one output column: s = this block's 512 scores, v = this block's 512 values (for that column), st = (running max, running denominator, running numerator) -/
noncomputable def step (s v : Fin 512 → EReal) (st : EReal × EReal × EReal) : EReal × EReal × EReal :=
  let mn := max st.1 (Finset.univ.sup s)
  (mn, Ideal.exp (st.1 - mn) * st.2.1 + ∑ c, Ideal.exp (s c - mn), Ideal.exp (st.1 - mn) * st.2.2 + ∑ c, Ideal.exp (s c - mn) * v c)

/-- the state after blocks 0..j, from the initial state (⊥, 0, 0) -/
noncomputable def run (S V : ℕ → Fin 512 → EReal) : ℕ → EReal × EReal × EReal
  | 0 => step (S 0) (V 0) (⊥, 0, 0)
  | j + 1 => step (S (j + 1)) (V (j + 1)) (run S V j)

/-! ### Coercion of finite real sums -/

/-- The coercion `ℝ → EReal` commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite supremum of extended reals none of which is `⊤` is not `⊤`. -/
theorem sup_ne_top {ι : Type*} (t : Finset ι) (f : ι → EReal) (h : ∀ i ∈ t, f i ≠ ⊤) :
    t.sup f ≠ ⊤ := by
  have : t.sup f < ⊤ := (Finset.sup_lt_iff bot_lt_top).2 fun i hi => lt_top_iff_ne_top.2 (h i hi)
  exact this.ne

/-! ### The real weight `exp (s − m)` -/

/-- The weight of a score `s` against a real maximum `m`, as a real number:
`exp (s − m)` for a real `s`, and `0` for a masked (`⊥`) score. -/
noncomputable def w (s : EReal) (m : ℝ) : ℝ := (Ideal.exp (s - (m : EReal))).toReal

theorem w_bot (m : ℝ) : w ⊥ m = 0 := by
  simp [w, EReal.bot_sub]

theorem w_coe (r m : ℝ) : w (r : EReal) m = Real.exp (r - m) := by
  rw [w, ← EReal.coe_sub, Ideal.exp_coe, EReal.toReal_coe]

theorem w_top (m : ℝ) : w ⊤ m = 0 := by
  simp [w, EReal.top_sub_coe]

theorem w_nonneg (s : EReal) (m : ℝ) : 0 ≤ w s m := by
  induction s using EReal.rec with
  | bot => rw [w_bot]
  | coe r => rw [w_coe]; exact (Real.exp_pos _).le
  | top => rw [w_top]

/-- For a score that is not `⊤` the extended-real weight is the coercion of the real one. -/
theorem exp_sub_coe (s : EReal) (hs : s ≠ ⊤) (m : ℝ) :
    Ideal.exp (s - (m : EReal)) = ((w s m : ℝ) : EReal) := by
  induction s using EReal.rec with
  | bot => rw [w_bot, EReal.bot_sub, Ideal.exp_bot, EReal.coe_zero]
  | coe r => rw [w_coe, ← EReal.coe_sub, Ideal.exp_coe]
  | top => exact absurd rfl hs

/-- Rescaling: moving the reference point from `m` to `m'` multiplies every weight by
`exp (m − m')`. -/
theorem w_rescale (s : EReal) (m m' : ℝ) : Real.exp (m - m') * w s m = w s m' := by
  induction s using EReal.rec with
  | bot => rw [w_bot, w_bot, mul_zero]
  | coe r => rw [w_coe, w_coe, ← Real.exp_add]; congr 1; ring
  | top => rw [w_top, w_top, mul_zero]

/-! ### One block, in real terms -/

/-- The block's denominator contribution is a real sum. -/
theorem sum_exp_eq (s : Fin 512 → EReal) (hs : ∀ c, s c ≠ ⊤) (m : ℝ) :
    ∑ c, Ideal.exp (s c - (m : EReal)) = ((∑ c, w (s c) m : ℝ) : EReal) := by
  rw [coe_finset_sum]
  exact Finset.sum_congr rfl fun c _ => exp_sub_coe (s c) (hs c) m

/-- The block's numerator contribution is a real sum. -/
theorem sum_exp_mul_eq (s v : Fin 512 → EReal) (hs : ∀ c, s c ≠ ⊤)
    (hv : ∀ c, ∃ r : ℝ, v c = (r : EReal)) (m : ℝ) :
    ∑ c, Ideal.exp (s c - (m : EReal)) * v c = ((∑ c, w (s c) m * (v c).toReal : ℝ) : EReal) := by
  rw [coe_finset_sum]
  refine Finset.sum_congr rfl fun c _ => ?_
  obtain ⟨r, hr⟩ := hv c
  rw [exp_sub_coe (s c) (hs c) m, hr, EReal.toReal_coe, EReal.coe_mul]

/-- The first block: the previous maximum is `⊥`, so the rescaling factor is `exp ⊥ = 0` and the
state is just this block's sums, taken against this block's (real) maximum. -/
theorem step_bot (s v : Fin 512 → EReal) (hs : ∀ c, s c ≠ ⊤)
    (hv : ∀ c, ∃ r : ℝ, v c = (r : EReal)) (h0 : ∃ c, ∃ r : ℝ, s c = (r : EReal)) :
    ∃ m' : ℝ, (m' : EReal) = Finset.univ.sup s ∧
      step s v (⊥, 0, 0) =
        ((m' : EReal), ((∑ c, w (s c) m' : ℝ) : EReal), ((∑ c, w (s c) m' * (v c).toReal : ℝ) : EReal)) := by
  obtain ⟨c0, r0, hr0⟩ := h0
  have hne_top : Finset.univ.sup s ≠ ⊤ := sup_ne_top _ _ fun c _ => hs c
  have hne_bot : Finset.univ.sup s ≠ ⊥ := by
    intro h
    have hle : s c0 ≤ Finset.univ.sup s := Finset.le_sup (Finset.mem_univ c0)
    rw [h, hr0] at hle
    exact EReal.coe_ne_bot r0 (le_bot_iff.1 hle)
  refine ⟨(Finset.univ.sup s).toReal, EReal.coe_toReal hne_top hne_bot, ?_⟩
  have hm : max (⊥ : EReal) (Finset.univ.sup s) = (((Finset.univ.sup s).toReal : ℝ) : EReal) := by
    rw [max_eq_right bot_le, EReal.coe_toReal hne_top hne_bot]
  simp only [step]
  rw [hm, EReal.bot_sub, Ideal.exp_bot, zero_mul, zero_add, zero_add,
    sum_exp_eq s hs, sum_exp_mul_eq s v hs hv]

/-- A later block: from a real state `(m, l, a)` the new maximum `m'` is real, and both sums are
rescaled by `exp (m − m')` before this block's contribution is added. -/
theorem step_coe (s v : Fin 512 → EReal) (hs : ∀ c, s c ≠ ⊤)
    (hv : ∀ c, ∃ r : ℝ, v c = (r : EReal)) (m l a : ℝ) :
    ∃ m' : ℝ, (m' : EReal) = max (m : EReal) (Finset.univ.sup s) ∧
      step s v ((m : EReal), (l : EReal), (a : EReal)) =
        ((m' : EReal), ((Real.exp (m - m') * l + ∑ c, w (s c) m' : ℝ) : EReal),
          ((Real.exp (m - m') * a + ∑ c, w (s c) m' * (v c).toReal : ℝ) : EReal)) := by
  have hne_top : max (m : EReal) (Finset.univ.sup s) ≠ ⊤ := by
    have h1 : Finset.univ.sup s < ⊤ := lt_top_iff_ne_top.2 (sup_ne_top _ _ fun c _ => hs c)
    exact (max_lt (EReal.coe_lt_top m) h1).ne
  have hne_bot : max (m : EReal) (Finset.univ.sup s) ≠ ⊥ := by
    intro h
    have hle : (m : EReal) ≤ max (m : EReal) (Finset.univ.sup s) := le_max_left _ _
    rw [h] at hle
    exact EReal.coe_ne_bot m (le_bot_iff.1 hle)
  refine ⟨(max (m : EReal) (Finset.univ.sup s)).toReal, EReal.coe_toReal hne_top hne_bot, ?_⟩
  have hm : max (m : EReal) (Finset.univ.sup s)
      = (((max (m : EReal) (Finset.univ.sup s)).toReal : ℝ) : EReal) :=
    (EReal.coe_toReal hne_top hne_bot).symm
  generalize (max (m : EReal) (Finset.univ.sup s)).toReal = m' at hm
  simp only [step]
  rw [hm, sum_exp_eq s hs, sum_exp_mul_eq s v hs hv, ← EReal.coe_sub, Ideal.exp_coe,
    ← EReal.coe_mul, ← EReal.coe_mul, ← EReal.coe_add, ← EReal.coe_add]

/-! ### The invariant of the walk over the blocks -/

/-- After blocks `0..j` the running maximum is a real `m`, the supremum of all scores seen so far,
and the running denominator and numerator are the real sums of the weights (resp. the weighted
values) of all scores seen so far, taken against `m`. -/
theorem run_spec (S V : ℕ → Fin 512 → EReal) (hS : ∀ j c, S j c ≠ ⊤)
    (hV : ∀ j c, ∃ r : ℝ, V j c = (r : EReal)) (h00 : ∃ r : ℝ, S 0 0 = (r : EReal)) (j : ℕ) :
    ∃ m : ℝ, (m : EReal) = (Finset.range (j + 1)).sup (fun i => Finset.univ.sup (S i)) ∧
      run S V j =
        ((m : EReal), ((∑ i ∈ Finset.range (j + 1), ∑ c, w (S i c) m : ℝ) : EReal),
          ((∑ i ∈ Finset.range (j + 1), ∑ c, w (S i c) m * (V i c).toReal : ℝ) : EReal)) := by
  induction j with
  | zero =>
    obtain ⟨m', hm', hst⟩ := step_bot (S 0) (V 0) (hS 0) (hV 0) ⟨0, h00⟩
    refine ⟨m', ?_, ?_⟩
    · rw [hm', zero_add, Finset.range_one, Finset.sup_singleton]
    · rw [run, hst, zero_add, Finset.range_one, Finset.sum_singleton, Finset.sum_singleton]
  | succ j ih =>
    obtain ⟨m, hm, hrun⟩ := ih
    obtain ⟨m', hm', hst⟩ := step_coe (S (j + 1)) (V (j + 1)) (hS (j + 1)) (hV (j + 1)) m
      (∑ i ∈ Finset.range (j + 1), ∑ c, w (S i c) m)
      (∑ i ∈ Finset.range (j + 1), ∑ c, w (S i c) m * (V i c).toReal)
    refine ⟨m', ?_, ?_⟩
    · rw [hm', hm, @Finset.range_add_one (j + 1), Finset.sup_insert, max_comm]
    · have e1 : Real.exp (m - m') * (∑ i ∈ Finset.range (j + 1), ∑ c, w (S i c) m)
            + ∑ c, w (S (j + 1) c) m'
          = ∑ i ∈ Finset.range (j + 1 + 1), ∑ c, w (S i c) m' := by
        rw [Finset.sum_range_succ _ (j + 1), Finset.mul_sum]
        congr 1
        refine Finset.sum_congr rfl fun i _ => ?_
        rw [Finset.mul_sum]
        exact Finset.sum_congr rfl fun c _ => w_rescale _ _ _
      have e2 : Real.exp (m - m') * (∑ i ∈ Finset.range (j + 1), ∑ c, w (S i c) m * (V i c).toReal)
            + ∑ c, w (S (j + 1) c) m' * (V (j + 1) c).toReal
          = ∑ i ∈ Finset.range (j + 1 + 1), ∑ c, w (S i c) m' * (V i c).toReal := by
        rw [Finset.sum_range_succ _ (j + 1), Finset.mul_sum]
        congr 1
        refine Finset.sum_congr rfl fun i _ => ?_
        rw [Finset.mul_sum]
        refine Finset.sum_congr rfl fun c _ => ?_
        rw [← mul_assoc, w_rescale]
      rw [run, hrun, hst, e1, e2]

/-! ### The final quotient is the softmax-weighted sum -/

theorem run_div_eq_softmax (S V : ℕ → Fin 512 → EReal) (q : ℕ) (hq : q < 4)
    (hS : ∀ j c, S j c ≠ ⊤)
    (hV : ∀ j c, ∃ r : ℝ, V j c = (r : EReal))
    (hmask : ∀ j, q < j → ∀ c, S j c = ⊥)
    (h00 : ∃ r : ℝ, S 0 0 = (r : EReal)) :
    let M : EReal := max ⊥ ((Finset.range 4).sup fun j => Finset.univ.sup (S j))
    let L : EReal := ∑ j ∈ Finset.range 4, ∑ c, Ideal.exp (S j c - M)
    Ideal.div (run S V q).2.2 (run S V q).2.1 = ∑ j ∈ Finset.range 4, ∑ c, Ideal.div (Ideal.exp (S j c - M)) L * V j c := by
  intro M L
  obtain ⟨m, hm, hrun⟩ := run_spec S V hS hV h00 q
  -- the global maximum is the running maximum after block `q`: later blocks are wholly `⊥`
  have hM : M = (m : EReal) := by
    show max ⊥ ((Finset.range 4).sup fun j => Finset.univ.sup (S j)) = (m : EReal)
    rw [max_eq_right bot_le, hm]
    apply le_antisymm
    · apply Finset.sup_le
      intro j _
      by_cases hjq : j ≤ q
      · exact Finset.le_sup (f := fun i => Finset.univ.sup (S i))
          (Finset.mem_range.2 (Nat.lt_succ_of_le hjq))
      · have hb : Finset.univ.sup (S j) = ⊥ := by
          apply le_bot_iff.1
          apply Finset.sup_le
          intro c _
          rw [hmask j (not_le.1 hjq) c]
        rw [hb]
        exact bot_le
    · exact Finset.sup_mono (Finset.range_subset_range.2 (by omega))
  -- a sum over blocks `0..q` of terms vanishing on later blocks is the sum over all four blocks
  have hext : ∀ g : ℕ → ℝ, (∀ j, q < j → g j = 0) →
      ∑ j ∈ Finset.range (q + 1), g j = ∑ j ∈ Finset.range 4, g j := by
    intro g hg
    apply Finset.sum_subset (Finset.range_subset_range.2 (by omega))
    intro j _ hj
    apply hg
    rw [Finset.mem_range, not_lt] at hj
    omega
  have hA : ∑ j ∈ Finset.range (q + 1), ∑ c, w (S j c) m
      = ∑ j ∈ Finset.range 4, ∑ c, w (S j c) m :=
    hext (fun j => ∑ c, w (S j c) m) fun j hj =>
      Finset.sum_eq_zero fun c _ => by rw [hmask j hj c, w_bot]
  have hB : ∑ j ∈ Finset.range (q + 1), ∑ c, w (S j c) m * (V j c).toReal
      = ∑ j ∈ Finset.range 4, ∑ c, w (S j c) m * (V j c).toReal :=
    hext (fun j => ∑ c, w (S j c) m * (V j c).toReal) fun j hj =>
      Finset.sum_eq_zero fun c _ => by rw [hmask j hj c, w_bot, zero_mul]
  -- the global denominator is a positive real
  have hL : L = ((∑ j ∈ Finset.range 4, ∑ c, w (S j c) m : ℝ) : EReal) := by
    show ∑ j ∈ Finset.range 4, ∑ c, Ideal.exp (S j c - M) = _
    rw [hM, coe_finset_sum]
    exact Finset.sum_congr rfl fun j _ => sum_exp_eq (S j) (hS j) m
  have hLpos : 0 < ∑ j ∈ Finset.range 4, ∑ c, w (S j c) m := by
    obtain ⟨r, hr⟩ := h00
    have h1 : 0 < w (S 0 0) m := by rw [hr, w_coe]; exact Real.exp_pos _
    have h2 : w (S 0 0) m ≤ ∑ c, w (S 0 c) m :=
      Finset.single_le_sum (f := fun c => w (S 0 c) m) (fun c _ => w_nonneg _ _)
        (Finset.mem_univ 0)
    have h3 : ∑ c, w (S 0 c) m ≤ ∑ j ∈ Finset.range 4, ∑ c, w (S j c) m :=
      Finset.single_le_sum (f := fun j => ∑ c, w (S j c) m)
        (fun j _ => Finset.sum_nonneg fun c _ => w_nonneg _ _)
        (Finset.mem_range.2 (by norm_num))
    linarith
  -- each term of the reference is a real
  have hterm : ∀ j c, Ideal.div (Ideal.exp (S j c - M)) L * V j c
      = ((w (S j c) m * (1 / ∑ j ∈ Finset.range 4, ∑ c, w (S j c) m) * (V j c).toReal : ℝ) : EReal) := by
    intro j c
    obtain ⟨r, hr⟩ := hV j c
    rw [hM, hL, exp_sub_coe _ (hS j c), Ideal.div_coe hLpos.ne', hr, EReal.toReal_coe,
      ← EReal.coe_mul, ← EReal.coe_mul]
  have hR : ∑ j ∈ Finset.range 4, ∑ c, Ideal.div (Ideal.exp (S j c - M)) L * V j c
      = ((∑ j ∈ Finset.range 4, ∑ c,
          w (S j c) m * (1 / ∑ j ∈ Finset.range 4, ∑ c, w (S j c) m) * (V j c).toReal : ℝ) : EReal) := by
    rw [coe_finset_sum]
    refine Finset.sum_congr rfl fun j _ => ?_
    rw [coe_finset_sum]
    exact Finset.sum_congr rfl fun c _ => hterm j c
  rw [hR, hrun]
  dsimp only
  rw [hA, hB, Ideal.div_coe hLpos.ne', ← EReal.coe_mul]
  congr 1
  rw [Finset.sum_mul]
  refine Finset.sum_congr rfl fun j _ => ?_
  rw [Finset.sum_mul]
  refine Finset.sum_congr rfl fun c _ => ?_
  ring

/-- The same statement with the global maximum written without the outer `max ⊥` (which is the
identity). -/
theorem run_div_eq_softmax' (S V : ℕ → Fin 512 → EReal) (q : ℕ) (hq : q < 4)
    (hS : ∀ j c, S j c ≠ ⊤)
    (hV : ∀ j c, ∃ r : ℝ, V j c = (r : EReal))
    (hmask : ∀ j, q < j → ∀ c, S j c = ⊥)
    (h00 : ∃ r : ℝ, S 0 0 = (r : EReal)) :
    let M : EReal := (Finset.range 4).sup fun j => Finset.univ.sup (S j)
    let L : EReal := ∑ j ∈ Finset.range 4, ∑ c, Ideal.exp (S j c - M)
    Ideal.div (run S V q).2.2 (run S V q).2.1 = ∑ j ∈ Finset.range 4, ∑ c, Ideal.div (Ideal.exp (S j c - M)) L * V j c := by
  intro M L
  have h := run_div_eq_softmax S V q hq hS hV hmask h00
  dsimp only at h
  rw [max_eq_right bot_le] at h
  exact h

end Cert.OnlineSoftmax
-- ==== Proof.KI_StepValue.lean ====
/-
  One block of the attention kernel's update, read row by row, IS one step of the online softmax: for query row `r`
  and output column `e`, the three values the update leaves — the new running maximum, the new running denominator
  and the new running numerator — are the step's, taken at the row's 512 scores against this block's keys, this
  block's 512 values of column `e`, and the three running values the update read. Only pure terms are read here.
-/
import proofs.«131958_j46909632807066_2_alg».proof.Proof.KI_PayValue
import proofs.«131958_j46909632807066_2_alg».proof.Proof.OnlineSoftmax

noncomputable section

open scoped BigOperators

namespace Cert.KernelIdeal.Hand

open Cert.KernelIdeal Cert.KernelIdeal.Gen
open Idealize.ShloMosaic Idealize.ShloMosaic.ValueIdx

/-- The update's three stored values at row `r` (and column `e` of the numerator), from the running values `xs0`
    (maximum), `xs1` (denominator) and `xs2` (numerator) it read, are one online-softmax step from those. -/
theorem update_eq_step (a1 a2 : BitVec 32) (v9 v11 v13 : Vec Ideal S1x1x512x1024 .bf16) (xs0 xs1 : Vec Ideal S512x1 .f32)
    (xs2 : Vec Ideal S512x1024 .f32) (r : Fin 512) (e : Fin 1024) :
    ( k1_pay6 (F := Ideal) (k1_pay10 (F := Ideal) a1 a2 v9 v11 xs0) (ix2 r (0 : Fin 1)),
      k1_pay4 (F := Ideal) (k1_pay13 (F := Ideal) a1 a2 v9 v11 xs0 xs1) (ix2 r (0 : Fin 1)),
      k1_pay5 (F := Ideal) (k1_pay8 (F := Ideal) v13) (k1_pay11 (F := Ideal) a1 a2 v9 v11 xs0)
        (k1_pay12 (F := Ideal) a1 a2 v9 v11 xs0) xs2 (ix2 r e) )
    = Cert.OnlineSoftmax.step (fun c : Fin 512 => k1_pay9 (F := Ideal) a1 a2 v9 v11 (ix2 r c))
        (fun c : Fin 512 => v13 (ix4 (0 : Fin 1) (0 : Fin 1) c e))
        (xs0 (ix2 r (0 : Fin 1)), xs1 (ix2 r (0 : Fin 1)), xs2 (ix2 r e)) := by
  rw [pay6_apply, pay4_apply, pay5_apply, pay13_apply, pay11_apply]
  simp only [pay12_apply, pay8_apply, pay10_apply, Cert.OnlineSoftmax.step]

/-- The same with the three running values the update read NAMED: whatever the rows of the carried buffers are known
    to be (`h0`, `h1`, `h2`), the step starts from those. -/
theorem update_eq_step_of (a1 a2 : BitVec 32) (v9 v11 v13 : Vec Ideal S1x1x512x1024 .bf16) (xs0 xs1 : Vec Ideal S512x1 .f32)
    (xs2 : Vec Ideal S512x1024 .f32) (r : Fin 512) (e : Fin 1024) (m l acc : EReal)
    (h0 : xs0 (ix2 r (0 : Fin 1)) = m) (h1 : xs1 (ix2 r (0 : Fin 1)) = l) (h2 : xs2 (ix2 r e) = acc) :
    ( k1_pay6 (F := Ideal) (k1_pay10 (F := Ideal) a1 a2 v9 v11 xs0) (ix2 r (0 : Fin 1)),
      k1_pay4 (F := Ideal) (k1_pay13 (F := Ideal) a1 a2 v9 v11 xs0 xs1) (ix2 r (0 : Fin 1)),
      k1_pay5 (F := Ideal) (k1_pay8 (F := Ideal) v13) (k1_pay11 (F := Ideal) a1 a2 v9 v11 xs0)
        (k1_pay12 (F := Ideal) a1 a2 v9 v11 xs0) xs2 (ix2 r e) )
    = Cert.OnlineSoftmax.step (fun c : Fin 512 => k1_pay9 (F := Ideal) a1 a2 v9 v11 (ix2 r c))
        (fun c : Fin 512 => v13 (ix4 (0 : Fin 1) (0 : Fin 1) c e)) (m, l, acc) := by
  rw [update_eq_step, h0, h1, h2]

/-- The first block of a row: the running values are the ones just initialised (-∞, 0, 0), and the update is the
    step from there. -/
theorem init_update_eq_step (a1 a2 : BitVec 32) (v9 v11 v13 : Vec Ideal S1x1x512x1024 .bf16) (r : Fin 512) (e : Fin 1024) :
    ( k1_pay6 (F := Ideal) (k1_pay10 (F := Ideal) a1 a2 v9 v11 (k1_pay1 (F := Ideal))) (ix2 r (0 : Fin 1)),
      k1_pay4 (F := Ideal) (k1_pay13 (F := Ideal) a1 a2 v9 v11 (k1_pay1 (F := Ideal)) (k1_pay2 (F := Ideal))) (ix2 r (0 : Fin 1)),
      k1_pay5 (F := Ideal) (k1_pay8 (F := Ideal) v13) (k1_pay11 (F := Ideal) a1 a2 v9 v11 (k1_pay1 (F := Ideal)))
        (k1_pay12 (F := Ideal) a1 a2 v9 v11 (k1_pay1 (F := Ideal))) (k1_pay3 (F := Ideal)) (ix2 r e) )
    = Cert.OnlineSoftmax.step (fun c : Fin 512 => k1_pay9 (F := Ideal) a1 a2 v9 v11 (ix2 r c))
        (fun c : Fin 512 => v13 (ix4 (0 : Fin 1) (0 : Fin 1) c e)) ((⊥ : EReal), (0 : EReal), (0 : EReal)) :=
  update_eq_step_of a1 a2 v9 v11 v13 _ _ _ r e _ _ _ (pay1_apply r) (pay2_apply r) (pay3_apply r e)

/-- The last block's result: the running numerator divided by the row's running denominator. -/
theorem finalise_apply (acc : Vec Ideal S512x1024 .f32) (l : Vec Ideal S512x1 .f32) (r : Fin 512) (e : Fin 1024) :
    k1_pay7 (F := Ideal) acc l (ix3 (0 : Fin 1) r e) = Ideal.div (acc (ix2 r e)) (l (ix2 r (0 : Fin 1))) :=
  pay7_apply acc l r e

end Cert.KernelIdeal.Hand

end
-- ==== Proof.Spec.lean ====
/-
  The SPECIFICATION of causal self-attention over the extended reals, as one function of the four argument arrays:
  the projections q = x·Wq, k = x·Wk, v = x·Wv (row by row of each batch), the scores q·kᵀ with the keys AFTER the
  query masked to -∞ and every score scaled by 1/32, the softmax of a query's scores over all 2048 keys (maximum
  subtracted, exponentials divided by their sum), and the weighted sum of the value rows. Both programs are proved
  to end at this function; no program is imported here.
-/
import Idealize.ShloMosaic.PureOps.Ideal
import Idealize.ShloMosaic.Lib.ValueIdx

noncomputable section

open scoped BigOperators

namespace Cert.Spec

open Idealize.ShloMosaic Idealize.ShloMosaic.ValueIdx

/-- An activation array, batch × position × feature. -/
abbrev Act : Type := (⟨3, ![4, 2048, 1024]⟩ : Shape).Idx → EReal
/-- A weight matrix, input feature × output feature. -/
abbrev Wt : Type := (⟨2, ![1024, 1024]⟩ : Shape).Idx → EReal

/-- One entry of a projection: position `s` of batch `b` of `x` against column `e` of `w`. -/
def proj (x : Act) (w : Wt) (b : Fin 4) (s : Fin 2048) (e : Fin 1024) : EReal :=
  ∑ d : Fin 1024, x (ix3 b s d) * w (ix2 d e)

/-- The scale every score is multiplied by: the float word of 1/32, the same word in both programs. -/
def scale : EReal := Ideal.ofBits .f32 0x3D000000#32

/-- The scaled, causally masked score of query position `q` against key position `k`: a key after the query is -∞. -/
def score (x : Act) (wq wk : Wt) (b : Fin 4) (q k : Fin 2048) : EReal :=
  (if q.val < k.val then ⊥ else ∑ e : Fin 1024, proj x wq b q e * proj x wk b k e) * scale

/-- A query's largest score (the maximum against -∞ is the identity; it is how both programs start their reduction). -/
def rowMax (x : Act) (wq wk : Wt) (b : Fin 4) (q : Fin 2048) : EReal :=
  max ⊥ (Finset.univ.sup fun k : Fin 2048 => score x wq wk b q k)

/-- The unnormalised softmax weight of key `k` for query `q`. -/
def weight (x : Act) (wq wk : Wt) (b : Fin 4) (q k : Fin 2048) : EReal :=
  Ideal.exp (score x wq wk b q k - rowMax x wq wk b q)

/-- The softmax denominator of query `q`. -/
def denom (x : Act) (wq wk : Wt) (b : Fin 4) (q : Fin 2048) : EReal :=
  ∑ k : Fin 2048, weight x wq wk b q k

/-- One entry of the attention output. -/
def attn (x : Act) (wq wk wv : Wt) (b : Fin 4) (q : Fin 2048) (e : Fin 1024) : EReal :=
  ∑ k : Fin 2048, Ideal.div (weight x wq wk b q k) (denom x wq wk b q) * proj x wv b k e

/-- The whole output array, index by index. -/
def G (x : Act) (wq wk wv : Wt) : Act := fun i => attn x wq wk wv (i 0) (i 1) (i 2)

theorem G_ix3 (x : Act) (wq wk wv : Wt) (b : Fin 4) (q : Fin 2048) (e : Fin 1024) :
    G x wq wk wv (ix3 b q e) = attn x wq wk wv b q e := rfl

end Cert.Spec

end
-- ==== Proof.KI_QkvIs.lean ====
/-
  What the value of the attention call is proved from: the array it reads has the three projections q = x·Wq,
  k = x·Wk, v = x·Wv as its three slabs, and every entry of the four arrays x, Wq, Wk, Wv is a real number.
-/
import proofs.«131958_j46909632807066_2_alg».proof.Proof.KI_R1Blocks
import proofs.«131958_j46909632807066_2_alg».proof.Proof.Spec

noncomputable section

namespace Cert.KernelIdeal.Hand

open Idealize.ShloMosaic Idealize.ShloMosaic.TcCoe Idealize.ShloMosaic.ValueIdx
open Cert.KernelIdeal Cert.KernelIdeal.Gen Cert.Spec

/-- The array the attention call reads, on core `c` at the contents `V`, holds the three projections of real arrays. -/
structure QkvIs (V : (c : Dev nD) → (b : Ref sig .tc) → Buf (Elt Ideal) ((c : Thread nD τ).loc b)) (c : Dev nD)
    (x : Act) (wq wk wv : Wt) : Prop where
  hx : ∀ i, ∃ r : ℝ, x i = (r : EReal)
  hq : ∀ i, ∃ r : ℝ, wq i = (r : EReal)
  hk : ∀ i, ∃ r : ℝ, wk i = (r : EReal)
  hv : ∀ i, ∃ r : ℝ, wv i = (r : EReal)
  hQ : ∀ (b : Fin 4) (s : Fin 2048) (d : Fin 1024), qkvIn V c (ix4 (0 : Fin 3) b s d) = proj x wq b s d
  hK : ∀ (b : Fin 4) (s : Fin 2048) (d : Fin 1024), qkvIn V c (ix4 (1 : Fin 3) b s d) = proj x wk b s d
  hV : ∀ (b : Fin 4) (s : Fin 2048) (d : Fin 1024), qkvIn V c (ix4 (2 : Fin 3) b s d) = proj x wv b s d

end Cert.KernelIdeal.Hand

end
-- ==== Proof.LibLossAlgebra.lean ====
/-
  General lemmas over the extended reals and the reals that the comparison of the two loss expressions uses:
  the coercion of a finite sum, the contraction of a vector with a row of the identity matrix, and a sum over
  m·n indices cut into m blocks of n consecutive indices.
-/
import Mathlib.Data.EReal.Operations
import Mathlib.Data.EReal.Inv
import Mathlib.Algebra.BigOperators.Fin
import Mathlib.Algebra.BigOperators.Group.Finset.Basic
import Mathlib.Logic.Equiv.Fin.Basic
import Mathlib.Tactic.Ring
import Mathlib.Tactic.Linarith

noncomputable section

namespace Cert.LibLossAlgebra

open scoped BigOperators

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracting a vector with row k of the identity matrix reads entry k: no finiteness is needed, since
    x · 1 = x and x · 0 = 0 for every extended real x. -/
theorem sum_mul_ite {n : ℕ} (x : Fin n → EReal) (k : Fin n) :
    ∑ i, x i * (if i = k then (1 : EReal) else 0) = x k := by
  rw [Finset.sum_eq_single k]
  · rw [if_pos rfl, mul_one]
  · intro i _ hik; rw [if_neg hik, mul_zero]
  · intro h; exact absurd (Finset.mem_univ k) h

/-- The same with the factors swapped. -/
theorem sum_ite_mul {n : ℕ} (x : Fin n → EReal) (k : Fin n) :
    ∑ i, (if i = k then (1 : EReal) else 0) * x i = x k := by
  rw [Finset.sum_eq_single k]
  · rw [if_pos rfl, one_mul]
  · intro i _ hik; rw [if_neg hik, zero_mul]
  · intro h; exact absurd (Finset.mem_univ k) h

/-- The same two with the test written the other way round. -/
theorem sum_mul_ite' {n : ℕ} (x : Fin n → EReal) (k : Fin n) :
    ∑ i, x i * (if k = i then (1 : EReal) else 0) = x k := by
  rw [Finset.sum_eq_single k]
  · rw [if_pos rfl, mul_one]
  · intro i _ hik; rw [if_neg (Ne.symm hik), mul_zero]
  · intro h; exact absurd (Finset.mem_univ k) h

theorem sum_ite_mul' {n : ℕ} (x : Fin n → EReal) (k : Fin n) :
    ∑ i, (if k = i then (1 : EReal) else 0) * x i = x k := by
  rw [Finset.sum_eq_single k]
  · rw [if_pos rfl, one_mul]
  · intro i _ hik; rw [if_neg (Ne.symm hik), zero_mul]
  · intro h; exact absurd (Finset.mem_univ k) h

/-- Index i·n + r of block i is below m·n. -/
theorem block_lt {m n N : ℕ} (h : m * n = N) (i : Fin m) (r : Fin n) : i.val * n + r.val < N := by
  have hi := i.isLt
  have hr := r.isLt
  calc i.val * n + r.val < i.val * n + n := by omega
    _ = (i.val + 1) * n := by ring
    _ ≤ m * n := Nat.mul_le_mul_right n hi
    _ = N := h

/-- A sum over m·n indices is the sum, over the m blocks, of the sums over each block's n consecutive indices. -/
theorem sum_blocks {M : Type*} [AddCommMonoid M] {m n N : ℕ} (h : m * n = N) (f : Fin N → M) :
    ∑ b, f b = ∑ i : Fin m, ∑ r : Fin n, f ⟨i.val * n + r.val, block_lt h i r⟩ := by
  subst h
  rw [← Fintype.sum_prod_type' (fun (i : Fin m) (r : Fin n) => f ⟨i.val * n + r.val, block_lt rfl i r⟩)]
  refine (Fintype.sum_equiv finProdFinEquiv _ _ (fun x => congrArg f (Fin.ext ?_))).symm
  show x.1.val * n + x.2.val = x.2.val + n * x.1.val
  rw [Nat.mul_comm, Nat.add_comm]

end Cert.LibLossAlgebra

end
-- ==== Proof.SpecBlocks.lean ====
/-
  The specification's attention entry, for the query in row `r` of query block `qi`, as the quotient the blockwise
  (online) softmax recurrence ends with after key block `qi`: the 2048 keys are cut into four blocks of 512, a
  key after the query has score -∞ (so every block after `qi` is wholly masked and key 0 never is), every entry of
  the projections is a real number when the arguments' entries are, and the scale 1/32 is a positive real.
-/
import proofs.«131958_j46909632807066_2_alg».proof.Proof.Spec
import proofs.«131958_j46909632807066_2_alg».proof.Proof.LibLossAlgebra
import proofs.«131958_j46909632807066_2_alg».proof.Proof.OnlineSoftmax

noncomputable section

open scoped BigOperators

namespace Cert.SpecBlocks

open Idealize.ShloMosaic Idealize.ShloMosaic.ValueIdx Cert.Spec Cert.OnlineSoftmax

/-- The scale is the real 1/32. -/
theorem scale_eq : Cert.Spec.scale = ((1 / 32 : ℝ) : EReal) := by
  unfold Cert.Spec.scale
  simp [Ideal.ofBits, Ideal.ieee, -EReal.coe_mul]
  norm_num

/-- Key `c` of key block `j`. -/
def key (j : Fin 4) (c : Fin 512) : Fin 2048 := ⟨j.val * 512 + c.val, by have := j.isLt; have := c.isLt; omega⟩

/-- The same for a block number given as a natural number (read modulo 4, so that it is total). -/
def keyN (j : ℕ) (c : Fin 512) : Fin 2048 := key ⟨j % 4, Nat.mod_lt _ (by decide)⟩ c

theorem keyN_val (j : ℕ) (hj : j < 4) (c : Fin 512) : (keyN j c).val = j * 512 + c.val := by
  show j % 4 * 512 + c.val = _
  rw [Nat.mod_eq_of_lt hj]

/-- A supremum over the 2048 keys, block by block. -/
theorem sup_blocks (f : Fin 2048 → EReal) :
    Finset.univ.sup f = Finset.univ.sup fun j : Fin 4 => Finset.univ.sup fun c : Fin 512 => f (key j c) := by
  apply le_antisymm
  · apply Finset.sup_le
    intro b _
    have hb : b = key ⟨b.val / 512, by have := b.isLt; omega⟩ ⟨b.val % 512, by omega⟩ := by
      apply Fin.ext
      show b.val = b.val / 512 * 512 + b.val % 512
      omega
    rw [hb]
    exact le_trans (Finset.le_sup (f := fun c : Fin 512 => f (key _ c)) (Finset.mem_univ _))
      (Finset.le_sup (f := fun j : Fin 4 => Finset.univ.sup fun c : Fin 512 => f (key j c)) (Finset.mem_univ _))
  · apply Finset.sup_le; intro i _; apply Finset.sup_le; intro r _
    exact Finset.le_sup (Finset.mem_univ _)

/-- A sum over the 2048 keys, block by block. -/
theorem sum_blocks {M : Type*} [AddCommMonoid M] (f : Fin 2048 → M) :
    ∑ k, f k = ∑ j : Fin 4, ∑ c : Fin 512, f (key j c) :=
  Cert.LibLossAlgebra.sum_blocks (m := 4) (n := 512) (N := 2048) rfl f

/-- A supremum over the first four naturals is the supremum over `Fin 4`. -/
theorem sup_range4 (g : ℕ → EReal) : (Finset.range 4).sup g = Finset.univ.sup fun j : Fin 4 => g j.val := by
  apply le_antisymm
  · apply Finset.sup_le; intro j hj
    exact Finset.le_sup (f := fun j : Fin 4 => g j.val) (Finset.mem_univ ⟨j, Finset.mem_range.1 hj⟩)
  · apply Finset.sup_le; intro j _
    exact Finset.le_sup (Finset.mem_range.2 j.isLt)

variable (x : Act) (wq wk wv : Wt)

/-- The scores of key block `j` for query `q`, and -∞ past the fourth block. -/
def Sblk (b : Fin 4) (q : Fin 2048) : ℕ → Fin 512 → EReal :=
  fun j c => if j < 4 then score x wq wk b q (keyN j c) else ⊥

/-- The values of key block `j`, in output column `e`. -/
def Vblk (b : Fin 4) (e : Fin 1024) : ℕ → Fin 512 → EReal :=
  fun j c => proj x wv b (keyN j c) e

/-- Every entry of a projection of real arrays is a real number. -/
theorem proj_real (w : Wt) (hx : ∀ i, ∃ r : ℝ, x i = (r : EReal)) (hw : ∀ i, ∃ r : ℝ, w i = (r : EReal))
    (b : Fin 4) (s : Fin 2048) (e : Fin 1024) : ∃ r : ℝ, proj x w b s e = (r : EReal) := by
  choose fx hfx using hx
  choose fw hfw using hw
  refine ⟨∑ d : Fin 1024, fx (ix3 b s d) * fw (ix2 d e), ?_⟩
  unfold proj
  rw [Cert.LibLossAlgebra.coe_finset_sum]
  exact Finset.sum_congr rfl fun d _ => by rw [hfx, hfw, EReal.coe_mul]

/-- A score is -∞ (a key after the query) or a real number. -/
theorem score_cases (hx : ∀ i, ∃ r : ℝ, x i = (r : EReal)) (hq : ∀ i, ∃ r : ℝ, wq i = (r : EReal))
    (hk : ∀ i, ∃ r : ℝ, wk i = (r : EReal)) (b : Fin 4) (q k : Fin 2048) :
    (q.val < k.val ∧ score x wq wk b q k = ⊥) ∨ (¬ q.val < k.val ∧ ∃ r : ℝ, score x wq wk b q k = (r : EReal)) := by
  unfold score
  by_cases h : q.val < k.val
  · left; refine ⟨h, ?_⟩
    rw [if_pos h, scale_eq]
    exact EReal.bot_mul_coe_of_pos (by norm_num)
  · right; refine ⟨h, ?_⟩
    rw [if_neg h, scale_eq]
    choose fq hfq using fun e => proj_real x wq hx hq b q e
    choose fk hfk using fun e => proj_real x wk hx hk b k e
    refine ⟨(∑ e : Fin 1024, fq e * fk e) * (1 / 32), ?_⟩
    rw [EReal.coe_mul, Cert.LibLossAlgebra.coe_finset_sum]
    congr 1
    exact Finset.sum_congr rfl fun e _ => by rw [hfq, hfk, EReal.coe_mul]

/-- The attention entry of the query in row `r` of query block `qi` is the quotient of the running numerator by
    the running denominator after key block `qi` of the blockwise recurrence over that query's score blocks. -/
theorem attn_eq_run (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal))
    (b : Fin 4) (qi : Fin 4) (r : Fin 512) (e : Fin 1024) :
    attn x wq wk wv b (key qi r) e
      = Ideal.div (run (Sblk x wq wk b (key qi r)) (Vblk x wv b e) qi.val).2.2
          (run (Sblk x wq wk b (key qi r)) (Vblk x wv b e) qi.val).2.1 := by
  have hS : ∀ j c, Sblk x wq wk b (key qi r) j c ≠ ⊤ := by
    intro j c; unfold Sblk
    by_cases hj : j < 4
    · rw [if_pos hj]
      rcases score_cases x wq wk hx hq hk b (key qi r) (keyN j c) with ⟨-, h⟩ | ⟨-, ρ, h⟩
      · rw [h]; exact bot_ne_top
      · rw [h]; exact EReal.coe_ne_top _
    · rw [if_neg hj]; exact bot_ne_top
  have hV : ∀ j c, ∃ ρ : ℝ, Vblk x wv b e j c = (ρ : EReal) := fun j c => proj_real x wv hx hv b _ e
  have hmask : ∀ j, qi.val < j → ∀ c, Sblk x wq wk b (key qi r) j c = ⊥ := by
    intro j hj c; unfold Sblk
    by_cases hj4 : j < 4
    · rw [if_pos hj4]
      rcases score_cases x wq wk hx hq hk b (key qi r) (keyN j c) with ⟨-, h⟩ | ⟨hn, -⟩
      · exact h
      · exfalso; apply hn
        rw [keyN_val j hj4 c]
        show qi.val * 512 + r.val < j * 512 + c.val
        have := r.isLt; omega
    · rw [if_neg hj4]
  have h00 : ∃ ρ : ℝ, Sblk x wq wk b (key qi r) 0 0 = (ρ : EReal) := by
    unfold Sblk; rw [if_pos (by decide)]
    rcases score_cases x wq wk hx hq hk b (key qi r) (keyN 0 0) with ⟨hlt, -⟩ | ⟨-, h⟩
    · exfalso; rw [keyN_val 0 (by decide) 0] at hlt; simp at hlt
    · exact h
  have hmain := run_div_eq_softmax (Sblk x wq wk b (key qi r)) (Vblk x wv b e) qi.val qi.isLt hS hV hmask h00
  dsimp only at hmain
  rw [hmain]
  -- the blockwise global maximum and denominator are the specification's
  have hkey : ∀ (j : Fin 4) (c : Fin 512), keyN j.val c = key j c := by
    intro j c; apply Fin.ext; rw [keyN_val j.val j.isLt c]; rfl
  have hSj : ∀ (j : Fin 4) (c : Fin 512), Sblk x wq wk b (key qi r) j.val c = score x wq wk b (key qi r) (key j c) := by
    intro j c; unfold Sblk; rw [if_pos j.isLt, hkey]
  have hM : max ⊥ ((Finset.range 4).sup fun j => Finset.univ.sup (Sblk x wq wk b (key qi r) j)) = rowMax x wq wk b (key qi r) := by
    unfold rowMax
    rw [sup_range4, sup_blocks]
    congr 2
    funext j
    exact Finset.sup_congr rfl fun c _ => hSj j c
  rw [hM]
  have hL : (∑ j ∈ Finset.range 4, ∑ c, Ideal.exp (Sblk x wq wk b (key qi r) j c - rowMax x wq wk b (key qi r))) = denom x wq wk b (key qi r) := by
    unfold denom weight
    rw [Finset.sum_range, sum_blocks]
    exact Finset.sum_congr rfl fun j _ => Finset.sum_congr rfl fun c _ => by rw [hSj]
  rw [hL]
  unfold attn weight
  rw [Finset.sum_range, sum_blocks]
  refine Finset.sum_congr rfl fun j _ => Finset.sum_congr rfl fun c _ => ?_
  rw [hSj]
  unfold Vblk
  rw [hkey]

end Cert.SpecBlocks

end
-- ==== Proof.KI_R1Value.lean ====
/-
  THE VALUE OF THE ATTENTION CALL. The call walks, for every batch and query block, the key blocks 0, 1, 2, 3 in
  turn, carrying per query row a running maximum, a running denominator and (per output column) a running
  numerator. The invariant below says that after every grid point these three carried values are the state of the
  blockwise softmax recurrence after the last key block the query block has met: the first key block starts the
  recurrence from (-∞, 0, 0); a key block not after the query block advances it by one step, its scores being the
  specification's (a masked score is -∞ on both sides, the scale a positive real); a key block after the query
  block leaves the carried values alone. At the last key block the quotient numerator / denominator is stored,
  which is the specification's attention entry; the stored blocks cover the output array.
-/
import proofs.«131958_j46909632807066_2_alg».proof.Proof.KI_R1Dat
import proofs.«131958_j46909632807066_2_alg».proof.Proof.KI_R1Pieces
import proofs.«131958_j46909632807066_2_alg».proof.Proof.KI_R1Array
import proofs.«131958_j46909632807066_2_alg».proof.Proof.KI_StepValue
import proofs.«131958_j46909632807066_2_alg».proof.Proof.KI_QkvIs
import proofs.«131958_j46909632807066_2_alg».proof.Proof.SpecBlocks

noncomputable section

open scoped BigOperators

namespace Cert.KernelIdeal.Hand

open Idealize.ShloMosaic Idealize.ShloMosaic.TcCoe Idealize.ShloMosaic.ValueIdx
open Cert.KernelIdeal Cert.KernelIdeal.Gen Cert.Spec Cert.SpecBlocks Cert.OnlineSoftmax

/-- A grid point's coordinates (batch, query block, key block) from its position: the key block runs fastest. -/
theorem coords1 : ∀ t : Fin cfg1.N, ((grid1.coords t) 0).val = t.val / 16 ∧ ((grid1.coords t) 1).val = (t.val / 4) % 4 ∧ ((grid1.coords t) 2).val = t.val % 4 :=
  (by decide +kernel : ∀ t : Fin grid1.N, ((grid1.coords t) 0).val = t.val / 16 ∧ ((grid1.coords t) 1).val = (t.val / 4) % 4 ∧ ((grid1.coords t) 2).val = t.val % 4)

section

variable (V : (c : Dev nD) → (b : Ref sig .tc) → Buf (Elt Ideal) ((c : Thread nD τ).loc b)) (c : Dev nD)
variable (x : Act) (wq wk wv : Wt)

/-- The kernel's masked, scaled scores of one key block against one query row are the specification's block of
    scores, when the two loaded blocks are the query and key projections. -/
theorem sfun_core (qi ki : Fin 4) (hle : ki.val ≤ qi.val) (b : Fin 4) (x0 x1 : Vec Ideal S1x1x512x1024 .bf16)
    (h0 : ∀ (r : Fin 512) (d : Fin 1024), x0 (ix4 (0 : Fin 1) (0 : Fin 1) r d) = proj x wq b (key qi r) d)
    (h1 : ∀ (j : Fin 512) (d : Fin 1024), x1 (ix4 (0 : Fin 1) (0 : Fin 1) j d) = proj x wk b (key ki j) d) (r : Fin 512) :
    (fun j : Fin 512 => k1_pay9 (F := Ideal) (BitVec.ofNat 32 qi.val) (BitVec.ofNat 32 ki.val) x0 x1 (ix2 r j))
      = Sblk x wq wk b (key qi r) ki.val := by
  funext j
  rw [pay9_apply qi.val ki.val qi.isLt ki.isLt]
  have hdot : (∑ d : Fin 1024, x0 (ix4 (0 : Fin 1) (0 : Fin 1) r d) * x1 (ix4 (0 : Fin 1) (0 : Fin 1) j d))
      = ∑ e : Fin 1024, proj x wq b (key qi r) e * proj x wk b (key ki j) e :=
    Finset.sum_congr rfl fun d _ => by rw [h0, h1]
  rw [hdot]
  unfold Sblk
  rw [if_pos ki.isLt]
  have hkey : keyN ki.val j = key ki j := by
    apply Fin.ext; rw [keyN_val _ ki.isLt]; rfl
  rw [hkey]
  unfold score
  have hval : (key qi r).val < (key ki j).val ↔ ¬ (ki.val * 512 + j.val ≤ qi.val * 512 + r.val) := by
    show (qi.val * 512 + r.val < ki.val * 512 + j.val) ↔ _
    omega
  by_cases hm : ki.val * 512 + j.val ≤ qi.val * 512 + r.val
  · rw [if_pos hm, if_neg (fun hh => (hval.1 hh) hm)]
    rfl
  · rw [if_neg hm, if_pos (hval.2 hm), scale_eq]
    exact (EReal.bot_mul_coe_of_pos (by norm_num)).symm

theorem sfun_eq (h : QkvIs V c x wq wk wv) (t : Fin cfg1.N) (h1 : t.val % 4 ≤ t.val / 4 % 4) (r : Fin 512) :
    (fun j : Fin 512 => k1_pay9 (F := Ideal) (BitVec.ofNat 32 ((grid1.coords t) 1).val) (BitVec.ofNat 32 ((grid1.coords t) 2).val) (iblk1 V c 0 t) (iblk1 V c 1 t) (ix2 r j))
      = Sblk x wq wk (bOf t) (key (qiOf t) r) (t.val % 4) := by
  obtain ⟨-, hc1, hc2⟩ := coords1 t
  rw [hc1, hc2]
  have hkv : kvOf t = kiOf t := Fin.ext (by show min (t.val % 4) (t.val / 4 % 4) = t.val % 4; exact Nat.min_eq_left h1)
  exact sfun_core x wq wk (qiOf t) (kiOf t) h1 (bOf t) (iblk1 V c 0 t) (iblk1 V c 1 t)
    (fun r d => by rw [iblk1_0_ix, h.hQ]; rfl)
    (fun j d => by rw [iblk1_1_ix, h.hK, hkv]; rfl) r

theorem vfun_eq (h : QkvIs V c x wq wk wv) (t : Fin cfg1.N) (h1 : t.val % 4 ≤ t.val / 4 % 4) (e : Fin 1024) :
    (fun j : Fin 512 => (iblk1 V c 2 t : Vec Ideal S1x1x512x1024 .bf16) (ix4 (0 : Fin 1) (0 : Fin 1) j e))
      = Vblk x wv (bOf t) e (t.val % 4) := by
  funext j
  have hkv : kvOf t = kiOf t := Fin.ext (by show min (t.val % 4) (t.val / 4 % 4) = t.val % 4; exact Nat.min_eq_left h1)
  rw [iblk1_2_ix, h.hV, hkv]
  unfold Vblk
  congr 1
  apply Fin.ext
  rw [keyN_val _ (Nat.mod_lt _ (by decide))]

/-- The three carried values after the point at position `n`, at row `r` (and column `e` of the numerator). -/
def stAt (n : ℕ) (hn : n < cfg1.N) (r : Fin 512) (e : Fin 1024) : EReal × EReal × EReal :=
  (((outsAt1 V c n hn).2.1 : S512x1.Idx → EReal) (ix2 r (0 : Fin 1)),
   ((outsAt1 V c n hn).2.2.1 : S512x1.Idx → EReal) (ix2 r (0 : Fin 1)),
   ((outsAt1 V c n hn).2.2.2 : S512x1024.Idx → EReal) (ix2 r e))

/-- The recurrence's state the invariant names at a point: after key block min(ki, qi). -/
def target (t : Fin cfg1.N) (r : Fin 512) (e : Fin 1024) : EReal × EReal × EReal :=
  run (Sblk x wq wk (bOf t) (key (qiOf t) r)) (Vblk x wv (bOf t) e) (min (t.val % 4) ((t.val / 4) % 4))

/-- At a point of the first key block the carried values are one step of the recurrence from (-∞, 0, 0). -/
theorem ptA (h : QkvIs V c x wq wk wv) (t : Fin cfg1.N) (h0 : t.val % 4 = 0) (r : Fin 512) (e : Fin 1024) :
    stAt V c t.val t.isLt r e = step (Sblk x wq wk (bOf t) (key (qiOf t) r) (t.val % 4)) (Vblk x wv (bOf t) e (t.val % 4)) (⊥, 0, 0) := by
  have h1 : t.val % 4 ≤ t.val / 4 % 4 := by omega
  unfold stAt
  rw [outsAt1_A V c t h0]
  dsimp only
  unfold sout1_A_0 sout1_A_1 sout1_A_2
  rw [rowMax_A, denom_A, numer_A]
  refine (init_update_eq_step _ _ _ _ _ r e).trans ?_
  rw [sfun_eq V c x wq wk wv h t h1 r, vfun_eq V c x wq wk wv h t h1 e]

/-- At a point of a later key block not after the query block the carried values advance by one step. -/
theorem ptBC (h : QkvIs V c x wq wk wv) (t : Fin cfg1.N) (h0 : ¬t.val % 4 = 0) (h1 : t.val % 4 ≤ t.val / 4 % 4) (r : Fin 512) (e : Fin 1024) :
    stAt V c t.val t.isLt r e = step (Sblk x wq wk (bOf t) (key (qiOf t) r) (t.val % 4)) (Vblk x wv (bOf t) e (t.val % 4))
      (stAt V c (t.val - 1) (Nat.lt_of_le_of_lt (Nat.sub_le _ _) t.isLt) r e) := by
  unfold stAt
  by_cases h2 : t.val % 4 = 3
  · rw [outsAt1_C V c t h1 h2]
    dsimp only
    unfold sout1_C_0 sout1_C_1 sout1_C_2
    rw [rowMax_C, denom_C, numer_C]
    refine (update_eq_step _ _ _ _ _ _ _ _ r e).trans ?_
    rw [sfun_eq V c x wq wk wv h t h1 r, vfun_eq V c x wq wk wv h t h1 e]
  · rw [outsAt1_B V c t h0 h1 h2]
    dsimp only
    unfold sout1_B_0 sout1_B_1 sout1_B_2
    rw [rowMax_B, denom_B, numer_B]
    refine (update_eq_step _ _ _ _ _ _ _ _ r e).trans ?_
    rw [sfun_eq V c x wq wk wv h t h1 r, vfun_eq V c x wq wk wv h t h1 e]

/-- At a point of a key block after the query block the carried values are left as they were. -/
theorem ptDE (t : Fin cfg1.N) (h1 : ¬t.val % 4 ≤ t.val / 4 % 4) (r : Fin 512) (e : Fin 1024) :
    stAt V c t.val t.isLt r e = stAt V c (t.val - 1) (Nat.lt_of_le_of_lt (Nat.sub_le _ _) t.isLt) r e := by
  unfold stAt
  by_cases h2 : t.val % 4 = 3
  · rw [outsAt1_E V c t h1 h2]; rfl
  · rw [outsAt1_D V c t h1 h2]; rfl

/-- THE INVARIANT: after every grid point the three carried values are the blockwise recurrence's state after the
    last key block that point's query block has met. -/
theorem state_inv (h : QkvIs V c x wq wk wv) : ∀ (n : ℕ) (hn : n < cfg1.N) (r : Fin 512) (e : Fin 1024),
    stAt V c n hn r e = target x wq wk wv ⟨n, hn⟩ r e := by
  intro n
  induction n with
  | zero =>
    intro hn r e
    rw [ptA V c x wq wk wv h ⟨0, hn⟩ rfl r e]
    rfl
  | succ n ih =>
    intro hn r e
    have hN : cfg1.N = 64 := N_1
    by_cases h0 : (n + 1) % 4 = 0
    · rw [ptA V c x wq wk wv h ⟨n + 1, hn⟩ h0 r e]
      unfold target
      show step (Sblk x wq wk _ _ ((n + 1) % 4)) (Vblk x wv _ e ((n + 1) % 4)) (⊥, 0, 0) = run _ _ (min ((n + 1) % 4) ((n + 1) / 4 % 4))
      rw [h0, Nat.zero_min]
      rfl
    · have hprev : n < cfg1.N := Nat.lt_of_succ_lt hn
      have e4 : (n + 1) / 4 = n / 4 := by omega
      have e16 : (n + 1) / 16 = n / 16 := by omega
      have em : (n + 1) % 4 = n % 4 + 1 := by omega
      have hb : bOf (⟨n + 1, hn⟩ : Fin cfg1.N) = bOf (⟨n, hprev⟩ : Fin cfg1.N) := Fin.ext e16
      have hq : qiOf (⟨n + 1, hn⟩ : Fin cfg1.N) = qiOf (⟨n, hprev⟩ : Fin cfg1.N) := Fin.ext (by show (n + 1) / 4 % 4 = n / 4 % 4; rw [e4])
      have hs : stAt V c (n + 1 - 1) (Nat.lt_of_le_of_lt (Nat.sub_le _ _) hn) r e = stAt V c n hprev r e := rfl
      by_cases h1 : (n + 1) % 4 ≤ (n + 1) / 4 % 4
      · rw [ptBC V c x wq wk wv h ⟨n + 1, hn⟩ h0 h1 r e]
        show step _ _ (stAt V c (n + 1 - 1) _ r e) = _
        rw [hs, ih hprev r e]
        unfold target
        rw [hb, hq]
        show step (Sblk x wq wk _ _ ((n + 1) % 4)) (Vblk x wv _ e ((n + 1) % 4)) (run _ _ (min (n % 4) (n / 4 % 4))) = run _ _ (min ((n + 1) % 4) ((n + 1) / 4 % 4))
        have m1 : min ((n + 1) % 4) ((n + 1) / 4 % 4) = n % 4 + 1 := by rw [Nat.min_eq_left h1, em]
        have m0 : min (n % 4) (n / 4 % 4) = n % 4 := by apply Nat.min_eq_left; omega
        rw [m1, m0, em]
        rfl
      · rw [ptDE V c ⟨n + 1, hn⟩ h1 r e]
        show stAt V c (n + 1 - 1) _ r e = _
        rw [hs, ih hprev r e]
        unfold target
        rw [hb, hq]
        show run _ _ (min (n % 4) (n / 4 % 4)) = run _ _ (min ((n + 1) % 4) ((n + 1) / 4 % 4))
        have m1 : min ((n + 1) % 4) ((n + 1) / 4 % 4) = (n + 1) / 4 % 4 := by apply Nat.min_eq_right; omega
        have m0 : min (n % 4) (n / 4 % 4) = n / 4 % 4 := by apply Nat.min_eq_right; omega
        rw [m1, m0, e4]

/-- At a point of the last key block the stored output block is numerator / denominator of the carried values. -/
theorem ptOut (t : Fin cfg1.N) (h2 : t.val % 4 = 3) (r : Fin 512) (e : Fin 1024) :
    ((outsAt1 V c t.val t.isLt).1 : S1x512x1024.Idx → EReal) (ix3 (0 : Fin 1) r e)
      = Ideal.div (stAt V c t.val t.isLt r e).2.2 (stAt V c t.val t.isLt r e).2.1 := by
  unfold stAt
  by_cases h1 : t.val % 4 ≤ t.val / 4 % 4
  · rw [outsAt1_C V c t h1 h2]
    dsimp only
    unfold out1_C_3 sout1_C_1 sout1_C_2
    rw [block_C, denom_C, numer_C]
    exact finalise_apply _ _ r e
  · rw [outsAt1_E V c t h1 h2]
    dsimp only
    unfold out1_E_3 sout1_E_1 sout1_E_2
    rw [block_E]
    exact finalise_apply _ _ r e

/-- The stored output block holds the specification's attention entries of its batch and query block. -/
theorem out_value (h : QkvIs V c x wq wk wv) (t : Fin cfg1.N) (h2 : t.val % 4 = 3) (r : Fin 512) (e : Fin 1024) :
    ((outsAt1 V c t.val t.isLt).1 : S1x512x1024.Idx → EReal) (ix3 (0 : Fin 1) r e)
      = attn x wq wk wv (bOf t) (key (qiOf t) r) e := by
  rw [ptOut V c t h2 r e, state_inv V c x wq wk wv h t.val t.isLt r e]
  unfold target
  have hm : min (t.val % 4) (t.val / 4 % 4) = (qiOf t).val := by
    show min (t.val % 4) (t.val / 4 % 4) = t.val / 4 % 4
    apply Nat.min_eq_right; omega
  rw [hm]
  exact (attn_eq_run x wq wk wv h.hx h.hq h.hk h.hv (bOf t) (qiOf t) r e).symm

/-- THE VALUE OF THE ATTENTION CALL: its output array ends at the specification of the arrays whose projections
    it was given. -/
theorem region1_value (h : QkvIs V c x wq wk wv) : (dat1 (F := Ideal) V c).arrAt 3 cfg1.N = G x wq wk wv :=
  region1_array V c (G x wq wk wv) fun t h2 r e => by
    rw [out_value V c x wq wk wv h t h2 r e]
    rfl

end

end Cert.KernelIdeal.Hand

end
-- ==== Proof.KI_HostValue.lean ====
/-
  The kernel program's host operations, read index by index over the extended reals.

  Before the first kernel region the host lays the arguments out for it: the activation array
  [4, 2048, 1024] is reshaped to [8192, 1024] (row  b·2048 + s  is position s of batch b), each of the three weight
  matrices gets a leading unit axis, the three are stacked along that axis into [3, 1024, 1024], and the stack is
  narrowed to a shorter float format — which changes nothing over the extended reals. After the region its output
  [3, 8192, 1024] is reshaped to [3, 4, 2048, 1024], again by  row = b·2048 + s.

  Each buffer after a host stretch is first written as the stretch's operations applied to what the buffers held
  before, and then read at an index with explicit coordinates: a reshape keeps the row-major position, a broadcast
  onto a new unit axis forgets that axis, a stacking reads the piece the stacked coordinate names.
-/
import proofs.«131958_j46909632807066_2_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (outs : Outs (F := Ideal))

/-- Row  b·2048 + s  of the flattened activation array is below 8192. -/
theorem row_lt (b : Fin 4) (s : Fin 2048) : b.val * 2048 + s.val < 8192 := by
  have := b.isLt; have := s.isLt; omega

/-- The flattened row of position `s` of batch `b`. -/
abbrev row (b : Fin 4) (s : Fin 2048) : Fin 8192 := ⟨b.val * 2048 + s.val, row_lt b s⟩

/-! ## The buffers after each host stretch, as terms -/

/-- After the first host stretch the flattened activations are the reshape of the activation argument. -/
theorem v0_term (c : Dev nD) :
    (V1 (F := Ideal) m c main_v0 : S8192x1024.Idx → EReal)
      = shapeCast S8192x1024 (m ((c : Thread nD τ).loc main_arg0) : S4x2048x1024.Idx → EReal)
          shapeCasts_S4x2048x1024_S8192x1024 := by
  dsimp only [V1, V0, hostOps0]
  after_results
  rfl

/-- After the first host stretch the weight stack is the (narrowed) stacking of the three weight arguments, each with a
    leading unit axis. -/
theorem v5_term (c : Dev nD) :
    (V1 (F := Ideal) m c main_v5 : S3x1024x1024.Idx → EReal)
      = truncf (F := Ideal) .bf16 (concatenate S3x1024x1024 0
          [⟨S1x1024x1024, broadcastInDim S1x1024x1024 ![1, 2] bcast_S1024x1024_S1x1024x1024_1_2
              (m ((c : Thread nD τ).loc main_arg1) : S1024x1024.Idx → EReal)⟩,
           ⟨S1x1024x1024, broadcastInDim S1x1024x1024 ![1, 2] bcast_S1024x1024_S1x1024x1024_1_2
              (m ((c : Thread nD τ).loc main_arg2) : S1024x1024.Idx → EReal)⟩,
           ⟨S1x1024x1024, broadcastInDim S1x1024x1024 ![1, 2] bcast_S1024x1024_S1x1024x1024_1_2
              (m ((c : Thread nD τ).loc main_arg3) : S1024x1024.Idx → EReal)⟩]
          concatenates_S1x1024x1024_S1x1024x1024_S1x1024x1024_S3x1024x1024_d0) bitsLt_bf16_f32 := by
  dsimp only [V1, V0, hostOps0]
  after_results
  rfl

/-- The first region may change only its output buffer, which then holds what the region left there. -/
theorem v6_eq (c : Dev nD) : V2 (F := Ideal) m outs c main_v6 = outs 2 main_v6 c := by
  dsimp only [V2]
  rw [Function.update_self]

/-- After the second host stretch the per-batch view of the region's output is its reshape, whatever the region left. -/
theorem v7_term (c : Dev nD) :
    (V3 (F := Ideal) m outs c main_v7 : S3x4x2048x1024.Idx → EReal)
      = shapeCast S3x4x2048x1024 (outs 2 main_v6 c : S3x8192x1024.Idx → EReal)
          shapeCasts_S3x8192x1024_S3x4x2048x1024 := by
  dsimp only [V3, V2]
  generalize V1 (F := Ideal) m c = W
  dsimp only [hostOps1]
  after_results
  rw [Function.update_self]
  rfl

/-! ## The same buffers at an index -/

/-- The flattened activations at row  b·2048 + s, feature d: the activation argument at (b, s, d) — the two indices have
    the same row-major position  (b·2048 + s)·1024 + d. -/
theorem v0_apply (c : Dev nD) (b : Fin 4) (s : Fin 2048) (d : Fin 1024) :
    (V1 (F := Ideal) m c main_v0 : S8192x1024.Idx → EReal) (ix2 (row b s) d)
      = (m ((c : Thread nD τ).loc main_arg0) : S4x2048x1024.Idx → EReal) (ix3 b s d) := by
  rw [v0_term]
  refine shapeCast_apply _ _ _ (ix3 b s d) ?_
  rw [Shape.rowMajor_val_three, Shape.rowMajor_val_two]
  rfl

/-- A matrix given a leading unit axis, read at layer 0, row d, column e, is the matrix at (d, e). -/
theorem unit_layer_apply (x : S1024x1024.Idx → EReal) (d e : Fin 1024) :
    broadcastInDim S1x1024x1024 ![1, 2] bcast_S1024x1024_S1x1024x1024_1_2 x (ix3 (0 : Fin 1) d e) = x (ix2 d e) :=
  broadcastInDim_apply _ bcast_S1024x1024_S1x1024x1024_1_2 x _ (ix2 d e) (fun a => match a with
    | ⟨0, _⟩ => by show d.val = if (1024 : Nat) = 1 then 0 else d.val; rw [if_neg (by decide)]
    | ⟨1, _⟩ => by show e.val = if (1024 : Nat) = 1 then 0 else e.val; rw [if_neg (by decide)])

/-- The stacked weights at layer 0: the first weight matrix. The layer coordinate 0 falls in the first of the three
    one-layer pieces (0 layers before it), at layer 0 of that piece; the piece is the matrix with a leading unit axis. -/
theorem v5_apply0 (c : Dev nD) (d e : Fin 1024) :
    (V1 (F := Ideal) m c main_v5 : S3x1024x1024.Idx → EReal) (ix3 (0 : Fin 3) d e)
      = (m ((c : Thread nD τ).loc main_arg1) : S1024x1024.Idx → EReal) (ix2 d e) := by
  rw [v5_term, truncf_apply]
  refine (concatenate_apply_piece (0 : Fin S3x1024x1024.rank) _ _ (ix3 (0 : Fin 3) d e) 0 (by simp) S1x1024x1024 _ rfl rfl 0 rfl
    (ix3 (0 : Fin 1) d e) ?_ rfl).trans ?_
  · intro b hb
    match b with
    | ⟨0, _⟩ => exact absurd rfl hb
    | ⟨1, _⟩ => rfl
    | ⟨2, _⟩ => rfl
  · exact unit_layer_apply _ d e

/-- The stacked weights at layer 1: the second weight matrix. The layer coordinate 1 falls in the second of the three
    one-layer pieces (1 layer before it), at layer 0 of that piece; the piece is the matrix with a leading unit axis. -/
theorem v5_apply1 (c : Dev nD) (d e : Fin 1024) :
    (V1 (F := Ideal) m c main_v5 : S3x1024x1024.Idx → EReal) (ix3 (1 : Fin 3) d e)
      = (m ((c : Thread nD τ).loc main_arg2) : S1024x1024.Idx → EReal) (ix2 d e) := by
  rw [v5_term, truncf_apply]
  refine (concatenate_apply_piece (0 : Fin S3x1024x1024.rank) _ _ (ix3 (1 : Fin 3) d e) 1 (by simp) S1x1024x1024 _ rfl rfl 1 rfl
    (ix3 (0 : Fin 1) d e) ?_ rfl).trans ?_
  · intro b hb
    match b with
    | ⟨0, _⟩ => exact absurd rfl hb
    | ⟨1, _⟩ => rfl
    | ⟨2, _⟩ => rfl
  · exact unit_layer_apply _ d e

/-- The stacked weights at layer 2: the third weight matrix. The layer coordinate 2 falls in the third of the three
    one-layer pieces (2 layers before it), at layer 0 of that piece; the piece is the matrix with a leading unit axis. -/
theorem v5_apply2 (c : Dev nD) (d e : Fin 1024) :
    (V1 (F := Ideal) m c main_v5 : S3x1024x1024.Idx → EReal) (ix3 (2 : Fin 3) d e)
      = (m ((c : Thread nD τ).loc main_arg3) : S1024x1024.Idx → EReal) (ix2 d e) := by
  rw [v5_term, truncf_apply]
  refine (concatenate_apply_piece (0 : Fin S3x1024x1024.rank) _ _ (ix3 (2 : Fin 3) d e) 2 (by simp) S1x1024x1024 _ rfl rfl 2 rfl
    (ix3 (0 : Fin 1) d e) ?_ rfl).trans ?_
  · intro b hb
    match b with
    | ⟨0, _⟩ => exact absurd rfl hb
    | ⟨1, _⟩ => rfl
    | ⟨2, _⟩ => rfl
  · exact unit_layer_apply _ d e

/-- The per-batch view of the first region's output at (layer p, batch b, position s, feature e): the output at
    (p, b·2048 + s, e), whatever the region left there — both indices have row-major position
    ((p·4 + b)·2048 + s)·1024 + e. -/
theorem v7_apply (c : Dev nD) (p : Fin 3) (b : Fin 4) (s : Fin 2048) (e : Fin 1024) :
    (V3 (F := Ideal) m outs c main_v7 : S3x4x2048x1024.Idx → EReal) (ix4 p b s e)
      = (outs 2 main_v6 c : S3x8192x1024.Idx → EReal) (ix3 p (row b s) e) := by
  rw [v7_term]
  refine shapeCast_apply _ _ _ (ix3 p (row b s) e) ?_
  rw [Shape.rowMajor_val_three, Shape.rowMajor_val_four]
  show (p.val * 8192 + (b.val * 2048 + s.val)) * 1024 + e.val = ((p.val * 4 + b.val) * 2048 + s.val) * 1024 + e.val
  omega

end Cert.KernelIdeal.Hand

end
-- ==== Proof.KI_R0Value.lean ====
/- THE VALUE of region 0 (the fused q/k/v projection) on the extended reals, read at an index: the output array's
   entry \`(p, r, e)\` is row \`r\` of x times column \`e\` of weight matrix \`p\`, a plain sum of products. One projection's
   payload at an index (a block product into a zero accumulator; the roundings to bf16 and the shape casts are the
   identity or a re-indexing), the output block as one function of the input blocks, each block as part of its array,
   and the blocks of rows tiling the array. -/
import proofs.«131958_j46909632807066_2_alg».proof.Proof.KI_R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The projection's dot at an index -/

/-- The block product's dimension numbers: rows × contraction times contraction × columns. -/
local notation "𝔇" => dot_S512x1024_S1024x1024_S512x1024_1_0_0_1_n_n

theorem projDot_lhs0 (j : S512x1024.Idx) (q : (dot_S512x1024_S1024x1024_S512x1024_1_0_0_1_n_n).contr.Idx) :
    ((dot_S512x1024_S1024x1024_S512x1024_1_0_0_1_n_n).lhsIdx j q 0).val = (j 0).val := by
  unfold DotDims.lhsIdx
  rw [dif_neg (show ¬(0 : Fin S512x1024.rank) ∈ (dot_S512x1024_S1024x1024_S512x1024_1_0_0_1_n_n).lhsBatch by decide),
    dif_pos (show (0 : Fin S512x1024.rank) ∈ (dot_S512x1024_S1024x1024_S512x1024_1_0_0_1_n_n).lhsNonContracting by decide)]
  rfl
theorem projDot_lhs1 (j : S512x1024.Idx) (q : (dot_S512x1024_S1024x1024_S512x1024_1_0_0_1_n_n).contr.Idx) :
    ((dot_S512x1024_S1024x1024_S512x1024_1_0_0_1_n_n).lhsIdx j q 1).val = (q ⟨0, by decide⟩).val :=
  (dot_S512x1024_S1024x1024_S512x1024_1_0_0_1_n_n).lhsIdx_val_of_single rfl j q
theorem projDot_rhs0 (j : S512x1024.Idx) (q : (dot_S512x1024_S1024x1024_S512x1024_1_0_0_1_n_n).contr.Idx) :
    ((dot_S512x1024_S1024x1024_S512x1024_1_0_0_1_n_n).rhsIdx j q 0).val = (q ⟨0, by decide⟩).val :=
  (dot_S512x1024_S1024x1024_S512x1024_1_0_0_1_n_n).rhsIdx_val_of_single rfl j q
theorem projDot_rhs1 (j : S512x1024.Idx) (q : (dot_S512x1024_S1024x1024_S512x1024_1_0_0_1_n_n).contr.Idx) :
    ((dot_S512x1024_S1024x1024_S512x1024_1_0_0_1_n_n).rhsIdx j q 1).val = (j 1).val := by
  unfold DotDims.rhsIdx
  rw [dif_neg (show ¬(1 : Fin S1024x1024.rank) ∈ (dot_S512x1024_S1024x1024_S512x1024_1_0_0_1_n_n).rhsBatch by decide),
    dif_pos (show (1 : Fin S1024x1024.rank) ∈ (dot_S512x1024_S1024x1024_S512x1024_1_0_0_1_n_n).rhsNonContracting by decide)]
  rfl

/-- One projection's payload at an index: row \`a\` of x's block times column \`e\` of the weight matrix — the
    roundings to bf16 are the identity on the extended reals, the accumulator is zero. -/
theorem proj_apply (X : Vec Ideal S512x1024 .f32) (W : Vec Ideal S1x1024x1024 .bf16) (u : Fin 1) (a : Fin 512) (e : Fin 1024) :
    k0_pay2 (F := Ideal) X W (ix3 u a e) = ∑ d : Fin 1024, X (ix2 a d) * W (ix3 (0 : Fin 1) d e) := by
  unfold k0_pay2
  refine (shapeCast_ab_1ab_apply _ _ u a e).trans ?_
  refine (Ideal.matmul_constant_zero_apply dot_S512x1024_S1024x1024_S512x1024_1_0_0_1_n_n none _ _ (ix2 a e)).trans ?_
  rw [← Equiv.sum_comp (contrEquiv1 dot_S512x1024_S1024x1024_S512x1024_1_0_0_1_n_n 1024 rfl rfl).symm]
  refine Finset.sum_congr rfl fun d _ => ?_
  have hk := contrEquiv1_symm_val dot_S512x1024_S1024x1024_S512x1024_1_0_0_1_n_n 1024 rfl rfl d
  have el : (dot_S512x1024_S1024x1024_S512x1024_1_0_0_1_n_n).lhsIdx (ix2 a e) ((contrEquiv1 dot_S512x1024_S1024x1024_S512x1024_1_0_0_1_n_n 1024 rfl rfl).symm d) = ix2 a d :=
    funext fun b => Fin.ext (by
      match b with
      | ⟨0, _⟩ => exact projDot_lhs0 _ _
      | ⟨1, _⟩ => exact (projDot_lhs1 _ _).trans hk)
  have er : (dot_S512x1024_S1024x1024_S512x1024_1_0_0_1_n_n).rhsIdx (ix2 a e) ((contrEquiv1 dot_S512x1024_S1024x1024_S512x1024_1_0_0_1_n_n 1024 rfl rfl).symm d) = ix2 d e :=
    funext fun b => Fin.ext (by
      match b with
      | ⟨0, _⟩ => exact (projDot_rhs0 _ _).trans hk
      | ⟨1, _⟩ => exact projDot_rhs1 _ _)
  rw [el, er]
  refine congrArg₂ (· * ·) ?_ (shapeCast_1ab_ab_apply W _ d e)
  unfold k0_pay1
  rw [shapeCast_self]
  rfl

/-- The three projections are one function of x's block and a weight matrix. -/
theorem pay3_eq (X : Vec Ideal S512x1024 .f32) (W : Vec Ideal S1x1024x1024 .bf16) : k0_pay3 (F := Ideal) X W = k0_pay2 X W := rfl
theorem pay4_eq (X : Vec Ideal S512x1024 .f32) (W : Vec Ideal S1x1024x1024 .bf16) : k0_pay4 (F := Ideal) X W = k0_pay2 X W := rfl

/-! ## What the body leaves in the output block, as one function of the input blocks -/

/-- The three projections of a block of rows: at \`(p, a, e)\`, row \`a\` of x's block times column \`e\` of weight
    matrix \`p\`. -/
def projBlock (x0 : Vec Ideal S512x1024 .f32) (x1 : Vec Ideal S3x1024x1024 .bf16) : Vec Ideal S3x512x1024 .bf16 :=
  fun y => ∑ d : Fin 1024, x0 (ix2 (⟨(y 1).val, (y 1).isLt⟩ : Fin 512) d)
    * x1 (ix3 (⟨(y 0).val, (y 0).isLt⟩ : Fin 3) d (⟨(y 2).val, (y 2).isLt⟩ : Fin 1024))

theorem projBlock_apply (x0 : Vec Ideal S512x1024 .f32) (x1 : Vec Ideal S3x1024x1024 .bf16) (p : Fin 3) (a : Fin 512) (e : Fin 1024) :
    projBlock x0 x1 (ix3 p a e) = ∑ d : Fin 1024, x0 (ix2 a d) * x1 (ix3 p d e) := rfl

/-- Slab \`p\` of the output block is stored with the projection of x's whole block by weight matrix \`p\`. -/
theorem slab_piece (x0 : Vec Ideal S512x1024 .f32) (x1 : Vec Ideal S3x1024x1024 .bf16) (p : Fin 3)
    (inbW : ∀ a, (![p.val, 0, 0] : Fin 3 → Nat) a + S1x1024x1024.size a ≤ S3x1024x1024.size a)
    (inbO : ∀ a, (![p.val, 0, 0] : Fin 3 → Nat) a + S1x512x1024.size a ≤ S3x512x1024.size a) (x : S1x512x1024.Idx) :
    k0_pay2 (F := Ideal) (View.ld x0 xRect) (View.ld x1 (Rect.unit (s := S3x1024x1024) ![p.val, 0, 0] S1x1024x1024.size inbW)) x
      = projBlock x0 x1 ((Rect.unit (s := S3x512x1024) ![p.val, 0, 0] S1x512x1024.size inbO).emb x) := by
  obtain ⟨u, a, e, rfl⟩ : ∃ (u : Fin 1) (a : Fin 512) (e : Fin 1024), x = ix3 u a e := ⟨x 0, x 1, x 2, eq_ix3 x⟩
  refine (proj_apply _ _ u a e).trans ?_
  have he : (Rect.unit (s := S3x512x1024) ![p.val, 0, 0] S1x512x1024.size inbO).emb (ix3 u a e) = ix3 p a e :=
    funext fun b => Fin.ext (by
      match b with
      | ⟨0, _⟩ => show p.val + 1 * u.val = p.val; omega
      | ⟨1, _⟩ => show 0 + 1 * a.val = a.val; omega
      | ⟨2, _⟩ => show 0 + 1 * e.val = e.val; omega)
  rw [he, projBlock_apply]
  refine Finset.sum_congr rfl fun d _ => ?_
  refine congrArg₂ (· * ·) (congrArg x0 ?_) (congrArg x1 ?_)
  · funext b; apply Fin.ext
    match b with
    | ⟨0, _⟩ => show 0 + 1 * a.val = a.val; omega
    | ⟨1, _⟩ => show 0 + 1 * d.val = d.val; omega
  · funext b; apply Fin.ext
    match b with
    | ⟨0, _⟩ => show p.val + 1 * 0 = p.val; omega
    | ⟨1, _⟩ => show 0 + 1 * d.val = d.val; omega
    | ⟨2, _⟩ => show 0 + 1 * e.val = e.val; omega

/-- So the output block after the body is \`projBlock\` of the input blocks. -/
theorem out0_2_eq (x0 : Vec Ideal S512x1024 .f32) (x1 : Vec Ideal S3x1024x1024 .bf16) : out0_2 (F := Ideal) x0 x1 = projBlock x0 x1 := by
  funext y
  unfold out0_2
  refine View.canon_apply_of_pieces (projBlock x0 x1) _ ?_ y (cover0_2 _ _ _ y)
  intro pc hpc
  simp only [List.mem_cons, List.mem_nil_iff, or_false] at hpc
  rcases hpc with rfl | rfl | rfl
  · intro x; exact (congrFun (pay4_eq _ _) x).trans (slab_piece x0 x1 2 inb_S3x1024x1024_S1x1024x1024_2_0_0 inb_S3x512x1024_S1x512x1024_2_0_0 x)
  · intro x; exact (congrFun (pay3_eq _ _) x).trans (slab_piece x0 x1 1 inb_S3x1024x1024_S1x1024x1024_1_0_0 inb_S3x512x1024_S1x512x1024_1_0_0 x)
  · intro x; exact slab_piece x0 x1 0 inb_S3x1024x1024_S1x1024x1024_0_0_0 inb_S3x512x1024_S1x512x1024_0_0_0 x

/-! ## From blocks to the array -/

section Value
-- the TensorCore's buffer contents when the region is entered
variable (V : (c : Dev nD) → (b : Ref sig .tc) → Buf (Elt Ideal) ((c : Thread nD τ).loc b))

/-- The region's result as one function of its two arrays: at \`(p, r, e)\`, row \`r\` of x times column \`e\` of weight
    matrix \`p\`. -/
def qkvG (A0 : S8192x1024.Idx → EReal) (A1 : S3x1024x1024.Idx → EReal) : S3x8192x1024.Idx → EReal :=
  fun i => ∑ d : Fin 1024, A0 (ix2 (⟨(i 1).val, (i 1).isLt⟩ : Fin 8192) d)
    * A1 (ix3 (⟨(i 0).val, (i 0).isLt⟩ : Fin 3) d (⟨(i 2).val, (i 2).isLt⟩ : Fin 1024))

theorem qkvG_apply (A0 : S8192x1024.Idx → EReal) (A1 : S3x1024x1024.Idx → EReal) (p : Fin 3) (r : Fin 8192) (e : Fin 1024) :
    qkvG A0 A1 (ix3 p r e) = ∑ d : Fin 1024, A0 (ix2 r d) * A1 (ix3 p d e) := rfl

/-- The printed index maps over the grid: x's window and the output's move with the point along the rows, the weight
    stack's stays. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- x's block at point \`t\` is rows \`512 t … 512 t + 511\` of x. -/
theorem iblk0_0_apply (c : Dev nD) (t : Fin cfg0.N) (x : S512x1024.Idx) (k : S8192x1024.Idx)
    (hk0 : (k 0).val = t.val * 512 + (x 0).val) (hk1 : (k 1).val = (x 1).val) :
    (iblk0 V c 0 t : Vec Ideal S512x1024 .f32) x = (V c main_v0 : S8192x1024.Idx → EReal) k := by
  obtain ⟨e0, e1, -⟩ := idx_facts0 t
  unfold iblk0
  rw [View.read_apply]
  show V c main_v0 _ = V c main_v0 _
  refine congrArg (V c main_v0) ?_
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weight window's block is the whole stack at every point. -/
theorem iblk0_1_eq (c : Dev nD) (t : Fin cfg0.N) :
    (iblk0 V c 1 t : Vec Ideal S3x1024x1024 .bf16) = (V c main_v5 : S3x1024x1024.Idx → EReal) := by
  obtain ⟨-, -, e2, e3, e4, -⟩ := idx_facts0 t
  funext x
  unfold iblk0
  rw [View.read_apply]
  show V c main_v5 _ = V c main_v5 _
  refine congrArg (V c main_v5) ?_
  funext a
  apply Fin.ext
  match a with
  | ⟨0, _⟩ => show win0_1.index t 0 * 3 + 1 * (x 0).val = (x 0).val; rw [e2]; omega
  | ⟨1, _⟩ => show win0_1.index t 1 * 1024 + 1 * (x 1).val = (x 1).val; rw [e3]; omega
  | ⟨2, _⟩ => show win0_1.index t 2 * 1024 + 1 * (x 2).val = (x 2).val; rw [e4]; omega

/-- What point \`t\` writes back is block \`t\` of \`qkvG\` of the arrays as the region finds them. -/
theorem flushed0_2_eq (c : Dev nD) (t : Fin cfg0.N) :
    (dat0 V c).flushed 2 t = ((cfg0.win 2).blk t).view.read (Elt Ideal) (qkvG (V c main_v0) (V c main_v5)) := by
  show (cfg0.win 2).cut (grid0.coords t) ((dat0 V c).after 2 t) = _
  rw [after0_2, out0_2_eq, iblk0_1_eq]
  obtain ⟨-, -, -, -, -, e5, e6, e7⟩ := idx_facts0 t
  have hN : cfg0.N = 16 := N_0
  have ht : t.val < 16 := hN ▸ t.isLt
  funext j
  obtain ⟨p, a, e, rfl⟩ : ∃ (p : Fin 3) (a : Fin 512) (e : Fin 1024), j = ix3 p a e := ⟨j 0, j 1, j 2, eq_ix3 j⟩
  show projBlock (iblk0 V c 0 t) (V c main_v5) (ix3 p a e)
    = qkvG (V c main_v0) (V c main_v5) (((cfg0.win 2).blk t).view.emb (ix3 p a e))
  have hemb : ((cfg0.win 2).blk t).view.emb (ix3 p a e) = ix3 p (⟨t.val * 512 + a.val, by omega⟩ : Fin 8192) e :=
    funext fun b => Fin.ext (by
      match b with
      | ⟨0, _⟩ => show win0_2.index t 0 * 3 + 1 * p.val = p.val; rw [e5]; omega
      | ⟨1, _⟩ => show win0_2.index t 1 * 512 + 1 * a.val = t.val * 512 + a.val; rw [e6]; omega
      | ⟨2, _⟩ => show win0_2.index t 2 * 1024 + 1 * e.val = e.val; rw [e7]; omega)
  rw [hemb, projBlock_apply, qkvG_apply]
  refine Finset.sum_congr rfl fun d _ => ?_
  exact congrArg (· * _) (iblk0_0_apply V c t (ix2 a d) (ix2 (⟨t.val * 512 + a.val, by omega⟩ : Fin 8192) d) rfl rfl)

/-- An index of the output array is in point \`t\`'s block iff each coordinate is in the block's range on its axis. -/
theorem mem_blk0_2 (t : Fin cfg0.N) (i : S3x8192x1024.Idx) :
    i ∈ ((cfg0.win 2).blk t).view.set ↔ ∀ a : Fin 3, win0_2.index t a * S3x512x1024.size a ≤ (i a).val ∧ (i a).val < win0_2.index t a * S3x512x1024.size a + S3x512x1024.size a := by
  show i ∈ ((View.whole main_v6).slice (win0_2.rect t)).set ↔ _
  rw [View.set_slice_whole, Rect.mem_set_unit]
  exact Iff.rfl

/-- The output array after the region: \`qkvG\` of x and the weight stack as the region finds them (the blocks of rows
    tile it: row \`r\` is in the block of point \`r / 512\`). -/
theorem region0_array (c : Dev nD) : (dat0 V c).arrAt 2 cfg0.N = qkvG (V c main_v0) (V c main_v5) :=
  (dat0 V c).arrAt_eq_of_cover 2 (qkvG (V c main_v0) (V c main_v5)) (fun t _ => flushed0_2_eq V c t) fun i => by
    have hN : cfg0.N = 16 := N_0
    have h0 : (i 0).val < 3 := (i 0).isLt
    have h1 : (i 1).val < 8192 := (i 1).isLt
    have h2 : (i 2).val < 1024 := (i 2).isLt
    refine ⟨⟨(i 1).val / 512, by omega⟩, flush0_2 _, ?_⟩
    obtain ⟨-, -, -, -, -, e5, e6, e7⟩ := idx_facts0 ⟨(i 1).val / 512, by omega⟩
    rw [mem_blk0_2]
    intro a
    match a with
    | ⟨0, _⟩ => show win0_2.index _ 0 * 3 ≤ (i 0).val ∧ (i 0).val < win0_2.index _ 0 * 3 + 3; rw [e5]; omega
    | ⟨1, _⟩ => show win0_2.index _ 1 * 512 ≤ (i 1).val ∧ (i 1).val < win0_2.index _ 1 * 512 + 512; rw [e6]; show (i 1).val / 512 * 512 ≤ (i 1).val ∧ (i 1).val < (i 1).val / 512 * 512 + 512; omega
    | ⟨2, _⟩ => show win0_2.index _ 2 * 1024 ≤ (i 2).val ∧ (i 2).val < win0_2.index _ 2 * 1024 + 1024; rw [e7]; omega

/-- x, the weight stack and the region's output array as functions of an index: the first two as the region finds
    them, the third as the region leaves it. -/
abbrev xIn (c : Dev nD) : S8192x1024.Idx → EReal := V c main_v0
abbrev wIn (c : Dev nD) : S3x1024x1024.Idx → EReal := V c main_v5
abbrev qkvOut (c : Dev nD) : S3x8192x1024.Idx → EReal := (dat0 V c).arrAt 2 cfg0.N

/-- THE VALUE of region 0 at an index: entry \`(p, r, e)\` of the output array is row \`r\` of x times column \`e\` of
    weight matrix \`p\`, a plain sum of products on the extended reals. -/
theorem region0_value (c : Dev nD) (p : Fin 3) (r : Fin 8192) (e : Fin 1024) :
    qkvOut V c (ix3 p r e) = ∑ d : Fin 1024, xIn V c (ix2 r d) * wIn V c (ix3 p d e) := by
  show (dat0 V c).arrAt 2 cfg0.N (ix3 p r e) = _
  rw [region0_array]
  rfl

end Value

end Cert.KernelIdeal.Hand

end
-- ==== Proof.KI_QkvValue.lean ====
/-
  What the attention call reads is the three projections of the launch arrays.

  The first kernel region multiplies the flattened activations by the stack of the three weight matrices: entry
  (p, r, e) of its output is  ∑ d, x[r, d] · W_p[d, e].  The host then views the output per batch, row  r = b·2048 + s
  becoming (b, s). Reading the flattened activations and the weight stack back to the launch arrays — a reshape, and a
  stacking of the matrices each given a unit axis — entry (p, b, s, e) of what the attention call reads is
  ∑ d, x[b, s, d] · W_p[d, e]: the query, key and value projections for p = 0, 1, 2.
-/
import proofs.«131958_j46909632807066_2_alg».proof.Proof.KI_HostValue
import proofs.«131958_j46909632807066_2_alg».proof.Proof.KI_R0Value
import proofs.«131958_j46909632807066_2_alg».proof.Proof.KI_Run
import proofs.«131958_j46909632807066_2_alg».proof.Proof.KI_QkvIs

noncomputable section

open scoped BigOperators

namespace Cert.KernelIdeal.Hand

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- The first region's output buffer, as the second host stretch finds it, holds what the region's write-backs left. -/
theorem outsA_v6 (c : Dev nD) :
    outsA m (dat0 (F := Ideal)) 2 main_v6 c = out0 m (dat0 (F := Ideal)) c := by
  unfold outsA
  exact Function.update_self ..

/-- Entry (p, b, s, e) of what the attention call reads: row  b·2048 + s  of the flattened activations against column e
    of layer p of the weight stack, both as the first region found them. -/
theorem qkv_sum (c : Dev nD) (p : Fin 3) (b : Fin 4) (s : Fin 2048) (e : Fin 1024) :
    qkvIn (V3' m (dat0 (F := Ideal))) c (ix4 p b s e)
      = ∑ d : Fin 1024, xIn (V1' m) c (ix2 (row b s) d) * wIn (V1' m) c (ix3 p d e) := by
  show (V3 (F := Ideal) m (outsA m (dat0 (F := Ideal))) c main_v7 : S3x4x2048x1024.Idx → EReal) (ix4 p b s e) = _
  rw [v7_apply, outsA_v6]
  unfold out0
  exact region0_value (V1' m) c p (row b s) e

/-- Layer 0 is the query projection of the launch arrays. -/
theorem qkv_proj0 (c : Dev nD) (b : Fin 4) (s : Fin 2048) (e : Fin 1024) :
    qkvIn (V3' m (dat0 (F := Ideal))) c (ix4 (0 : Fin 3) b s e)
      = Cert.Spec.proj (m ((c : Thread nD τ).loc main_arg0)) (m ((c : Thread nD τ).loc main_arg1)) b s e := by
  rw [qkv_sum]
  unfold Cert.Spec.proj
  refine Finset.sum_congr rfl fun d _ => ?_
  have h0 : xIn (V1' m) c (ix2 (row b s) d)
      = (m ((c : Thread nD τ).loc main_arg0) : S4x2048x1024.Idx → EReal) (ix3 b s d) := v0_apply m c b s d
  have h5 : wIn (V1' m) c (ix3 (0 : Fin 3) d e)
      = (m ((c : Thread nD τ).loc main_arg1) : S1024x1024.Idx → EReal) (ix2 d e) := v5_apply0 m c d e
  rw [h0, h5]

/-- Layer 1 is the key projection. -/
theorem qkv_proj1 (c : Dev nD) (b : Fin 4) (s : Fin 2048) (e : Fin 1024) :
    qkvIn (V3' m (dat0 (F := Ideal))) c (ix4 (1 : Fin 3) b s e)
      = Cert.Spec.proj (m ((c : Thread nD τ).loc main_arg0)) (m ((c : Thread nD τ).loc main_arg2)) b s e := by
  rw [qkv_sum]
  unfold Cert.Spec.proj
  refine Finset.sum_congr rfl fun d _ => ?_
  have h0 : xIn (V1' m) c (ix2 (row b s) d)
      = (m ((c : Thread nD τ).loc main_arg0) : S4x2048x1024.Idx → EReal) (ix3 b s d) := v0_apply m c b s d
  have h5 : wIn (V1' m) c (ix3 (1 : Fin 3) d e)
      = (m ((c : Thread nD τ).loc main_arg2) : S1024x1024.Idx → EReal) (ix2 d e) := v5_apply1 m c d e
  rw [h0, h5]

/-- Layer 2 is the value projection. -/
theorem qkv_proj2 (c : Dev nD) (b : Fin 4) (s : Fin 2048) (e : Fin 1024) :
    qkvIn (V3' m (dat0 (F := Ideal))) c (ix4 (2 : Fin 3) b s e)
      = Cert.Spec.proj (m ((c : Thread nD τ).loc main_arg0)) (m ((c : Thread nD τ).loc main_arg3)) b s e := by
  rw [qkv_sum]
  unfold Cert.Spec.proj
  refine Finset.sum_congr rfl fun d _ => ?_
  have h0 : xIn (V1' m) c (ix2 (row b s) d)
      = (m ((c : Thread nD τ).loc main_arg0) : S4x2048x1024.Idx → EReal) (ix3 b s d) := v0_apply m c b s d
  have h5 : wIn (V1' m) c (ix3 (2 : Fin 3) d e)
      = (m ((c : Thread nD τ).loc main_arg3) : S1024x1024.Idx → EReal) (ix2 d e) := v5_apply2 m c d e
  rw [h0, h5]

/-- With every entry of the four launch arrays a real number, the array the attention call reads holds the three
    projections of those arrays. -/
theorem qkv_is (m : (ℓ : Loc nD τ sig) → Buf (Elt Ideal) ℓ) (c : Dev nD)
    (hx : ∀ i, ∃ r : ℝ, (m ((c : Thread nD τ).loc main_arg0) : S4x2048x1024.Idx → EReal) i = (r : EReal))
    (hq : ∀ i, ∃ r : ℝ, (m ((c : Thread nD τ).loc main_arg1) : S1024x1024.Idx → EReal) i = (r : EReal))
    (hk : ∀ i, ∃ r : ℝ, (m ((c : Thread nD τ).loc main_arg2) : S1024x1024.Idx → EReal) i = (r : EReal))
    (hv : ∀ i, ∃ r : ℝ, (m ((c : Thread nD τ).loc main_arg3) : S1024x1024.Idx → EReal) i = (r : EReal)) :
    QkvIs (V3' m (dat0 (F := Ideal))) c (m ((c : Thread nD τ).loc main_arg0)) (m ((c : Thread nD τ).loc main_arg1))
      (m ((c : Thread nD τ).loc main_arg2)) (m ((c : Thread nD τ).loc main_arg3)) :=
  ⟨hx, hq, hk, hv, qkv_proj0 m c, qkv_proj1 m c, qkv_proj2 m c⟩

end Cert.KernelIdeal.Hand

end
-- ==== Proof.RefValue.lean ====
/-
  The reference program read index by index over the extended reals is the specification function of its four
  argument arrays.

  The program is plain causal self-attention.  Three matrix products give the query, key and value rows; a batched
  product of query rows against key rows gives the raw scores; an upper-triangular mask, built by comparing a row
  counter with a column counter, replaces the score of every key AFTER the query by -∞; every score is multiplied by
  1/32; a row's maximum is the fold of `max` from -∞ over the 2048 keys (and then once more the maximum with -∞); the
  maximum is subtracted, the exponential taken, the row summed from 0, each exponential divided by the row's sum,
  and the quotients contracted against the value rows.

  Each stage is read at an index whose coordinates are explicit (a batch, a query position, a key position or a
  feature), so that every composed index function of the stage-by-stage reading collapses to a coordinate triple or
  pair, and the stage is identified with the matching piece of the specification: a projection entry, a score, a
  row maximum, a softmax weight, a denominator, an output entry.
-/
import proofs.«131958_j46909632807066_2_alg».proof.Proof.Gen.ReferenceIdeal.Read
import proofs.«131958_j46909632807066_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words and folds -/

/-- The float word of -∞ denotes the bottom element of the extended reals. -/
theorem neg_inf_word : Ideal.ofBits .f32 0xFF800000#32 = (⊥ : EReal) := by simp [Ideal.ofBits, Ideal.ieee]

/-- Folding `max` from -∞ over a finite family of extended reals gives the family's supremum. -/
theorem fold_max_eq_sup {ι : Type} (s : Finset ι) (f : ι → EReal) : s.fold max ⊥ f = s.sup f := by
  classical
  induction s using Finset.induction_on with
  | empty => simp
  | insert a s ha ih => rw [Finset.fold_insert ha, Finset.sup_insert, ih]

/-- A position below 2048, as a 32-bit word read signed, is itself. -/
theorem toInt_small (k : Nat) (hk : k < 2048) : (BitVec.ofNat 32 k).toInt = (k : Int) := by
  rw [BitVec.toInt_eq_toNat_cond, BitVec.toNat_ofNat, Nat.mod_eq_of_lt (by omega), if_pos (by omega)]

/-- The triangular mask's bit at row `q`, column `k`: the signed comparison `q + 0 ≥ k` selects 0, otherwise 1 — so
    the bit is 1 exactly when the column lies strictly after the row. -/
theorem triu_bit (q k : Nat) (hq : q < 2048) (hk : k < 2048) :
    Scalar.select (IntOp.cmpi .sge (IntOp.addi (BitVec.ofNat 32 q) 0#32) (BitVec.ofNat 32 k)) (0#1) (1#1)
      = if q < k then (1#1 : BitVec 1) else 0#1 := by
  have hle : (BitVec.ofNat 32 k).sle (BitVec.ofNat 32 q) = decide (k ≤ q) := by
    rw [BitVec.sle, toInt_small k hk, toInt_small q hq]
    simp
  unfold IntOp.cmpi IntOp.addi Scalar.select
  simp only [BitVec.add_zero, hle]
  by_cases h : q < k
  · have : ¬ k ≤ q := by omega
    simp [h, this]
  · have : k ≤ q := by omega
    simp [h, this]

/-! ## The stages at explicit coordinates -/

/-- An activation array (batch × position × feature) of extended reals. -/
abbrev AV : Type := (⟨S4x2048x1024, .f32⟩ : BufTy).Contents (Elt Ideal)
/-- A weight matrix (input feature × output feature) of extended reals. -/
abbrev WV : Type := (⟨S1024x1024, .f32⟩ : BufTy).Contents (Elt Ideal)

/-- The query projection at (batch, position, feature) is the specification's projection entry. -/
theorem proj_q (x : AV) (w : WV) (b : Fin 4) (s : Fin 2048) (e : Fin 1024) :
    val_main_v0 (F := Ideal) x w (ix3 b s e) = Cert.Spec.proj x w b s e := by
  rw [val_main_v0_apply]
  unfold Cert.Spec.proj
  refine Finset.sum_congr rfl fun d _ => ?_
  have el : lidx_main_v0 (ix3 b s e) d = ix3 b s d := funext fun a => Fin.ext (by
    match a with | ⟨0, _⟩ => rfl | ⟨1, _⟩ => rfl | ⟨2, _⟩ => rfl)
  have er : ridx_main_v0 (ix3 b s e) d = ix2 d e := funext fun a => Fin.ext (by
    match a with | ⟨0, _⟩ => rfl | ⟨1, _⟩ => rfl)
  rw [el, er]

/-- The key projection likewise. -/
theorem proj_k (x : AV) (w : WV) (b : Fin 4) (s : Fin 2048) (e : Fin 1024) :
    val_main_v1 (F := Ideal) x w (ix3 b s e) = Cert.Spec.proj x w b s e := by
  rw [val_main_v1_apply]
  unfold Cert.Spec.proj
  refine Finset.sum_congr rfl fun d _ => ?_
  have el : lidx_main_v1 (ix3 b s e) d = ix3 b s d := funext fun a => Fin.ext (by
    match a with | ⟨0, _⟩ => rfl | ⟨1, _⟩ => rfl | ⟨2, _⟩ => rfl)
  have er : ridx_main_v1 (ix3 b s e) d = ix2 d e := funext fun a => Fin.ext (by
    match a with | ⟨0, _⟩ => rfl | ⟨1, _⟩ => rfl)
  rw [el, er]

/-- The value projection likewise. -/
theorem proj_v (x : AV) (w : WV) (b : Fin 4) (s : Fin 2048) (e : Fin 1024) :
    val_main_v2 (F := Ideal) x w (ix3 b s e) = Cert.Spec.proj x w b s e := by
  rw [val_main_v2_apply]
  unfold Cert.Spec.proj
  refine Finset.sum_congr rfl fun d _ => ?_
  have el : lidx_main_v2 (ix3 b s e) d = ix3 b s d := funext fun a => Fin.ext (by
    match a with | ⟨0, _⟩ => rfl | ⟨1, _⟩ => rfl | ⟨2, _⟩ => rfl)
  have er : ridx_main_v2 (ix3 b s e) d = ix2 d e := funext fun a => Fin.ext (by
    match a with | ⟨0, _⟩ => rfl | ⟨1, _⟩ => rfl)
  rw [el, er]

/-- The raw score of query `q` against key `k`: the inner product of the projected query row and key row. -/
theorem qk_apply (x : AV) (wq wk : WV) (b : Fin 4) (q k : Fin 2048) :
    val_main_v3 (F := Ideal) x wq wk (ix3 b q k)
      = ∑ e : Fin 1024, Cert.Spec.proj x wq b q e * Cert.Spec.proj x wk b k e := by
  rw [val_main_v3_apply]
  refine Finset.sum_congr rfl fun e _ => ?_
  have el : lidx_main_v3 (ix3 b q k) e = ix3 b q e := funext fun a => Fin.ext (by
    match a with | ⟨0, _⟩ => rfl | ⟨1, _⟩ => rfl | ⟨2, _⟩ => rfl)
  have er : ridx_main_v3 (ix3 b q k) e = ix3 b k e := funext fun a => Fin.ext (by
    match a with | ⟨0, _⟩ => rfl | ⟨1, _⟩ => rfl | ⟨2, _⟩ => rfl)
  rw [el, er, proj_q, proj_k]

/-- The mask broadcast over the batch, at (batch, query, key): 1 exactly when the key lies after the query. -/
theorem mask_apply (b : Fin 4) (q k : Fin 2048) :
    val_main_call1_v1 (F := Ideal) (ix3 b q k) = if q.val < k.val then (1#1 : BitVec 1) else 0#1 := by
  rw [val_main_call1_v1_apply, val_main_v6_apply, val_main_v5_apply, val_main_call0_v4_apply, val_main_call0_v2_apply,
    val_main_call0_v0_apply, val_main_call0_v1_apply, val_main_call0_c_apply, val_main_call0_v3_apply,
    val_main_call0_v5_apply, val_main_call0_c_0_apply, val_main_v4_apply, val_main_c_apply]
  exact triu_bit q.val k.val q.isLt k.isLt

/-- The masked and scaled score is the specification's score. -/
theorem score_apply (x : AV) (wq wk : WV) (b : Fin 4) (q k : Fin 2048) :
    val_main_v9 (F := Ideal) x wq wk (ix3 b q k) = Cert.Spec.score x wq wk b q k := by
  rw [val_main_v9_apply, val_main_v7_apply, mask_apply, val_main_call1_v2_apply, val_main_call1_v0_apply,
    val_main_cst_apply, val_main_v8_apply, val_main_cst_0_apply, qk_apply]
  unfold Cert.Spec.score Cert.Spec.scale
  simp only [Ideal.mulf_def, Ideal.ofBits_def, neg_inf_word]
  by_cases h : q.val < k.val
  · rw [if_pos h, if_pos h, select_one]
  · rw [if_neg h, if_neg h, select_zero]

/-- A maximum-reduction from -∞ along the key axis, at (batch, query), is the supremum over the 2048 keys. -/
theorem hostMax_apply (y : FVec Ideal S4x2048x2048 .f32) (b : Fin 4) (q : Fin 2048) :
    Host.reduce FloatOps.maximumf y (val_main_cst_1 (F := Ideal)) reducesTo_S4x2048x2048_S4x2048_d2 h_S_ (ix2 b q)
      = Finset.univ.sup fun k : Fin 2048 => y (ix3 b q k) := by
  have h : S4x2048x2048.Reduces [2] S4x2048 := by decide
  rw [Host.reduce_eq_fold_single FloatOps.maximumf y _ reducesTo_S4x2048x2048_S4x2048_d2 h h_S_]
  have hf : (y ∘ h.lift (ix2 b q)) = fun k : Fin 2048 => y (ix3 b q k) :=
    funext fun k => congrArg y (funext fun a => Fin.ext (by
    match a with | ⟨0, _⟩ => rfl | ⟨1, _⟩ => rfl | ⟨2, _⟩ => rfl))
  refine Eq.trans (congrArg (fun f => Finset.fold max (Ideal.ofBits .f32 0xFF800000#32) f
    (Finset.univ : Finset (Fin 2048))) hf) ?_
  rw [neg_inf_word]
  exact fold_max_eq_sup _ _

/-- The row maximum is the specification's. -/
theorem rowmax_apply (x : AV) (wq wk : WV) (b : Fin 4) (q : Fin 2048) :
    val_main_v12 (F := Ideal) x wq wk (ix2 b q) = Cert.Spec.rowMax x wq wk b q := by
  rw [val_main_v12_apply, val_main_v11_apply, val_main_cst_2_apply]
  unfold val_main_v10
  rw [hostMax_apply]
  unfold Cert.Spec.rowMax
  simp only [Ideal.maximumf_def, Ideal.ofBits_def, neg_inf_word, score_apply]

/-- The exponential of a score less its row's maximum is the specification's softmax weight. -/
theorem weight_apply (x : AV) (wq wk : WV) (b : Fin 4) (q k : Fin 2048) :
    val_main_v16 (F := Ideal) x wq wk (ix3 b q k) = Cert.Spec.weight x wq wk b q k := by
  rw [val_main_v16_apply, val_main_v15_apply, val_main_v14_apply, val_main_v13_apply, score_apply]
  have e : idx_main_v13 (idx_main_v14 (ix3 b q k)) = ix2 b q := funext fun a => Fin.ext (by
    match a with | ⟨0, _⟩ => rfl | ⟨1, _⟩ => rfl)
  rw [e, rowmax_apply]
  unfold Cert.Spec.weight
  simp only [Ideal.hostUnary_exp_def, Ideal.subf_def]

/-- The row sum from 0 of the weights is the specification's denominator. -/
theorem denom_apply (x : AV) (wq wk : WV) (b : Fin 4) (q : Fin 2048) :
    val_main_v17 (F := Ideal) x wq wk (ix2 b q) = Cert.Spec.denom x wq wk b q := by
  rw [val_main_v17_apply, val_main_cst_3_apply]
  unfold Cert.Spec.denom
  simp only [Ideal.ofBits_def, Ideal.ofBits_zero_f32, zero_add]
  refine Finset.sum_congr rfl fun k _ => ?_
  have e : idx_main_v17 (ix2 b q) k = ix3 b q k := funext fun a => Fin.ext (by
    match a with | ⟨0, _⟩ => rfl | ⟨1, _⟩ => rfl | ⟨2, _⟩ => rfl)
  rw [e, weight_apply]

/-- The normalised weight: the weight divided by its row's denominator. -/
theorem prob_apply (x : AV) (wq wk : WV) (b : Fin 4) (q k : Fin 2048) :
    val_main_v20 (F := Ideal) x wq wk (ix3 b q k)
      = Ideal.div (Cert.Spec.weight x wq wk b q k) (Cert.Spec.denom x wq wk b q) := by
  rw [val_main_v20_apply, val_main_v19_apply, val_main_v18_apply, weight_apply]
  have e : idx_main_v18 (idx_main_v19 (ix3 b q k)) = ix2 b q := funext fun a => Fin.ext (by
    match a with | ⟨0, _⟩ => rfl | ⟨1, _⟩ => rfl)
  rw [e, denom_apply]
  simp only [Ideal.hostDivf_def]

/-- One output entry: the normalised weights contracted against the value rows. -/
theorem out_apply (x : AV) (wq wk wv : WV) (b : Fin 4) (q : Fin 2048) (e : Fin 1024) :
    val_main_v21 (F := Ideal) x wq wk wv (ix3 b q e) = Cert.Spec.attn x wq wk wv b q e := by
  rw [val_main_v21_apply]
  unfold Cert.Spec.attn
  refine Finset.sum_congr rfl fun k _ => ?_
  have el : lidx_main_v21 (ix3 b q e) k = ix3 b q k := funext fun a => Fin.ext (by
    match a with | ⟨0, _⟩ => rfl | ⟨1, _⟩ => rfl | ⟨2, _⟩ => rfl)
  have er : ridx_main_v21 (ix3 b q e) k = ix3 b k e := funext fun a => Fin.ext (by
    match a with | ⟨0, _⟩ => rfl | ⟨1, _⟩ => rfl | ⟨2, _⟩ => rfl)
  rw [el, er, prob_apply, proj_v]

/-! ## The whole array -/

/-- The last stage, as a function of the four argument arrays, is the specification. -/
theorem val_eq_G (x : AV) (wq wk wv : WV) :
    val_main_v21 (F := Ideal) x wq wk wv = Cert.Spec.G x wq wk wv := by
  funext i
  obtain ⟨b, q, e, rfl⟩ : ∃ (b : Fin 4) (q : Fin 2048) (e : Fin 1024), i = ix3 b q e := ⟨i 0, i 1, i 2, eq_ix3 i⟩
  rw [out_apply]
  rfl

/-- The run's result term, under the name the run's statement uses, is the specification function of the launch contents
    of the four arguments (the form a rewrite of the run's statement meets). -/
theorem ref_eq_run (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v21 (F := Ideal) m c
      = Cert.Spec.G (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3)) := by
  rw [val_main_v21_eq]
  exact val_eq_G _ _ _ _

/-- The reference run's result array is the specification function of the launch contents of its four arguments. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.Spec.G (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3)) :=
  ref_eq_run m c

end Cert.ReferenceIdeal.RefValue

end
-- ==== Proof.Finite.lean ====
/-
  What the precondition says of the arguments: each of the four arrays compares `|·| < +∞` entrywise and all of
  the comparisons are conjoined into one bit; that bit being 1 means every entry of every array is a real number
  (an extended real whose absolute value is below +∞ is neither infinity).
-/
import proofs.«131958_j46909632807066_2_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- An entry whose absolute value compares below the word of +∞ is a real number. -/
theorem real_of_abs_lt_top {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  rw [cmpf_apply, broadcastInDim_apply _ hb _ i ix0 (fun a => a.elim0), constant_apply] at e
  have htop : Ideal.ofBits .f32 0x7F800000#32 = (⊤ : EReal) := by simp [Ideal.ofBits, Ideal.ieee]
  rw [htop] at e
  have hlt : max (x i) (-(x i)) < (⊤ : EReal) := by
    have e' : Ideal.cmp .olt (max (x i) (-(x i))) ⊤ = 1#1 := e
    unfold Ideal.cmp at e'
    by_contra hn
    simp [hn] at e'
  induction hx : x i using EReal.rec with
  | bot => rw [hx] at hlt; simp at hlt
  | coe r => exact ⟨r, rfl⟩
  | top => rw [hx] at hlt; simp at hlt

/-- Under the precondition every entry of each of the four argument arrays is a real number. -/
theorem real_of_pre (x : FVec Ideal S4x2048x1024 .f32) (w1 w2 w3 : FVec Ideal S1024x1024 .f32)
    (h : Cert.Pre_finite_inputs.fn (F := Ideal) x w1 w2 w3 = fun _ => 1#1) :
    (∀ i, ∃ r : ℝ, x i = (r : EReal)) ∧ (∀ i, ∃ r : ℝ, w1 i = (r : EReal))
      ∧ (∀ i, ∃ r : ℝ, w2 i = (r : EReal)) ∧ (∀ i, ∃ r : ℝ, w3 i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt_top x _ i (Host.reduce_andi_all _ _ _ _ ix0 h1 i),
    fun i => real_of_abs_lt_top w1 _ i (Host.reduce_andi_all _ _ _ _ ix0 h2 i),
    fun i => real_of_abs_lt_top w2 _ i (Host.reduce_andi_all _ _ _ _ ix0 h3 i),
    fun i => real_of_abs_lt_top w3 _ i (Host.reduce_andi_all _ _ _ _ ix0 h4 i)⟩

end Cert.FiniteInputs

end
-- ==== Proof.lean ====
/-
  Causal self-attention with fused q, k, v projections, computed blockwise, against plain softmax attention.

  The kernel program runs two calls: the first writes the three projections q = x·Wq, k = x·Wk, v = x·Wv as one
  stacked array; the second walks, per batch and block of 512 queries, the blocks of 512 keys in turn, carrying per
  query a running maximum of the scaled, causally masked scores, a running sum of exponentials and a running
  weighted sum of value rows, rescaled whenever the maximum grows, and at the last key block stores their
  quotient. The reference forms all 2048 scores of a query, masks the keys after it with -∞, subtracts the
  maximum, exponentiates, divides by the sum, and takes the weighted sum of the value rows.

  Over the extended reals both end at one function of the four argument arrays (Spec.lean): the masked scores are
  -∞ on both sides (the kernel's large negative constant is named -∞) and their exponential is 0, the scale is the
  positive real 1/32, a matrix product into a zero accumulator is the plain sum, and the blockwise recurrence's
  final quotient is the softmax-weighted sum because exp (a - b) · exp (b - c) = exp (a - c) on the reals and a
  division by a positive real distributes over a finite sum of reals — which is where the precondition, every
  argument entry a real number, is used (OnlineSoftmax.lean, SpecBlocks.lean, KI_R1Value.lean).

  Each kernel program's frame — it runs to the end, nothing faults, the arguments end unchanged — is proved over
  the two calls in sequence: each call's body keeps its staging buffers and carried scratch as stated point by
  point, the three input windows of the second call share the one stacked array by thirds of its ownership, and
  the host operations between the calls only reshape (the modules K_… for the program as printed, KI_… for its
  idealization, the latter with the result array named). The reference's frame and value are its run read back.
-/
import proofs.«131958_j46909632807066_2_alg».proof.Defs
import proofs.«131958_j46909632807066_2_alg».proof.Proof.Gen.Kernel
import proofs.«131958_j46909632807066_2_alg».proof.Proof.Gen.KernelIdeal
import proofs.«131958_j46909632807066_2_alg».proof.Proof.Gen.ReferenceIdeal
import proofs.«131958_j46909632807066_2_alg».proof.Proof.Gen.ReferenceIdeal.Read
import proofs.«131958_j46909632807066_2_alg».proof.Proof.Gen.Pre_finite_inputs
import proofs.«131958_j46909632807066_2_alg».proof.Proof.K_R0
import proofs.«131958_j46909632807066_2_alg».proof.Proof.K_R1
import proofs.«131958_j46909632807066_2_alg».proof.Proof.K_Run
import proofs.«131958_j46909632807066_2_alg».proof.Proof.KI_R0
import proofs.«131958_j46909632807066_2_alg».proof.Proof.KI_R1
import proofs.«131958_j46909632807066_2_alg».proof.Proof.KI_Run
import proofs.«131958_j46909632807066_2_alg».proof.Proof.KI_R1Value
import proofs.«131958_j46909632807066_2_alg».proof.Proof.KI_QkvValue
import proofs.«131958_j46909632807066_2_alg».proof.Proof.RefValue
import proofs.«131958_j46909632807066_2_alg».proof.Proof.Finite
import Idealize.ShloMosaic.Adequacy
import Idealize.ShloMosaic.Init

noncomputable section

namespace Cert.Proof

open Idealize.ShloMosaic Idealize.SL.Sem

/-- The program as printed runs to the end and leaves its arguments unchanged. -/
theorem frame_k : Cert.frame_Kernel := fun m ρ _ =>
  Cert.Kernel.Hand.frame m ρ (Cert.Kernel.Hand.dat0 (F := Bits)) (Cert.Kernel.Hand.dat1 (F := Bits))
    (fun V c w => Cert.Kernel.Hand.A_eq0 V c w) (fun _ _ _ => rfl) (fun _ _ _ => rfl) (fun _ _ => rfl) (fun _ _ _ => rfl)
    (fun V c => Cert.Kernel.Hand.body_obligation0 V c)
    (fun V c w => Cert.Kernel.Hand.A_eq1 V c w) (fun V c w => Cert.Kernel.Hand.q_eq1 V c w) (fun V c t => Cert.Kernel.Hand.owed_eq1 V c t)
    (fun V c => Cert.Kernel.Hand.rec_eq1 V c) (fun V c => Cert.Kernel.Hand.hin1 V c) (fun V c => Cert.Kernel.Hand.hout1 V c)
    (fun V c => Cert.Kernel.Hand.body_obligation1 V c)

/-- The idealized program's run, with the result array named: the attention call's final output array. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = (Cert.KernelIdeal.Hand.dat1 (F := Ideal) (Cert.KernelIdeal.Hand.V3' m (Cert.KernelIdeal.Hand.dat0 (F := Ideal))) c).arrAt 3 Cert.KernelIdeal.cfg1.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  Cert.KernelIdeal.Hand.run_named m ρ (Cert.KernelIdeal.Hand.dat0 (F := Ideal)) (Cert.KernelIdeal.Hand.dat1 (F := Ideal))
    (fun V c w => Cert.KernelIdeal.Hand.A_eq0 V c w) (fun _ _ _ => rfl) (fun _ _ _ => rfl) (fun _ _ => rfl) (fun _ _ _ => rfl)
    (fun V c => Cert.KernelIdeal.Hand.body_obligation0 V c)
    (fun V c w => Cert.KernelIdeal.Hand.A_eq1 V c w) (fun V c w => Cert.KernelIdeal.Hand.q_eq1 V c w) (fun V c t => Cert.KernelIdeal.Hand.owed_eq1 V c t)
    (fun V c => Cert.KernelIdeal.Hand.rec_eq1 V c) (fun V c => Cert.KernelIdeal.Hand.hin1 V c) (fun V c => Cert.KernelIdeal.Hand.hout1 V c)
    (fun V c => Cert.KernelIdeal.Hand.body_obligation1 V c)

/-- The idealized program runs to the end and leaves its arguments unchanged. -/
theorem frame_ki : Cert.frame_KernelIdeal := fun m ρ _ =>
  (θ_run Cert.KernelIdeal.defs _ _).mono (fun _ h c => (h c).2) (run_ki m ρ)

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two sites of the large negative constant: the table gives its name the value -∞, and the printed
    constant is that value. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- From memories agreeing on the arguments both idealized programs end at the specification of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (run_ki m ρ)
    obtain ⟨hx, hq, hk, hv⟩ := Cert.FiniteInputs.real_of_pre _ _ _ _ (hpre c)
    exact Cert.KernelIdeal.Hand.region1_value _ c _ _ _ _ (Cert.KernelIdeal.Hand.qkv_is m c hx hq hk hv)
  · refine (θ_run Cert.ReferenceIdeal.defs _ _).mono (fun _ h c => ⟨?_, (h c).2⟩) (Cert.ReferenceIdeal.Value.run (F := Ideal) m' ρ')
    rw [(h c).1, Cert.ReferenceIdeal.RefValue.ref_eq_run, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
